-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S100x8 : Shape := ⟨2, ![100, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S72x64 : Shape := ⟨2, ![72, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100x8 : S_.BroadcastsInDim S100x8 (![] : Fin 0 → Fin S100x8.rank)
  reducesTo_S100x8_S_d0_1 : S100x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S72x64 : S_.BroadcastsInDim S72x64 (![] : Fin 0 → Fin S72x64.rank)
  reducesTo_S72x64_S_d0_1 : S72x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x2 .f32) (main_arg15 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x2 .f32 := Host.absf main_arg14
  let main_cst_22 : FVec F S_ .f32 := constant S_ .f32 0x7F800000#32
  let main_v60 : FVec F S32x2 .f32 := broadcastInDim S32x2 ![] bcast_S_S32x2 main_cst_22
  let main_v61 : IVec S32x2 1 := cmpf .olt main_v59 main_v60
  let main_c_23 : IVec S_ 1 := constantI S_ 1 1#1
  let main_v62 : IVec S_ 1 := (fun x v => Host.reduce IntOp.andi x v reducesTo_S32x2_S_d0_1 h_S_) main_v61 main_c_23
  let main_v63 : IVec S_ 1 := andi main_v58 main_v62
  let main_v64 : FVec F S2 .f32 := Host.absf main_arg15
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg9 : FVec F S64 .f32) (main_arg10 : FVec F S72x64 .f32) (main_arg11 : FVec F S64 .f32) (main_arg12 : FVec F S64x32 .f32) (main_arg13 : FVec F S32 .f32) (main_arg14 : FVec F S32x2 .f32) (main_arg15 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S72x64 .f32 := Host.absf main_arg10
  let main_cst_14 : FVec F S_ .f32 := constant S_ .f32 0x7F800000#32
  let main_v40 : FVec F S72x64 .f32 := broadcastInDim S72x64 ![] bcast_S_S72x64 main_cst_14
  let main_v41 : IVec S72x64 1 := cmpf .olt main_v39 main_v40
  let main_c_15 : IVec S_ 1 := constantI S_ 1 1#1
  let main_v42 : IVec S_ 1 := (fun x v => Host.reduce IntOp.andi x v reducesTo_S72x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S72x64 .f32) (main_arg11 : FVec F S64 .f32) (main_arg12 : FVec F S64x32 .f32) (main_arg13 : FVec F S32 .f32) (main_arg14 : FVec F S32x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x600000 32) (main_arg2 : IVec S50000 32) (main_arg3 : FVec F S100x8 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S72x64 .f32) (main_arg11 : FVec F S64 .f32) (main_arg12 : FVec F S64x32 .f32) (main_arg13 : FVec F S32 .f32) (main_arg14 : FVec F S32x2 .f32) (main_arg15 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100x8 .f32 := Host.absf main_arg3
  let main_cst_0 : FVec F S_ .f32 := constant S_ .f32 0x7F800000#32
  let main_v5 : FVec F S100x8 .f32 := broadcastInDim S100x8 ![] bcast_S_S100x8 main_cst_0
  let main_v6 : IVec S100x8 1 := cmpf .olt main_v4 main_v5
  let main_c_1 : IVec S_ 1 := constantI S_ 1 1#1
  let main_v7 : IVec S_ 1 := (fun x v => Host.reduce IntOp.andi x v reducesTo_S100x8_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S100x8 : Shape := ⟨2, ![100, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S72x64 : Shape := ⟨2, ![72, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S2000x128 : Shape := ⟨2, ![2000, 128]⟩
abbrev S2000x1 : Shape := ⟨2, ![2000, 1]⟩
abbrev S650000x128 : Shape := ⟨2, ![650000, 128]⟩
abbrev S1x128 : Shape := ⟨2, ![1, 128]⟩
abbrev S50000x64 : Shape := ⟨2, ![50000, 64]⟩
abbrev S2000x64 : Shape := ⟨2, ![2000, 64]⟩
abbrev S650000x64 : Shape := ⟨2, ![650000, 64]⟩
abbrev S1x64 : Shape := ⟨2, ![1, 64]⟩
abbrev S100x64 : Shape := ⟨2, ![100, 64]⟩
abbrev S100 : Shape := ⟨1, ![100]⟩
abbrev S100x1 : Shape := ⟨2, ![100, 1]⟩
abbrev S100x72 : Shape := ⟨2, ![100, 72]⟩
abbrev S1x32 : Shape := ⟨2, ![1, 32]⟩
abbrev S1x2 : Shape := ⟨2, ![1, 2]⟩
abbrev S100x2 : Shape := ⟨2, ![100, 2]⟩
abbrev S100x32 : Shape := ⟨2, ![100, 32]⟩

abbrev nBuf : Space → Nat
  | .hbm => 120
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S100x8, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S72x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x2, .f32⟩
  | .hbm, ⟨15, _⟩ => ⟨S2, .f32⟩
  | .hbm, ⟨16, _⟩ => ⟨S50000, .i32⟩
  | .hbm, ⟨17, _⟩ => ⟨S1x600000, .i32⟩
  | .hbm, ⟨18, _⟩ => ⟨S600000, .i32⟩
  | .hbm, ⟨19, _⟩ => ⟨S650000, .i32⟩
  | .hbm, ⟨20, _⟩ => ⟨S1x600000, .i32⟩
  | .hbm, ⟨21, _⟩ => ⟨S600000, .i32⟩
  | .hbm, ⟨22, _⟩ => ⟨S650000, .i32⟩
  | .hbm, ⟨23, _⟩ => ⟨S_, .f32⟩
  | .hbm, ⟨24, _⟩ => ⟨S650000, .f32⟩
  | .hbm, ⟨25, _⟩ => ⟨S_, .f32⟩
  | .hbm, ⟨26, _⟩ => ⟨S50000, .f32⟩
  | .hbm, ⟨27, _⟩ => ⟨S650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S128x128, .bf16⟩
  | .hbm, ⟨39, _⟩ => ⟨S128x128, .bf16⟩
  | .hbm, ⟨40, _⟩ => ⟨S128x64, .bf16⟩
  | .hbm, ⟨41, _⟩ => ⟨S50000x128, .bf16⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000x128, .bf16⟩
  | .hbm, ⟨51, _⟩ => ⟨S650000x128, .f32⟩
  | .hbm, ⟨52, _⟩ => ⟨S_, .f32⟩
  | .hbm, ⟨53, _⟩ => ⟨S50000x128, .f32⟩
  | .hbm, ⟨54, _⟩ => ⟨S650000x1, .i32⟩
  | .hbm, ⟨55, _⟩ => ⟨S50000x128, .f32⟩
  | .hbm, ⟨56, _⟩ => ⟨S1x128, .f32⟩
  | .hbm, ⟨57, _⟩ => ⟨S50000x128, .bf16⟩
  | .hbm, ⟨58, _⟩ => ⟨S_, .i32⟩
  | .hbm, ⟨59, _⟩ => ⟨S650000, .i32⟩
  | .hbm, ⟨60, _⟩ => ⟨S650000, .i1⟩
  | .hbm, ⟨61, _⟩ => ⟨S_, .i32⟩
  | .hbm, ⟨62, _⟩ => ⟨S650000, .i32⟩
  | .hbm, ⟨63, _⟩ => ⟨S650000, .i32⟩
  | .hbm, ⟨64, _⟩ => ⟨S650000, .i32⟩
  | .hbm, ⟨65, _⟩ => ⟨S650000x1, .i32⟩
  | .hbm, ⟨66, _⟩ => ⟨S650000x128, .bf16⟩
  | .hbm, ⟨67, _⟩ => ⟨S650000x128, .f32⟩
  | .hbm, ⟨68, _⟩ => ⟨S_, .f32⟩
  | .hbm, ⟨69, _⟩ => ⟨S50000x128, .f32⟩
  | .hbm, ⟨70, _⟩ => ⟨S650000x1, .i32⟩
  | .hbm, ⟨71, _⟩ => ⟨S50000x128, .f32⟩
  | .hbm, ⟨72, _⟩ => ⟨S1x128, .f32⟩
  | .hbm, ⟨73, _⟩ => ⟨S50000x64, .bf16⟩
  | .hbm, ⟨74, _⟩ => ⟨S_, .i32⟩
  | .hbm, ⟨75, _⟩ => ⟨S650000, .i32⟩
  | .hbm, ⟨76, _⟩ => ⟨S650000, .i1⟩
  | .hbm, ⟨77, _⟩ => ⟨S_, .i32⟩
  | .hbm, ⟨78, _⟩ => ⟨S650000, .i32⟩
  | .hbm, ⟨79, _⟩ => ⟨S650000, .i32⟩
  | .hbm, ⟨80, _⟩ => ⟨S650000, .i32⟩
  | .hbm, ⟨81, _⟩ => ⟨S650000x1, .i32⟩
  | .hbm, ⟨82, _⟩ => ⟨S650000x64, .bf16⟩
  | .hbm, ⟨83, _⟩ => ⟨S650000x64, .f32⟩
  | .hbm, ⟨84, _⟩ => ⟨S_, .f32⟩
  | .hbm, ⟨85, _⟩ => ⟨S50000x64, .f32⟩
  | .hbm, ⟨86, _⟩ => ⟨S650000x1, .i32⟩
  | .hbm, ⟨87, _⟩ => ⟨S50000x64, .f32⟩
  | .hbm, ⟨88, _⟩ => ⟨S50000x64, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S_, .f32⟩
  | .hbm, ⟨97, _⟩ => ⟨S100x64, .f32⟩
  | .hbm, ⟨98, _⟩ => ⟨S50000x1, .i32⟩
  | .hbm, ⟨99, _⟩ => ⟨S100x64, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S100, .f32⟩
  | .hbm, ⟨104, _⟩ => ⟨S50000x1, .i32⟩
  | .hbm, ⟨105, _⟩ => ⟨S100, .f32⟩
  | .hbm, ⟨106, _⟩ => ⟨S_, .f32⟩
  | .hbm, ⟨107, _⟩ => ⟨S100, .f32⟩
  | .hbm, ⟨108, _⟩ => ⟨S100, .f32⟩
  | .hbm, ⟨109, _⟩ => ⟨S100x1, .f32⟩
  | .hbm, ⟨110, _⟩ => ⟨S100x64, .f32⟩
  | .hbm, ⟨111, _⟩ => ⟨S100x64, .f32⟩
  | .hbm, ⟨112, _⟩ => ⟨S100x72, .f32⟩
  | .hbm, ⟨113, _⟩ => ⟨S72x64, .bf16⟩
  | .hbm, ⟨114, _⟩ => ⟨S1x64, .f32⟩
  | .hbm, ⟨115, _⟩ => ⟨S64x32, .bf16⟩
  | .hbm, ⟨116, _⟩ => ⟨S1x32, .f32⟩
  | .hbm, ⟨117, _⟩ => ⟨S32x2, .bf16⟩
  | .hbm, ⟨118, _⟩ => ⟨S1x2, .f32⟩
  | .hbm, ⟨119, _⟩ => ⟨S100x2, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x64, .bf16⟩
  | .local _ .vmem, ⟨21, _⟩ => ⟨S2000x64, .bf16⟩
  | .local _ .vmem, ⟨22, _⟩ => ⟨S2000x64, .bf16⟩
  | .local _ .vmem, ⟨23, _⟩ => ⟨S100x72, .f32⟩
  | .local _ .vmem, ⟨24, _⟩ => ⟨S72x64, .bf16⟩
  | .local _ .vmem, ⟨25, _⟩ => ⟨S1x64, .f32⟩
  | .local _ .vmem, ⟨26, _⟩ => ⟨S64x32, .bf16⟩
  | .local _ .vmem, ⟨27, _⟩ => ⟨S1x32, .f32⟩
  | .local _ .vmem, ⟨28, _⟩ => ⟨S32x2, .bf16⟩
  | .local _ .vmem, ⟨29, _⟩ => ⟨S1x2, .f32⟩
  | .local _ .vmem, ⟨30, _⟩ => ⟨S100x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_5 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call1_cst : Ref sig .tc := ⟨.hbm, 93, rfl⟩
abbrev main_call1_v0 : Ref sig .tc := ⟨.hbm, 94, rfl⟩
abbrev main_v62 : Ref sig .tc := ⟨.hbm, 95, rfl⟩
abbrev main_cst_11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S100x72 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S72x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x2 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S100x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  bcast_S1x64_S50000x64_0_1 : S1x64.BroadcastsInDim S50000x64 (![0, 1] : Fin 2 → Fin S50000x64.rank)
  bcast_S_S100x64 : S_.BroadcastsInDim S100x64 (![] : Fin 0 → Fin S100x64.rank)
  bcast_S50000_S50000x1_0 : S50000.BroadcastsInDim S50000x1 (![0] : Fin 1 → Fin S50000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  concatenates_S100x64_S100x8_S100x72_d1 : Shape.Concatenates [S100x64, S100x8] S100x72 1
  shapeCasts_S32_S1x32 : S32.ShapeCasts S1x32
  shapeCasts_S2_S1x2 : S2.ShapeCasts S1x2
  inb_S100x72_S100x72_0_0 : ∀ a, (![0, 0] : Fin 2 → Nat) a + S100x72.size a ≤ S100x72.size a
  h_S100x72 : 0 < S100x72.numel
  shapeCasts_S100x72_S100x72 : S100x72.ShapeCasts S100x72
  inb_S72x64_S72x64_0_0 : ∀ a, (![0, 0] : Fin 2 → Nat) a + S72x64.size a ≤ S72x64.size a
  h_S72x64 : 0 < S72x64.numel
  shapeCasts_S72x64_S72x64 : S72x64.ShapeCasts S72x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S100x64 : S1x64.Broadcasts S100x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S100x32 : S1x32.Broadcasts S100x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S100x2 : S1x2.Broadcasts S100x2
  inb_S100x2_S100x2_0_0 : ∀ a, (![0, 0] : Fin 2 → Nat) a + S100x2.size a ≤ S100x2.size a
  h_S100x2 : 0 < S100x2.numel
  scatter_S50000_S650000x1_S650000_n_0_0_1_wf : ScatterDims.WF S50000 S650000x1 S650000 [] [0] [0] 1
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S2000x128_S128x64_S2000x64_1_0_0_1_n_n_wf : DotDims.WF S2000x128 S128x64 S2000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  scatter_S100x64_S50000x1_S50000x64_1_0_0_1_wf : ScatterDims.WF S100x64 S50000x1 S50000x64 [1] [0] [0] 1
  scatter_S100_S50000x1_S50000_n_0_0_1_wf : ScatterDims.WF S100 S50000x1 S50000 [] [0] [0] 1
  dot_S100x72_S72x64_S100x64_1_0_0_1_n_n_wf : DotDims.WF S100x72 S72x64 S100x64 [1] [0] [0] [1] [] []
  dot_S100x64_S64x32_S100x32_1_0_0_1_n_n_wf : DotDims.WF S100x64 S64x32 S100x32 [1] [0] [0] [1] [] []
  dot_S100x32_S32x2_S100x2_1_0_0_1_n_n_wf : DotDims.WF S100x32 S32x2 S100x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S100x72.size a ≤ S100x72.size a
  hwx3_0 : ∀ i : grid3.Coords, EltTy.bits .f32 = 32 ∨ (Rect.block (s := S100x72) S100x72.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S72x64.size a ≤ S72x64.size a
  hwx3_1 : ∀ i : grid3.Coords, EltTy.bits .bf16 = 32 ∨ (Rect.block (s := S72x64) S72x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .bf16 = 32 ∨ (Rect.block (s := S64x32) S64x32.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x2.size a ≤ S32x2.size a
  hwx3_5 : ∀ i : grid3.Coords, EltTy.bits .bf16 = 32 ∨ (Rect.block (s := S32x2) S32x2.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S100x2.size a ≤ S100x2.size a
  hwx3_7 : ∀ i : grid3.Coords, EltTy.bits .f32 = 32 ∨ (Rect.block (s := S100x2) S100x2.size (cc3_transform_7 i) (hinb3_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def scatter_S100x64_S50000x1_S50000x64_1_0_0_1 : ScatterDims S100x64 S50000x1 S50000x64 where
  updateWindowDims := [1]
  insertedWindowDims := [0]
  scatterDimsToOperandDims := [0]
  indexVectorDim := 1
  wf := scatter_S100x64_S50000x1_S50000x64_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x72_S72x64_S100x64_1_0_0_1_n_n : DotDims S100x72 S72x64 S100x64 where
  lhsContracting := [1]
  rhsContracting := [0]
  lhsNonContracting := [0]
  rhsNonContracting := [1]
  lhsBatch := []
  rhsBatch := []
  wf := dot_S100x72_S72x64_S100x64_1_0_0_1_n_n_wf
def dot_S100x64_S64x32_S100x32_1_0_0_1_n_n : DotDims S100x64 S64x32 S100x32 where
  lhsContracting := [1]
  rhsContracting := [0]
  lhsNonContracting := [0]
  rhsNonContracting := [1]
  lhsBatch := []
  rhsBatch := []
  wf := dot_S100x64_S64x32_S100x32_1_0_0_1_n_n_wf
def dot_S100x32_S32x2_S100x2_1_0_0_1_n_n : DotDims S100x32 S32x2 S100x2 where
  lhsContracting := [1]
  rhsContracting := [0]
  lhsNonContracting := [0]
  rhsNonContracting := [1]
  lhsBatch := []
  rhsBatch := []
  wf := dot_S100x32_S32x2_S100x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v75) S100x72.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v76) S72x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S32x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v82) S100x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S100x8 : Shape := ⟨2, ![100, 8]⟩
abbrev S128x128 : Shape := ⟨2, ![128, 128]⟩
abbrev S128 : Shape := ⟨1, ![128]⟩
abbrev S128x64 : Shape := ⟨2, ![128, 64]⟩
abbrev S64 : Shape := ⟨1, ![64]⟩
abbrev S72x64 : Shape := ⟨2, ![72, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x64 : Shape := ⟨2, ![50000, 64]⟩
abbrev S650000x64 : Shape := ⟨2, ![650000, 64]⟩
abbrev S1x64 : Shape := ⟨2, ![1, 64]⟩
abbrev S100x64 : Shape := ⟨2, ![100, 64]⟩
abbrev S50000x1 : Shape := ⟨2, ![50000, 1]⟩
abbrev S100 : Shape := ⟨1, ![100]⟩
abbrev S100x1 : Shape := ⟨2, ![100, 1]⟩
abbrev S100x72 : Shape := ⟨2, ![100, 72]⟩
abbrev S100x32 : Shape := ⟨2, ![100, 32]⟩
abbrev S1x32 : Shape := ⟨2, ![1, 32]⟩
abbrev S100x2 : Shape := ⟨2, ![100, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S100x8, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S72x64, .f32⟩
  | 11 => ⟨S64, .f32⟩
  | 12 => ⟨S64x32, .f32⟩
  | 13 => ⟨S32, .f32⟩
  | 14 => ⟨S32x2, .f32⟩
  | 15 => ⟨S2, .f32⟩
  | 16 => ⟨S50000, .i32⟩
  | 17 => ⟨S1x600000, .i32⟩
  | 18 => ⟨S600000, .i32⟩
  | 19 => ⟨S650000, .i32⟩
  | 20 => ⟨S1x600000, .i32⟩
  | 21 => ⟨S600000, .i32⟩
  | 22 => ⟨S650000, .i32⟩
  | 23 => ⟨S_, .f32⟩
  | 24 => ⟨S650000, .f32⟩
  | 25 => ⟨S_, .f32⟩
  | 26 => ⟨S50000, .f32⟩
  | 27 => ⟨S650000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S50000x128, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x1, .f32⟩
  | 67 => ⟨S650000x128, .f32⟩
  | 68 => ⟨S650000x128, .f32⟩
  | 69 => ⟨S_, .f32⟩
  | 70 => ⟨S50000x128, .f32⟩
  | 71 => ⟨S650000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S_, .i32⟩
  | 81 => ⟨S650000, .i32⟩
  | 82 => ⟨S650000, .i1⟩
  | 83 => ⟨S_, .i32⟩
  | 84 => ⟨S650000, .i32⟩
  | 85 => ⟨S650000, .i32⟩
  | 86 => ⟨S650000, .i32⟩
  | 87 => ⟨S650000x1, .i32⟩
  | 88 => ⟨S650000x128, .f32⟩
  | 89 => ⟨S650000x1, .f32⟩
  | 90 => ⟨S650000x128, .f32⟩
  | 91 => ⟨S650000x128, .f32⟩
  | 92 => ⟨S_, .f32⟩
  | 93 => ⟨S50000x128, .f32⟩
  | 94 => ⟨S650000x1, .i32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x64, .f32⟩
  | 103 => ⟨S_, .i32⟩
  | 104 => ⟨S650000, .i32⟩
  | 105 => ⟨S650000, .i1⟩
  | 106 => ⟨S_, .i32⟩
  | 107 => ⟨S650000, .i32⟩
  | 108 => ⟨S650000, .i32⟩
  | 109 => ⟨S650000, .i32⟩
  | 110 => ⟨S650000x1, .i32⟩
  | 111 => ⟨S650000x64, .f32⟩
  | 112 => ⟨S650000x1, .f32⟩
  | 113 => ⟨S650000x64, .f32⟩
  | 114 => ⟨S650000x64, .f32⟩
  | 115 => ⟨S_, .f32⟩
  | 116 => ⟨S50000x64, .f32⟩
  | 117 => ⟨S650000x1, .i32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S_, .f32⟩
  | 126 => ⟨S100x64, .f32⟩
  | 127 => ⟨S50000x1, .i32⟩
  | _ => ⟨S50000x128, .f32⟩

abbrev hbmTy0_1 (i : Nat) : BufTy := match i % 128 with
  | 0 => ⟨S100x64, .f32⟩
  | 1 => ⟨S_, .f32⟩
  | 2 => ⟨S50000, .f32⟩
  | 3 => ⟨S_, .f32⟩
  | 4 => ⟨S100, .f32⟩
  | 5 => ⟨S50000x1, .i32⟩
  | 6 => ⟨S100, .f32⟩
  | 7 => ⟨S_, .f32⟩
  | 8 => ⟨S100, .f32⟩
  | 9 => ⟨S100, .f32⟩
  | 10 => ⟨S100x1, .f32⟩
  | 11 => ⟨S100x64, .f32⟩
  | 12 => ⟨S100x64, .f32⟩
  | 13 => ⟨S100x72, .f32⟩
  | 14 => ⟨S100x64, .f32⟩
  | 15 => ⟨S1x64, .f32⟩
  | 16 => ⟨S100x64, .f32⟩
  | 17 => ⟨S100x64, .f32⟩
  | 18 => ⟨S_, .f32⟩
  | 19 => ⟨S100x64, .f32⟩
  | 20 => ⟨S100x64, .f32⟩
  | 21 => ⟨S100x32, .f32⟩
  | 22 => ⟨S1x32, .f32⟩
  | 23 => ⟨S100x32, .f32⟩
  | 24 => ⟨S100x32, .f32⟩
  | 25 => ⟨S_, .f32⟩
  | 26 => ⟨S100x32, .f32⟩
  | 27 => ⟨S100x32, .f32⟩
  | 28 => ⟨S100x2, .f32⟩
  | 29 => ⟨S1x2, .f32⟩
  | 30 => ⟨S100x2, .f32⟩
  | 31 => ⟨S100x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call1_cst : Ref sig .tc := ⟨.hbm, 76, rfl⟩
abbrev main_call1_v0 : Ref sig .tc := ⟨.hbm, 77, rfl⟩
abbrev main_v47 : Ref sig .tc := ⟨.hbm, 78, rfl⟩
abbrev main_v48 : Ref sig .tc := ⟨.hbm, 79, rfl⟩
abbrev main_c_9 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call2_cst : Ref sig .tc := ⟨.hbm, 99, rfl⟩
abbrev main_call2_v0 : Ref sig .tc := ⟨.hbm, 100, rfl⟩
abbrev main_v65 : Ref sig .tc := ⟨.hbm, 101, rfl⟩
abbrev main_v66 : Ref sig .tc := ⟨.hbm, 102, rfl⟩
abbrev main_c_12 : Ref sig .tc := ⟨.hbm, 103, rfl⟩
abbrev main_v67 : Ref sig .tc := ⟨.hbm, 104, rfl⟩
abbrev main_v68 : Ref sig .tc := ⟨.hbm, 105, rfl⟩
abbrev main_c_13 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_14 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_cst_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_16 : Ref sig .tc := ⟨.hbm, 129, rfl⟩
abbrev main_v87 : Ref sig .tc := ⟨.hbm, 130, rfl⟩
abbrev main_cst_17 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call4_cst : Ref sig .tc := ⟨.hbm, 146, rfl⟩
abbrev main_call4_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_call5_cst : Ref sig .tc := ⟨.hbm, 153, rfl⟩
abbrev main_call5_v0 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S100x64 : S_.BroadcastsInDim S100x64 (![] : Fin 0 → Fin S100x64.rank)
  bcast_S50000_S50000x1_0 : S50000.BroadcastsInDim S50000x1 (![0] : Fin 1 → Fin S50000x1.rank)
  bcast_S_S100 : S_.BroadcastsInDim S100 (![] : Fin 0 → Fin S100.rank)
  bcast_S100_S100x1_0 : S100.BroadcastsInDim S100x1 (![0] : Fin 1 → Fin S100x1.rank)
  bcast_S100x1_S100x64_0_1 : S100x1.BroadcastsInDim S100x64 (![0, 1] : Fin 2 → Fin S100x64.rank)
  concatenates_S100x64_S100x8_S100x72_d1 : Shape.Concatenates [S100x64, S100x8] S100x72 1
  bcast_S1x64_S100x64_0_1 : S1x64.BroadcastsInDim S100x64 (![0, 1] : Fin 2 → Fin S100x64.rank)
  bcast_S32_S1x32_1 : S32.BroadcastsInDim S1x32 (![1] : Fin 1 → Fin S1x32.rank)
  bcast_S1x32_S100x32_0_1 : S1x32.BroadcastsInDim S100x32 (![0, 1] : Fin 2 → Fin S100x32.rank)
  bcast_S_S100x32 : S_.BroadcastsInDim S100x32 (![] : Fin 0 → Fin S100x32.rank)
  bcast_S2_S1x2_1 : S2.BroadcastsInDim S1x2 (![1] : Fin 1 → Fin S1x2.rank)
  bcast_S1x2_S100x2_0_1 : S1x2.BroadcastsInDim S100x2 (![0, 1] : Fin 2 → Fin S100x2.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  scatter_S100x64_S50000x1_S50000x64_1_0_0_1_wf : ScatterDims.WF S100x64 S50000x1 S50000x64 [1] [0] [0] 1
  scatter_S100_S50000x1_S50000_n_0_0_1_wf : ScatterDims.WF S100 S50000x1 S50000 [] [0] [0] 1
  dot_S100x72_S72x64_S100x64_1_0_0_1_n_n_wf : DotDims.WF S100x72 S72x64 S100x64 [1] [0] [0] [1] [] []
  dot_S100x64_S64x32_S100x32_1_0_0_1_n_n_wf : DotDims.WF S100x64 S64x32 S100x32 [1] [0] [0] [1] [] []
  dot_S100x32_S32x2_S100x2_1_0_0_1_n_n_wf : DotDims.WF S100x32 S32x2 S100x2 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf
def scatter_S100x64_S50000x1_S50000x64_1_0_0_1 : ScatterDims S100x64 S50000x1 S50000x64 where
  updateWindowDims := [1]
  insertedWindowDims := [0]
  scatterDimsToOperandDims := [0]
  indexVectorDim := 1
  wf := scatter_S100x64_S50000x1_S50000x64_1_0_0_1_wf
def scatter_S100_S50000x1_S50000_n_0_0_1 : ScatterDims S100 S50000x1 S50000 where
  updateWindowDims := []
  insertedWindowDims := [0]
  scatterDimsToOperandDims := [0]
  indexVectorDim := 1
  wf := scatter_S100_S50000x1_S50000_n_0_0_1_wf
def dot_S100x72_S72x64_S100x64_1_0_0_1_n_n : DotDims S100x72 S72x64 S100x64 where
  lhsContracting := [1]
  rhsContracting := [0]
  lhsNonContracting := [0]
  rhsNonContracting := [1]
  lhsBatch := []
  rhsBatch := []
  wf := dot_S100x72_S72x64_S100x64_1_0_0_1_n_n_wf
def dot_S100x64_S64x32_S100x32_1_0_0_1_n_n : DotDims S100x64 S64x32 S100x32 where
  lhsContracting := [1]
  rhsContracting := [0]
  lhsNonContracting := [0]
  rhsNonContracting := [1]
  lhsBatch := []
  rhsBatch := []
  wf := dot_S100x64_S64x32_S100x32_1_0_0_1_n_n_wf
def dot_S100x32_S32x2_S100x2_1_0_0_1_n_n : DotDims S100x32 S32x2 S100x2 where
  lhsContracting := [1]
  rhsContracting := [0]
  lhsNonContracting := [0]
  rhsNonContracting := [1]
  lhsBatch := []
  rhsBatch := []
  wf := dot_S100x32_S32x2_S100x2_1_0_0_1_n_n_wf

class Facts : Prop extends Facts₀ where

variable [Facts]
-- ==== Proof.KRun.lean ====
/-
  The idealized kernel's run with its result kept.

  Every weakly fair execution of the program ends, nothing faulting, and in the final memory the result array holds what
  the last boundary of the program's segments holds for it: the contents that the fourth launch's write-backs leave,
  over the contents the host operations before it computed. The argument arrays end as launched. The later modules read
  those boundary contents back, segment by segment, to the launch memory.
-/
import proofs.«106924_j48077863911624_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program from any memory with zero counters: it terminates without a fault, the result array ends at the
    last boundary's contents for it, and every argument array ends as launched. -/
theorem run_result : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.KRun

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibScaledLayers.lean ====
/-
  The two fused dense steps of a normalised graph convolution, entry by entry, on the extended reals (any extents).

  With node features `X` (one row per node), weights `W`, and a per-node scale laid as a column `s : [n, 1]`:
  * `scaledProduct X W s` is the feature product with row `p` scaled by `s p`: entry `(p, q)` is
    `(∑ k, X (p, k) · W (k, q)) · s p`;
  * `finishProduct A s b W` first finishes the previous layer — row `p` of the aggregated features `A` scaled by `s p`,
    plus the bias row `b`, the larger of that and zero — and then is the scaled product of the result: entry `(p, q)` is
    `(∑ j, max (s p · A (p, j) + b j) 0 · W (j, q)) · s p`.
  Both are functions of an index alone, so a block of rows of the result is the same function of that block of rows of
  `X` (or `A`) and `s`: all a row-tiled launch needs. Below each is read at an entry off a block kernel's arithmetic: the
  operands converted to a narrower float format on the way into the matrix unit (the identity on the extended reals), a
  zero accumulator, the scale column and the bias row stretched over the block.
-/
import Idealize.ShloMosaic.PureOps.Ideal.Laws
import Idealize.ShloMosaic.Lib.ValueIdx
import Idealize.ShloMosaic.Lib.ValueLayout
import Idealize.ShloMosaic.Lib.Pipeline.Value
import proofs.«106924_j48077863911624_2_alg».proof.Proof.LibMatDot
import proofs.«106924_j48077863911624_2_alg».proof.Proof.LibColumn

noncomputable section

namespace Cert.Lib

open Idealize.ShloMosaic Idealize.ShloMosaic.ValueIdx
open scoped BigOperators

variable {n K M : ℕ}

/-- The feature product with row `p` scaled by the column's entry `p`. -/
def scaledProduct {ψ : FTy} (X : FVec Ideal ⟨2, ![n, K]⟩ .f32) (W : FVec Ideal ⟨2, ![K, M]⟩ ψ) (s : FVec Ideal ⟨2, ![n, 1]⟩ .f32) :
    (⟨2, ![n, M]⟩ : Shape).Idx → EReal :=
  fun i => (∑ k : Fin K, X (ix2 (i 0) k) * W (ix2 k (i 1))) * s (ix2 (i 0) (0 : Fin 1))

theorem scaledProduct_apply {ψ : FTy} (X : FVec Ideal ⟨2, ![n, K]⟩ .f32) (W : FVec Ideal ⟨2, ![K, M]⟩ ψ)
    (s : FVec Ideal ⟨2, ![n, 1]⟩ .f32) (p : Fin n) (q : Fin M) :
    scaledProduct X W s (ix2 p q) = (∑ k : Fin K, X (ix2 p k) * W (ix2 k q)) * s (ix2 p (0 : Fin 1)) := rfl

/-- Finish the previous layer (scale, bias, the larger of that and zero), then the scaled feature product. -/
def finishProduct {ψ : FTy} (A : FVec Ideal ⟨2, ![n, K]⟩ .f32) (s : FVec Ideal ⟨2, ![n, 1]⟩ .f32) (b : FVec Ideal ⟨2, ![1, K]⟩ .f32)
    (W : FVec Ideal ⟨2, ![K, M]⟩ ψ) : (⟨2, ![n, M]⟩ : Shape).Idx → EReal :=
  fun i => (∑ j : Fin K, max (s (ix2 (i 0) (0 : Fin 1)) * A (ix2 (i 0) j) + b (ix2 (0 : Fin 1) j)) (Ideal.ofBits .f32 0x00000000#32)
      * W (ix2 j (i 1))) * s (ix2 (i 0) (0 : Fin 1))

theorem finishProduct_apply {ψ : FTy} (A : FVec Ideal ⟨2, ![n, K]⟩ .f32) (s : FVec Ideal ⟨2, ![n, 1]⟩ .f32)
    (b : FVec Ideal ⟨2, ![1, K]⟩ .f32) (W : FVec Ideal ⟨2, ![K, M]⟩ ψ) (p : Fin n) (q : Fin M) :
    finishProduct A s b W (ix2 p q)
      = (∑ j : Fin K, max (s (ix2 p (0 : Fin 1)) * A (ix2 p j) + b (ix2 (0 : Fin 1) j)) (Ideal.ofBits .f32 0x00000000#32)
          * W (ix2 j q)) * s (ix2 p (0 : Fin 1)) := rfl

/-! ## A block kernel's arithmetic at an entry -/

/-- The matrix unit's product of the block (converted on the way in) with the weights into a zero accumulator, times the
    scale column stretched over the block, converted on the way out: the scaled product's entry. -/
theorem kernelScaledProduct_apply (wf : DotDims.WF ⟨2, ![n, K]⟩ ⟨2, ![K, M]⟩ ⟨2, ![n, M]⟩ [1] [0] [0] [1] [] []) {ψ : FTy}
    (h : ψ.bits < FTy.f32.bits) (v0 : FVec Ideal ⟨2, ![n, K]⟩ .f32) (v2 : FVec Ideal ⟨2, ![K, M]⟩ ψ) (v5 : FVec Ideal ⟨2, ![n, 1]⟩ .f32)
    (hs2 : (⟨2, ![K, M]⟩ : Shape).ShapeCasts ⟨2, ![K, M]⟩) (hs5 : (⟨2, ![n, 1]⟩ : Shape).ShapeCasts ⟨2, ![n, 1]⟩)
    (hb : (⟨2, ![n, 1]⟩ : Shape).Broadcasts ⟨2, ![n, M]⟩) (p : Fin n) (q : Fin M) :
    (truncf ψ (mulf (matmul (matDot wf) none (truncf ψ v0 h) (shapeCast ⟨2, ![K, M]⟩ v2 hs2)
          (constant ⟨2, ![n, M]⟩ .f32 0x00000000#32))
        (broadcastTo ⟨2, ![n, M]⟩ (shapeCast ⟨2, ![n, 1]⟩ v5 hs5) hb)) h : FVec Ideal ⟨2, ![n, M]⟩ ψ) (ix2 p q)
      = scaledProduct v0 v2 v5 (ix2 p q) := by
  rw [shapeCast_self, shapeCast_self]
  show FloatOps.matmul (matDot wf) none (truncf ψ v0 h) v2 (constant ⟨2, ![n, M]⟩ .f32 0x00000000#32) (ix2 p q)
      * broadcastTo ⟨2, ![n, M]⟩ v5 hb (ix2 p q) = _
  rw [matmul_plain_zero_apply, broadcastTo_a1_ab_apply]
  rfl

/-- The same after finishing the previous layer on the way in: the aggregated block scaled by the column, plus the bias
    row stretched over the block, the larger of that and a zero repeated over the block. The scale column is loaded
    twice (once for each use), hence the two variables. -/
theorem kernelFinishProduct_apply (wf : DotDims.WF ⟨2, ![n, K]⟩ ⟨2, ![K, M]⟩ ⟨2, ![n, M]⟩ [1] [0] [0] [1] [] []) {ψ : FTy}
    (h : ψ.bits < FTy.f32.bits) (v0 : FVec Ideal ⟨2, ![n, 1]⟩ .f32) (v2 : FVec Ideal ⟨2, ![n, K]⟩ .f32)
    (v6 : FVec Ideal ⟨2, ![1, K]⟩ .f32) (v13 : FVec Ideal ⟨2, ![K, M]⟩ ψ) (v16 : FVec Ideal ⟨2, ![n, 1]⟩ .f32)
    (hs0 : (⟨2, ![n, 1]⟩ : Shape).ShapeCasts ⟨2, ![n, 1]⟩) (hs2 : (⟨2, ![n, K]⟩ : Shape).ShapeCasts ⟨2, ![n, K]⟩)
    (hs6 : (⟨2, ![1, K]⟩ : Shape).ShapeCasts ⟨2, ![1, K]⟩) (hs13 : (⟨2, ![K, M]⟩ : Shape).ShapeCasts ⟨2, ![K, M]⟩)
    (hb1 : (⟨2, ![n, 1]⟩ : Shape).Broadcasts ⟨2, ![n, K]⟩) (hb6 : (⟨2, ![1, K]⟩ : Shape).Broadcasts ⟨2, ![n, K]⟩)
    (hb3 : (⟨2, ![n, 1]⟩ : Shape).Broadcasts ⟨2, ![n, M]⟩) (p : Fin n) (q : Fin M) :
    (truncf ψ (mulf (matmul (matDot wf) none
          (truncf ψ (maximumf (addf (mulf (broadcastTo ⟨2, ![n, K]⟩ (shapeCast ⟨2, ![n, 1]⟩ v0 hs0) hb1) (shapeCast ⟨2, ![n, K]⟩ v2 hs2))
                (broadcastTo ⟨2, ![n, K]⟩ (shapeCast ⟨2, ![1, K]⟩ v6 hs6) hb6))
              (broadcast ⟨2, ![n, K]⟩ (Scalar.ofBits (F := Ideal) .f32 0x00000000#32))) h)
          (shapeCast ⟨2, ![K, M]⟩ v13 hs13) (constant ⟨2, ![n, M]⟩ .f32 0x00000000#32))
        (broadcastTo ⟨2, ![n, M]⟩ (shapeCast ⟨2, ![n, 1]⟩ v16 hs0) hb3)) h : FVec Ideal ⟨2, ![n, M]⟩ ψ) (ix2 p q)
      = (∑ j : Fin K, max (v0 (ix2 p (0 : Fin 1)) * v2 (ix2 p j) + v6 (ix2 (0 : Fin 1) j)) (Ideal.ofBits .f32 0x00000000#32)
          * v13 (ix2 j q)) * v16 (ix2 p (0 : Fin 1)) := by
  rw [shapeCast_self, shapeCast_self, shapeCast_self, shapeCast_self, shapeCast_self]
  show FloatOps.matmul (matDot wf) none
        (truncf ψ (maximumf (addf (mulf (broadcastTo ⟨2, ![n, K]⟩ v0 hb1) v2) (broadcastTo ⟨2, ![n, K]⟩ v6 hb6))
          (broadcast ⟨2, ![n, K]⟩ (Scalar.ofBits (F := Ideal) .f32 0x00000000#32))) h)
        v13 (constant ⟨2, ![n, M]⟩ .f32 0x00000000#32) (ix2 p q)
      * broadcastTo ⟨2, ![n, M]⟩ v16 hb3 (ix2 p q) = _
  rw [matmul_plain_zero_apply, broadcastTo_a1_ab_apply]
  refine congrArg (· * v16 (ix2 p (0 : Fin 1))) (Finset.sum_congr rfl fun j _ => ?_)
  show max (broadcastTo ⟨2, ![n, K]⟩ v0 hb1 (ix2 p j) * v2 (ix2 p j) + broadcastTo ⟨2, ![n, K]⟩ v6 hb6 (ix2 p j))
      (Ideal.ofBits .f32 0x00000000#32) * v13 (ix2 j q) = _
  rw [broadcastTo_a1_ab_apply, broadcastTo_1b_ab_apply]

end Cert.Lib

end
-- ==== Proof.LibRowBiasLayers.lean ====
/-
  Dense layers whose bias arrives laid out as one row, entry by entry, on the extended reals (any extents).

  `rowAffine X W b` is a linear layer with the bias given as a `[1, M]` row: entry `(r, c)` is row `r` of `X` against column
  `c` of `W`, plus `b (0, c)`. `reluOf Y` is the entrywise larger of `Y` and the zero word. A block kernel computes the first
  as a matrix unit's product of the operands (converted to a narrower float format on the way in — the identity here) into
  a zero accumulator, plus the bias row stretched down the rows.
-/
import Idealize.ShloMosaic.PureOps.Ideal.Laws
import Idealize.ShloMosaic.Lib.ValueIdx
import Idealize.ShloMosaic.Lib.ValueLayout
import Idealize.ShloMosaic.Lib.Pipeline.Value
import proofs.«106924_j48077863911624_2_alg».proof.Proof.LibMatDot

noncomputable section

namespace Cert.Lib

open Idealize.ShloMosaic Idealize.ShloMosaic.ValueIdx
open scoped BigOperators

variable {n K M : ℕ}

/-- A linear layer with the bias as a row: entry (r, c) is the sum over k of X (r, k) · W (k, c), plus b (0, c). -/
def rowAffine {ψ : FTy} (X : (⟨2, ![n, K]⟩ : Shape).Idx → EReal) (W : FVec Ideal ⟨2, ![K, M]⟩ ψ)
    (b : FVec Ideal ⟨2, ![1, M]⟩ .f32) : (⟨2, ![n, M]⟩ : Shape).Idx → EReal :=
  fun i => (∑ k : Fin K, X (ix2 (i 0) k) * W (ix2 k (i 1))) + b (ix2 (0 : Fin 1) (i 1))

theorem rowAffine_apply {ψ : FTy} (X : (⟨2, ![n, K]⟩ : Shape).Idx → EReal) (W : FVec Ideal ⟨2, ![K, M]⟩ ψ)
    (b : FVec Ideal ⟨2, ![1, M]⟩ .f32) (p : Fin n) (q : Fin M) :
    rowAffine X W b (ix2 p q) = (∑ k : Fin K, X (ix2 p k) * W (ix2 k q)) + b (ix2 (0 : Fin 1) q) := rfl

/-- The entrywise larger of an array and the zero word. -/
def reluOf (Y : (⟨2, ![n, M]⟩ : Shape).Idx → EReal) : (⟨2, ![n, M]⟩ : Shape).Idx → EReal :=
  fun i => max (Y i) (Ideal.ofBits .f32 0x00000000#32)

theorem reluOf_apply (Y : (⟨2, ![n, M]⟩ : Shape).Idx → EReal) (i : (⟨2, ![n, M]⟩ : Shape).Idx) :
    reluOf Y i = max (Y i) (Ideal.ofBits .f32 0x00000000#32) := rfl

/-- The matrix unit's product of the block (converted on the way in) with the weights into a zero accumulator, plus the
    bias row stretched down the rows: the layer's entry. -/
theorem kernelRowAffine_apply (wf : DotDims.WF ⟨2, ![n, K]⟩ ⟨2, ![K, M]⟩ ⟨2, ![n, M]⟩ [1] [0] [0] [1] [] []) {ψ : FTy}
    (h : ψ.bits < FTy.f32.bits) (X : FVec Ideal ⟨2, ![n, K]⟩ .f32) (v3 : FVec Ideal ⟨2, ![K, M]⟩ ψ)
    (v6 : FVec Ideal ⟨2, ![1, M]⟩ .f32) (hs3 : (⟨2, ![K, M]⟩ : Shape).ShapeCasts ⟨2, ![K, M]⟩)
    (hs6 : (⟨2, ![1, M]⟩ : Shape).ShapeCasts ⟨2, ![1, M]⟩) (hb : (⟨2, ![1, M]⟩ : Shape).Broadcasts ⟨2, ![n, M]⟩)
    (p : Fin n) (q : Fin M) :
    addf (matmul (matDot wf) none (truncf ψ X h) (shapeCast ⟨2, ![K, M]⟩ v3 hs3) (constant ⟨2, ![n, M]⟩ .f32 0x00000000#32))
        (broadcastTo ⟨2, ![n, M]⟩ (shapeCast ⟨2, ![1, M]⟩ v6 hs6) hb) (ix2 p q)
      = (∑ k : Fin K, X (ix2 p k) * v3 (ix2 k q)) + v6 (ix2 (0 : Fin 1) q) := by
  rw [shapeCast_self, shapeCast_self]
  show FloatOps.matmul (matDot wf) none (truncf ψ X h) v3 (constant ⟨2, ![n, M]⟩ .f32 0x00000000#32) (ix2 p q)
      + broadcastTo ⟨2, ![n, M]⟩ v6 hb (ix2 p q) = _
  rw [matmul_plain_zero_apply, broadcastTo_1b_ab_apply]
  rfl

end Cert.Lib

end
-- ==== Proof.Stages.lean ====
/-
  The stages of the two programs as named functions of the argument arrays (extended reals; words for the integers).

  Shared by both programs: the edge list with a self-loop appended per node (`srcW`, `dstW`: 600000 edges then the
  50000 loops), each node's in-degree `deg` (a sum of ones over the edges that end at it), the scale
  `dinv = deg > 0 ? 1/sqrt(deg) : 0`, the wrap of a negative index (`wrapW`), an index vector laid as a column (`colW`), and
  the mean pool over graphs joined with the per-graph extras (`pooled`).
  The idealized kernel's stages: `h1 … h3` (what the three node launches write), `agg` (the unweighted sum of source rows
  into target rows), `hfin` (the last layer finished on the host) and `kOut` (the readout launch).
  The idealized reference's stages: the edge weights `nrm = dinv[src] · dinv[dst]`, one convolution `rConv` (project,
  weigh and sum the edges, add the bias, the larger of that and zero), and `rOut` (the readout as host operations).
-/
import proofs.«106924_j48077863911624_2_alg».proof.KernelIdeal
import proofs.«106924_j48077863911624_2_alg».proof.ReferenceIdeal
import proofs.«106924_j48077863911624_2_alg».proof.Proof.Gen.KernelIdeal
import proofs.«106924_j48077863911624_2_alg».proof.Proof.Gen.ReferenceIdeal
import proofs.«106924_j48077863911624_2_alg».proof.Proof.LibScaledLayers
import proofs.«106924_j48077863911624_2_alg».proof.Proof.LibRowBiasLayers

noncomputable section

namespace Cert.KernelIdeal.KStages

open Cert.KernelIdeal Idealize.ShloMosaic Idealize.ShloMosaic.ValueIdx Cert.Lib
open Cert.KernelIdeal.Facts₀ Cert.KernelIdeal.Facts

/-! ## Shared: edges, degrees, scales, pooling -/

/-- The source node of every edge: row 0 of the edge list, then one self-loop per node. -/
def srcW (a1 : IVec S2x600000 32) : IVec S650000 32 :=
  concatenate S650000 0 [⟨S600000, shapeCast S600000 (extractStridedSlice S1x600000 ![0, 0] a1 slices_S2x600000_S1x600000_0_0) shapeCasts_S1x600000_S600000⟩, ⟨S50000, iotaInDim S50000 32 0⟩] concatenates_S600000_S50000_S650000_d0

/-- The target node of every edge: row 1 of the edge list, then one self-loop per node. -/
def dstW (a1 : IVec S2x600000 32) : IVec S650000 32 :=
  concatenate S650000 0 [⟨S600000, shapeCast S600000 (extractStridedSlice S1x600000 ![1, 0] a1 slices_S2x600000_S1x600000_1_0) shapeCasts_S1x600000_S600000⟩, ⟨S50000, iotaInDim S50000 32 0⟩] concatenates_S600000_S50000_S650000_d0

/-- An index vector laid as a one-column matrix. -/
def colW (v : IVec S650000 32) : IVec S650000x1 32 := broadcastInDim S650000x1 ![0] bcast_S650000_S650000x1_0 v

/-- The wrap of a negative index: a negative word has the number of nodes added. -/
def wrapW (v : IVec S650000 32) : IVec S650000 32 :=
  select (cmpi .slt v (broadcastInDim S650000 ![] bcast_S_S650000 (constantI S_ 32 0#32)))
    (addi v (broadcastInDim S650000 ![] bcast_S_S650000 (constantI S_ 32 50000#32))) v

/-- Each node's in-degree: a one added per edge that ends at it. -/
def deg (a1 : IVec S2x600000 32) : S50000.Idx → EReal :=
  Host.scatterAdd (F := Ideal) (φ := .f32) scatter_S50000_S650000x1_S650000_n_0_0_1
    (broadcastInDim S50000 ![] bcast_S_S50000 (constant (F := Ideal) S_ .f32 0x00000000#32))
    (colW (dstW a1))
    (broadcastInDim S650000 ![] bcast_S_S650000 (constant (F := Ideal) S_ .f32 0x3F800000#32))

/-- The scale of a node: the reciprocal square root of its in-degree where that is positive, zero elsewhere. -/
def dinv (a1 : IVec S2x600000 32) : S50000.Idx → EReal :=
  select (cmpf (F := Ideal) (φ := .f32) .ogt (deg a1) (broadcastInDim S50000 ![] bcast_S_S50000 (constant (F := Ideal) S_ .f32 0x00000000#32)))
    (Host.rsqrt (F := Ideal) (φ := .f32) (deg a1))
    (broadcastInDim S50000 ![] bcast_S_S50000 (constant (F := Ideal) S_ .f32 0x00000000#32))

/-- The scale as a column. -/
def dcol (a1 : IVec S2x600000 32) : S50000x1.Idx → EReal := shapeCast S50000x1 (dinv a1) shapeCasts_S50000_S50000x1

/-- The mean of the node rows of each graph: their sum over the number of nodes of the graph (at least one). -/
def poolMean (a2 : IVec S50000 32) (h : S50000x64.Idx → EReal) : S100x64.Idx → EReal :=
  Host.divf (F := Ideal) (φ := .f32)
    (Host.scatterAdd (F := Ideal) (φ := .f32) scatter_S100x64_S50000x1_S50000x64_1_0_0_1
      (broadcastInDim S100x64 ![] bcast_S_S100x64 (constant (F := Ideal) S_ .f32 0x00000000#32))
      (broadcastInDim S50000x1 ![0] bcast_S50000_S50000x1_0 a2) h)
    (broadcastInDim S100x64 ![0, 1] bcast_S100x1_S100x64_0_1 (broadcastInDim S100x1 ![0] bcast_S100_S100x1_0
      (maximumf (F := Ideal) (φ := .f32)
        (Host.scatterAdd (F := Ideal) (φ := .f32) scatter_S100_S50000x1_S50000_n_0_0_1
          (broadcastInDim S100 ![] bcast_S_S100 (constant (F := Ideal) S_ .f32 0x00000000#32))
          (broadcastInDim S50000x1 ![0] bcast_S50000_S50000x1_0 a2)
          (broadcastInDim S50000 ![] bcast_S_S50000 (constant (F := Ideal) S_ .f32 0x3F800000#32)))
        (broadcastInDim S100 ![] bcast_S_S100 (constant (F := Ideal) S_ .f32 0x3F800000#32)))))

/-- The pooled means joined with each graph's extra columns. -/
def pooled (a2 : IVec S50000 32) (a3 : S100x8.Idx → EReal) (h : S50000x64.Idx → EReal) : S100x72.Idx → EReal :=
  concatenate S100x72 1 [⟨S100x64, poolMean a2 h⟩, ⟨S100x8, a3⟩] concatenates_S100x64_S100x8_S100x72_d1

/-! ## The idealized kernel -/

/-- The unweighted sum of source rows into target rows, 128 columns. -/
def agg128 (a1 : IVec S2x600000 32) (H : S50000x128.Idx → EReal) : S50000x128.Idx → EReal :=
  Host.scatterAdd (F := Ideal) (φ := .f32) scatter_S50000x128_S650000x1_S650000x128_1_0_0_1
    (broadcastInDim S50000x128 ![] bcast_S_S50000x128 (constant (F := Ideal) S_ .f32 0x00000000#32))
    (colW (dstW a1))
    (extf (F := Ideal) (φ := .bf16) .f32
      (Host.gather gather_S50000x128_S650000x1_S650000x128_1_0_n_n_0_1_1128 H (colW (wrapW (srcW a1)))) bitsLt_bf16_f32)

/-- The same, 64 columns. -/
def agg64 (a1 : IVec S2x600000 32) (H : S50000x64.Idx → EReal) : S50000x64.Idx → EReal :=
  Host.scatterAdd (F := Ideal) (φ := .f32) scatter_S50000x64_S650000x1_S650000x64_1_0_0_1
    (broadcastInDim S50000x64 ![] bcast_S_S50000x64 (constant (F := Ideal) S_ .f32 0x00000000#32))
    (colW (dstW a1))
    (extf (F := Ideal) (φ := .bf16) .f32
      (Host.gather gather_S50000x64_S650000x1_S650000x64_1_0_n_n_0_1_164 H (colW (wrapW (srcW a1)))) bitsLt_bf16_f32)

/-- What the first launch writes. -/
def h1 (a0 : S50000x128.Idx → EReal) (a1 : IVec S2x600000 32) (a4 : S128x128.Idx → EReal) : S50000x128.Idx → EReal :=
  scaledProduct (ψ := .bf16) (n := 50000) (K := 128) (M := 128) a0
    (truncf (F := Ideal) (φ := .f32) .bf16 a4 bitsLt_bf16_f32) (dcol a1)

/-- What the second launch writes. -/
def h2 (a0 : S50000x128.Idx → EReal) (a1 : IVec S2x600000 32) (a4 : S128x128.Idx → EReal) (a5 : S128.Idx → EReal)
    (a6 : S128x128.Idx → EReal) : S50000x128.Idx → EReal :=
  finishProduct (ψ := .bf16) (n := 50000) (K := 128) (M := 128) (agg128 a1 (h1 a0 a1 a4)) (dcol a1)
    (shapeCast S1x128 a5 shapeCasts_S128_S1x128) (truncf (F := Ideal) (φ := .f32) .bf16 a6 bitsLt_bf16_f32)

/-- What the third launch writes. -/
def h3 (a0 : S50000x128.Idx → EReal) (a1 : IVec S2x600000 32) (a4 : S128x128.Idx → EReal) (a5 : S128.Idx → EReal)
    (a6 : S128x128.Idx → EReal) (a7 : S128.Idx → EReal) (a8 : S128x64.Idx → EReal) : S50000x64.Idx → EReal :=
  finishProduct (ψ := .bf16) (n := 50000) (K := 128) (M := 64) (agg128 a1 (h2 a0 a1 a4 a5 a6)) (dcol a1)
    (shapeCast S1x128 a7 shapeCasts_S128_S1x128) (truncf (F := Ideal) (φ := .f32) .bf16 a8 bitsLt_bf16_f32)

/-- The last layer finished on the host: the aggregated rows scaled, plus the bias, the larger of that and zero. -/
def hfin (a1 : IVec S2x600000 32) (a9 : S64.Idx → EReal) (H : S50000x64.Idx → EReal) : S50000x64.Idx → EReal :=
  maximumf (F := Ideal) (φ := .f32)
    (addf (F := Ideal) (φ := .f32)
      (mulf (F := Ideal) (φ := .f32) (broadcastInDim S50000x64 ![0, 1] bcast_S50000x1_S50000x64_0_1 (dcol a1)) (agg64 a1 H))
      (broadcastInDim S50000x64 ![0, 1] bcast_S1x64_S50000x64_0_1 (shapeCast S1x64 a9 shapeCasts_S64_S1x64)))
    (broadcastInDim S50000x64 ![] bcast_S_S50000x64 (constant (F := Ideal) S_ .f32 0x00000000#32))

/-! ## The idealized reference -/

/-- The weight of every edge: the scale of its source times the scale of its target, each looked up clamped. -/
def nrm (a1 : IVec S2x600000 32) : S650000.Idx → EReal :=
  mulf (F := Ideal) (φ := .f32)
    (Host.gather Cert.ReferenceIdeal.gather_S50000_S650000x1_S650000_n_0_n_n_0_1_1 (dinv a1) (colW (wrapW (srcW a1))))
    (Host.gather Cert.ReferenceIdeal.gather_S50000_S650000x1_S650000_n_0_n_n_0_1_1 (dinv a1) (colW (wrapW (dstW a1))))

/-- The weighted sum over the edges of the source rows of `P`, into the target rows, 128 columns. -/
def rAgg128 (a1 : IVec S2x600000 32) (P : S50000x128.Idx → EReal) : S50000x128.Idx → EReal :=
  Host.scatterAdd (F := Ideal) (φ := .f32) scatter_S50000x128_S650000x1_S650000x128_1_0_0_1
    (broadcastInDim S50000x128 ![] bcast_S_S50000x128 (constant (F := Ideal) S_ .f32 0x00000000#32))
    (colW (dstW a1))
    (mulf (F := Ideal) (φ := .f32)
      (Host.gather gather_S50000x128_S650000x1_S650000x128_1_0_n_n_0_1_1128 P (colW (wrapW (srcW a1))))
      (broadcastInDim S650000x128 ![0, 1] Cert.ReferenceIdeal.Facts₀.bcast_S650000x1_S650000x128_0_1
        (broadcastInDim S650000x1 ![0] bcast_S650000_S650000x1_0 (nrm a1))))

/-- The same, 64 columns. -/
def rAgg64 (a1 : IVec S2x600000 32) (P : S50000x64.Idx → EReal) : S50000x64.Idx → EReal :=
  Host.scatterAdd (F := Ideal) (φ := .f32) scatter_S50000x64_S650000x1_S650000x64_1_0_0_1
    (broadcastInDim S50000x64 ![] bcast_S_S50000x64 (constant (F := Ideal) S_ .f32 0x00000000#32))
    (colW (dstW a1))
    (mulf (F := Ideal) (φ := .f32)
      (Host.gather gather_S50000x64_S650000x1_S650000x64_1_0_n_n_0_1_164 P (colW (wrapW (srcW a1))))
      (broadcastInDim S650000x64 ![0, 1] Cert.ReferenceIdeal.Facts₀.bcast_S650000x1_S650000x64_0_1
        (broadcastInDim S650000x1 ![0] bcast_S650000_S650000x1_0 (nrm a1))))

/-- One convolution of the reference with 128 output columns. -/
def rConv128 (a1 : IVec S2x600000 32) (X : S50000x128.Idx → EReal) (W : S128x128.Idx → EReal) (b : S128.Idx → EReal) :
    S50000x128.Idx → EReal :=
  maximumf (F := Ideal) (φ := .f32)
    (addf (F := Ideal) (φ := .f32)
      (rAgg128 a1 (Host.dotGeneral (F := Ideal) (φ₁ := .f32) (φ₂ := .f32) Cert.ReferenceIdeal.dot_S50000x128_S128x128_S50000x128_1_0_0_1_n_n none X W))
      (broadcastInDim S50000x128 ![0, 1] Cert.ReferenceIdeal.Facts₀.bcast_S1x128_S50000x128_0_1
        (broadcastInDim S1x128 ![1] Cert.ReferenceIdeal.Facts₀.bcast_S128_S1x128_1 b)))
    (broadcastInDim S50000x128 ![] bcast_S_S50000x128 (constant (F := Ideal) S_ .f32 0x00000000#32))

/-- The last convolution of the reference, 64 output columns. -/
def rConv64 (a1 : IVec S2x600000 32) (X : S50000x128.Idx → EReal) (W : S128x64.Idx → EReal) (b : S64.Idx → EReal) :
    S50000x64.Idx → EReal :=
  maximumf (F := Ideal) (φ := .f32)
    (addf (F := Ideal) (φ := .f32)
      (rAgg64 a1 (Host.dotGeneral (F := Ideal) (φ₁ := .f32) (φ₂ := .f32) Cert.ReferenceIdeal.dot_S50000x128_S128x64_S50000x64_1_0_0_1_n_n none X W))
      (broadcastInDim S50000x64 ![0, 1] bcast_S1x64_S50000x64_0_1
        (broadcastInDim S1x64 ![1] Cert.ReferenceIdeal.Facts₀.bcast_S64_S1x64_1 b)))
    (broadcastInDim S50000x64 ![] bcast_S_S50000x64 (constant (F := Ideal) S_ .f32 0x00000000#32))

/-- A dense layer of the reference's readout followed by the larger-of-zero. -/
def rDenseRelu {n K M : ℕ} (D : DotDims ⟨2, ![n, K]⟩ ⟨2, ![K, M]⟩ ⟨2, ![n, M]⟩)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2))
    (X : (⟨2, ![n, K]⟩ : Shape).Idx → EReal) (W : (⟨2, ![K, M]⟩ : Shape).Idx → EReal) (b : (⟨1, ![M]⟩ : Shape).Idx → EReal) :
    (⟨2, ![n, M]⟩ : Shape).Idx → EReal :=
  maximumf (F := Ideal) (φ := .f32)
    (addf (F := Ideal) (φ := .f32) (Host.dotGeneral (F := Ideal) (φ₁ := .f32) (φ₂ := .f32) D none X W)
      (broadcastInDim ⟨2, ![n, M]⟩ ![0, 1] h2 (broadcastInDim ⟨2, ![1, M]⟩ ![1] h1 b)))
    (broadcastInDim ⟨2, ![n, M]⟩ ![] h0 (constant (F := Ideal) ⟨0, ![]⟩ .f32 0x00000000#32))

/-- The reference's readout of the pooled features: two dense layers with the larger-of-zero, and a third. -/
def rReadout (Z : S100x72.Idx → EReal) (a10 : S72x64.Idx → EReal) (a11 : S64.Idx → EReal) (a12 : S64x32.Idx → EReal)
    (a13 : S32.Idx → EReal) (a14 : S32x2.Idx → EReal) (a15 : S2.Idx → EReal) : S100x2.Idx → EReal :=
  addf (F := Ideal) (φ := .f32)
    (Host.dotGeneral (F := Ideal) (φ₁ := .f32) (φ₂ := .f32) Cert.ReferenceIdeal.dot_S100x32_S32x2_S100x2_1_0_0_1_n_n none
      (rDenseRelu (n := 100) (K := 64) (M := 32) Cert.ReferenceIdeal.dot_S100x64_S64x32_S100x32_1_0_0_1_n_n
        Cert.ReferenceIdeal.Facts₀.bcast_S32_S1x32_1 Cert.ReferenceIdeal.Facts₀.bcast_S1x32_S100x32_0_1 Cert.ReferenceIdeal.Facts₀.bcast_S_S100x32
        (rDenseRelu (n := 100) (K := 72) (M := 64) Cert.ReferenceIdeal.dot_S100x72_S72x64_S100x64_1_0_0_1_n_n
          Cert.ReferenceIdeal.Facts₀.bcast_S64_S1x64_1 Cert.ReferenceIdeal.Facts₀.bcast_S1x64_S100x64_0_1 Cert.ReferenceIdeal.Facts₀.bcast_S_S100x64 Z a10 a11)
        a12 a13) a14)
    (broadcastInDim S100x2 ![0, 1] Cert.ReferenceIdeal.Facts₀.bcast_S1x2_S100x2_0_1 (broadcastInDim S1x2 ![1] Cert.ReferenceIdeal.Facts₀.bcast_S2_S1x2_1 a15))

end Cert.KernelIdeal.KStages

end
-- ==== Proof.KHost1.lean ====
/-
  The buffer contents of the idealized kernel when its first launch is entered, read back to the launch memory.

  The host operations before the first launch compute the edge lists with the self-loops, the degrees and the scale
  column, and convert the weights to the matrix unit's format; nothing else is written. One lemma per buffer records the
  value in the named stages; the argument arrays are as launched.
-/
import proofs.«106924_j48077863911624_2_alg».proof.Proof.Gen.KernelIdeal.Frame
import Idealize.ShloMosaic.Lib.StableHlo.Run
import proofs.«106924_j48077863911624_2_alg».proof.Proof.Stages

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

/-- Argument 0 of the program in the launch memory of core `c`. -/
abbrev A0 : S50000x128.Idx → EReal := m ((c : Thread nD τ).loc main_arg0)
/-- Argument 1 of the program in the launch memory of core `c`. -/
abbrev A1 : IVec S2x600000 32 := m ((c : Thread nD τ).loc main_arg1)
/-- Argument 2 of the program in the launch memory of core `c`. -/
abbrev A2 : IVec S50000 32 := m ((c : Thread nD τ).loc main_arg2)
/-- Argument 3 of the program in the launch memory of core `c`. -/
abbrev A3 : S100x8.Idx → EReal := m ((c : Thread nD τ).loc main_arg3)
/-- Argument 4 of the program in the launch memory of core `c`. -/
abbrev A4 : S128x128.Idx → EReal := m ((c : Thread nD τ).loc main_arg4)
/-- Argument 5 of the program in the launch memory of core `c`. -/
abbrev A5 : S128.Idx → EReal := m ((c : Thread nD τ).loc main_arg5)
/-- Argument 6 of the program in the launch memory of core `c`. -/
abbrev A6 : S128x128.Idx → EReal := m ((c : Thread nD τ).loc main_arg6)
/-- Argument 7 of the program in the launch memory of core `c`. -/
abbrev A7 : S128.Idx → EReal := m ((c : Thread nD τ).loc main_arg7)
/-- Argument 8 of the program in the launch memory of core `c`. -/
abbrev A8 : S128x64.Idx → EReal := m ((c : Thread nD τ).loc main_arg8)
/-- Argument 9 of the program in the launch memory of core `c`. -/
abbrev A9 : S64.Idx → EReal := m ((c : Thread nD τ).loc main_arg9)
/-- Argument 10 of the program in the launch memory of core `c`. -/
abbrev A10 : S72x64.Idx → EReal := m ((c : Thread nD τ).loc main_arg10)
/-- Argument 11 of the program in the launch memory of core `c`. -/
abbrev A11 : S64.Idx → EReal := m ((c : Thread nD τ).loc main_arg11)
/-- Argument 12 of the program in the launch memory of core `c`. -/
abbrev A12 : S64x32.Idx → EReal := m ((c : Thread nD τ).loc main_arg12)
/-- Argument 13 of the program in the launch memory of core `c`. -/
abbrev A13 : S32.Idx → EReal := m ((c : Thread nD τ).loc main_arg13)
/-- Argument 14 of the program in the launch memory of core `c`. -/
abbrev A14 : S32x2.Idx → EReal := m ((c : Thread nD τ).loc main_arg14)
/-- Argument 15 of the program in the launch memory of core `c`. -/
abbrev A15 : S2.Idx → EReal := m ((c : Thread nD τ).loc main_arg15)

theorem w1_v3 : W1 m ρ c (Proc.devRef .tc main_v3) = srcW (A1 m c) := by
  show StableHlo.after hostOps0 (W0 m ρ c) (Proc.devRef .tc main_v3) = _
  after_results
  rfl

theorem w1_v6 : W1 m ρ c (Proc.devRef .tc main_v6) = dstW (A1 m c) := by
  show StableHlo.after hostOps0 (W0 m ρ c) (Proc.devRef .tc main_v6) = _
  after_results
  rfl

theorem w1_v10 : W1 m ρ c (Proc.devRef .tc main_v10) = deg (A1 m c) := by
  show StableHlo.after hostOps0 (W0 m ρ c) (Proc.devRef .tc main_v10) = _
  after_results
  rfl

theorem w1_v12 : W1 m ρ c (Proc.devRef .tc main_v12)
    = cmpf (F := Ideal) (φ := .f32) .ogt (deg (A1 m c)) (broadcastInDim S50000 ![] bcast_S_S50000 (constant (F := Ideal) S_ .f32 0x00000000#32)) := by
  show StableHlo.after hostOps0 (W0 m ρ c) (Proc.devRef .tc main_v12) = _
  after_results
  rfl

theorem w1_v13 : W1 m ρ c (Proc.devRef .tc main_v13) = Host.rsqrt (F := Ideal) (φ := .f32) (deg (A1 m c)) := by
  show StableHlo.after hostOps0 (W0 m ρ c) (Proc.devRef .tc main_v13) = _
  after_results
  rfl

theorem w1_cst2 : W1 m ρ c (Proc.devRef .tc main_cst_2) = constant (F := Ideal) S_ .f32 0x00000000#32 := by
  show StableHlo.after hostOps0 (W0 m ρ c) (Proc.devRef .tc main_cst_2) = _
  after_results <;> rfl

/-- The called select, over any contents of its three operands: the select of those contents. -/
theorem select_over (V : Valuation τ sig (Elt Ideal)) (X12 : IVec S50000 1) (X13 : S50000.Idx → EReal)
    (h12 : V (Proc.devRef .tc main_v12) = X12) (h13 : V (Proc.devRef .tc main_v13) = X13)
    (hc2 : V (Proc.devRef .tc main_cst_2) = constant (F := Ideal) S_ .f32 0x00000000#32) :
    StableHlo.after hostOps0_1 V (Proc.devRef .tc main_v14)
      = select X12 X13 (broadcastInDim S50000 ![] bcast_S_S50000 (constant (F := Ideal) S_ .f32 0x00000000#32)) := by
  after_results_simp
  rw [h12, h13, hc2]
  rfl

theorem w2_v14 : W2 m ρ c (Proc.devRef .tc main_v14) = dinv (A1 m c) := by
  have h := select_over (W1 m ρ c) _ _ (w1_v12 m ρ c) (w1_v13 m ρ c) (w1_cst2 m ρ c)
  unfold dinv
  exact h

theorem w3_v3 : W3 m ρ c (Proc.devRef .tc main_v3) = srcW (A1 m c) := by
  have h := w1_v3 m ρ c
  show StableHlo.after hostOps0_2 (StableHlo.after hostOps0_1 (W1 m ρ c)) (Proc.devRef .tc main_v3) = _
  generalize W1 m ρ c = V at h ⊢
  after_results_simp
  exact h

theorem w3_v6 : W3 m ρ c (Proc.devRef .tc main_v6) = dstW (A1 m c) := by
  have h := w1_v6 m ρ c
  show StableHlo.after hostOps0_2 (StableHlo.after hostOps0_1 (W1 m ρ c)) (Proc.devRef .tc main_v6) = _
  generalize W1 m ρ c = V at h ⊢
  after_results_simp
  exact h

theorem w3_v15 : W3 m ρ c (Proc.devRef .tc main_v15) = dcol (A1 m c) := by
  have h := w2_v14 m ρ c
  show StableHlo.after hostOps0_2 (W2 m ρ c) (Proc.devRef .tc main_v15) = _
  generalize W2 m ρ c = V at h ⊢
  after_results_simp
  rw [h]
  rfl

theorem w3_v16 : W3 m ρ c (Proc.devRef .tc main_v16) = (truncf (F := Ideal) (φ := .f32) .bf16 (A4 m c) bitsLt_bf16_f32) := by
  show StableHlo.after hostOps0_2 (StableHlo.after hostOps0_1 (StableHlo.after hostOps0 (W0 m ρ c))) (Proc.devRef .tc main_v16) = _
  after_results <;> rfl

theorem w3_v17 : W3 m ρ c (Proc.devRef .tc main_v17) = (truncf (F := Ideal) (φ := .f32) .bf16 (A6 m c) bitsLt_bf16_f32) := by
  show StableHlo.after hostOps0_2 (StableHlo.after hostOps0_1 (StableHlo.after hostOps0 (W0 m ρ c))) (Proc.devRef .tc main_v17) = _
  after_results <;> rfl

theorem w3_v18 : W3 m ρ c (Proc.devRef .tc main_v18) = (truncf (F := Ideal) (φ := .f32) .bf16 (A8 m c) bitsLt_bf16_f32) := by
  show StableHlo.after hostOps0_2 (StableHlo.after hostOps0_1 (StableHlo.after hostOps0 (W0 m ρ c))) (Proc.devRef .tc main_v18) = _
  after_results <;> rfl

theorem w3_arg0 : W3 m ρ c (Proc.devRef .tc main_arg0) = (A0 m c) := by
  show StableHlo.after hostOps0_2 (StableHlo.after hostOps0_1 (StableHlo.after hostOps0 (W0 m ρ c))) (Proc.devRef .tc main_arg0) = _
  after_results <;> rfl

theorem w3_arg2 : W3 m ρ c (Proc.devRef .tc main_arg2) = (A2 m c) := by
  show StableHlo.after hostOps0_2 (StableHlo.after hostOps0_1 (StableHlo.after hostOps0 (W0 m ρ c))) (Proc.devRef .tc main_arg2) = _
  after_results <;> rfl

theorem w3_arg3 : W3 m ρ c (Proc.devRef .tc main_arg3) = (A3 m c) := by
  show StableHlo.after hostOps0_2 (StableHlo.after hostOps0_1 (StableHlo.after hostOps0 (W0 m ρ c))) (Proc.devRef .tc main_arg3) = _
  after_results <;> rfl

theorem w3_arg5 : W3 m ρ c (Proc.devRef .tc main_arg5) = (A5 m c) := by
  show StableHlo.after hostOps0_2 (StableHlo.after hostOps0_1 (StableHlo.after hostOps0 (W0 m ρ c))) (Proc.devRef .tc main_arg5) = _
  after_results <;> rfl

theorem w3_arg7 : W3 m ρ c (Proc.devRef .tc main_arg7) = (A7 m c) := by
  show StableHlo.after hostOps0_2 (StableHlo.after hostOps0_1 (StableHlo.after hostOps0 (W0 m ρ c))) (Proc.devRef .tc main_arg7) = _
  after_results <;> rfl

theorem w3_arg9 : W3 m ρ c (Proc.devRef .tc main_arg9) = (A9 m c) := by
  show StableHlo.after hostOps0_2 (StableHlo.after hostOps0_1 (StableHlo.after hostOps0 (W0 m ρ c))) (Proc.devRef .tc main_arg9) = _
  after_results <;> rfl

theorem w3_arg10 : W3 m ρ c (Proc.devRef .tc main_arg10) = (A10 m c) := by
  show StableHlo.after hostOps0_2 (StableHlo.after hostOps0_1 (StableHlo.after hostOps0 (W0 m ρ c))) (Proc.devRef .tc main_arg10) = _
  after_results <;> rfl

theorem w3_arg11 : W3 m ρ c (Proc.devRef .tc main_arg11) = (A11 m c) := by
  show StableHlo.after hostOps0_2 (StableHlo.after hostOps0_1 (StableHlo.after hostOps0 (W0 m ρ c))) (Proc.devRef .tc main_arg11) = _
  after_results <;> rfl

theorem w3_arg12 : W3 m ρ c (Proc.devRef .tc main_arg12) = (A12 m c) := by
  show StableHlo.after hostOps0_2 (StableHlo.after hostOps0_1 (StableHlo.after hostOps0 (W0 m ρ c))) (Proc.devRef .tc main_arg12) = _
  after_results <;> rfl

theorem w3_arg13 : W3 m ρ c (Proc.devRef .tc main_arg13) = (A13 m c) := by
  show StableHlo.after hostOps0_2 (StableHlo.after hostOps0_1 (StableHlo.after hostOps0 (W0 m ρ c))) (Proc.devRef .tc main_arg13) = _
  after_results <;> rfl

theorem w3_arg14 : W3 m ρ c (Proc.devRef .tc main_arg14) = (A14 m c) := by
  show StableHlo.after hostOps0_2 (StableHlo.after hostOps0_1 (StableHlo.after hostOps0 (W0 m ρ c))) (Proc.devRef .tc main_arg14) = _
  after_results <;> rfl

theorem w3_arg15 : W3 m ρ c (Proc.devRef .tc main_arg15) = (A15 m c) := by
  show StableHlo.after hostOps0_2 (StableHlo.after hostOps0_1 (StableHlo.after hostOps0 (W0 m ρ c))) (Proc.devRef .tc main_arg15) = _
  after_results <;> rfl

end Cert.KernelIdeal.KHost

end
-- ==== Proof.KRegion0.lean ====
/-
  The first launch, read as one array.

  Its grid has 25 points; point `t` loads rows `2000·t … 2000·t + 1999` of the node features and of the scale column and
  all of the weights, and writes back the same rows of the output. What it writes is the feature product of those rows with
  the weights, each row scaled by its node's entry of the column — a function of the row alone, so the 25 blocks are the
  25 row ranges of ONE array: `scaledProduct` of the whole feature array, the weights and the whole column. The blocks cover
  every row (row `r` lies in block `r / 2000`), so that array is what the output holds after the launch.
-/
import proofs.«106924_j48077863911624_2_alg».proof.Proof.Gen.KernelIdeal.Frame
import Idealize.ShloMosaic.Lib.Pipeline.Value
import proofs.«106924_j48077863911624_2_alg».proof.Proof.LibScaledLayers

set_option maxRecDepth 16384

noncomputable section

namespace Cert.KernelIdeal.KRegion0

open Cert.KernelIdeal Cert.KernelIdeal.Gen Idealize.ShloMosaic Idealize.ShloMosaic.TcCoe Idealize.ShloMosaic.ValueIdx
open Idealize.SL.Sem Cert.Lib
open Idealize.ShloMosaic.Pipeline (Dat)
open scoped BigOperators

variable (V : (c : Dev nD) → (b : Ref sig .tc) → Buf (Elt Ideal) ((c : Thread nD τ).loc b))

theorem offZero : (![0, 0] : Fin 2 → Nat) = fun _ => 0 := funext fun a => by fin_cases a <;> rfl

/-- The body's stored value at an entry of the block: the scaled product of the loaded blocks. -/
theorem payload_apply (x0 : Vec Ideal S2000x128 .f32) (x1 : Vec Ideal S128x128 .bf16) (x2 : Vec Ideal S2000x1 .f32)
    (p : Fin 2000) (q : Fin 128) :
    k0_pay1 (F := Ideal) x0 x1 x2 (ix2 p q) = scaledProduct (ψ := .bf16) (n := 2000) (K := 128) (M := 128) x0 x1 x2 (ix2 p q) := by
  unfold k0_pay1
  exact kernelScaledProduct_apply dot_S2000x128_S128x128_S2000x128_1_0_0_1_n_n_wf bitsLt_bf16_f32 x0 x1 x2
    shapeCasts_S128x128_S128x128 shapeCasts_S2000x1_S2000x1 broadcasts_S2000x1_S2000x128 p q

/-- The block index maps over the grid: rows move with the point, the weights stay. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the whole arrays. -/
theorem flushed_eq (c : Dev nD) (t : Fin cfg0.N) :
    (dat0 V c).flushed 3 t = ((cfg0.win 3).blk t).view.read (Elt Ideal)
      (scaledProduct (ψ := .bf16) (n := 50000) (K := 128) (M := 128) (V c main_arg0 : S50000x128.Idx → EReal)
        (V c main_v16 : S128x128.Idx → EReal) (V c main_v15 : S50000x1.Idx → EReal)) := by
  show (cfg0.win 3).cut (grid0.coords t) ((dat0 V c).after 3 t) = _
  rw [after0_3]
  unfold out0_3
  rw [View.canon_unit_zero offZero]
  simp only [View.ld_unit_zero (S := S2000x128) offZero, View.ld_unit_zero (S := S128x128) offZero,
    View.ld_unit_zero (S := S2000x1) offZero]
  obtain ⟨e0, e1, e2, e3, e4, e5, e6, e7⟩ := blockIndex t
  have ht : t.val < 25 := lt_of_lt_of_eq t.isLt N_0
  funext j
  obtain ⟨p, q, rfl⟩ : ∃ (p : Fin 2000) (q : Fin 128), j = ix2 p q := ⟨j 0, j 1, eq_ix2 j⟩
  refine (payload_apply _ _ _ p q).trans ?_
  have hp : p.val < 2000 := p.isLt
  have hq : q.val < 128 := q.isLt
  have hrow : t.val * 2000 + p.val < 50000 := by omega
  have h3 : ((cfg0.win 3).blk t).view.emb (ix2 p q) = ix2 (⟨t.val * 2000 + p.val, hrow⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 128 + 1 * q.val = q.val; omega
  have h0 : ∀ k : Fin 128, iblk0 V c 0 t (ix2 p k) = V c main_arg0 (ix2 (⟨t.val * 2000 + p.val, hrow⟩ : Fin 50000) k) := fun k => by
    show V c main_arg0 (((cfg0.win 0).blk t).view.emb (ix2 p k)) = _
    refine congrArg (V c main_arg0) ?_
    funext a; apply Fin.ext
    have hk : k.val < 128 := k.isLt
    match a with
    | ⟨0, _⟩ => show win0_0.index t (0 : Fin 2) * 2000 + 1 * p.val = t.val * 2000 + p.val; omega
    | ⟨1, _⟩ => show win0_0.index t (1 : Fin 2) * 128 + 1 * k.val = k.val; omega
  have h1 : ∀ k : Fin 128, iblk0 V c 1 t (ix2 k q) = V c main_v16 (ix2 k q) := fun k => by
    show V c main_v16 (((cfg0.win 1).blk t).view.emb (ix2 k q)) = _
    refine congrArg (V c main_v16) ?_
    funext a; apply Fin.ext
    have hk : k.val < 128 := k.isLt
    match a with
    | ⟨0, _⟩ => show win0_1.index t (0 : Fin 2) * 128 + 1 * k.val = k.val; omega
    | ⟨1, _⟩ => show win0_1.index t (1 : Fin 2) * 128 + 1 * q.val = q.val; omega
  have h2 : iblk0 V c 2 t (ix2 p (0 : Fin 1)) = V c main_v15 (ix2 (⟨t.val * 2000 + p.val, hrow⟩ : Fin 50000) (0 : Fin 1)) := by
    show V c main_v15 (((cfg0.win 2).blk t).view.emb (ix2 p (0 : Fin 1))) = _
    refine congrArg (V c main_v15) ?_
    funext a; apply Fin.ext
    match a with
    | ⟨0, _⟩ => show win0_2.index t (0 : Fin 2) * 2000 + 1 * p.val = t.val * 2000 + p.val; omega
    | ⟨1, _⟩ => show win0_2.index t (1 : Fin 2) * 1 + 1 * 0 = 0; omega
  show scaledProduct (ψ := .bf16) (n := 2000) (K := 128) (M := 128) (iblk0 V c 0 t) (iblk0 V c 1 t) (iblk0 V c 2 t) (ix2 p q)
    = scaledProduct (ψ := .bf16) (n := 50000) (K := 128) (M := 128) (V c main_arg0 : S50000x128.Idx → EReal)
        (V c main_v16 : S128x128.Idx → EReal) (V c main_v15 : S50000x1.Idx → EReal) (((cfg0.win 3).blk t).view.emb (ix2 p q))
  rw [h3, scaledProduct_apply, scaledProduct_apply, h2]
  exact congrArg (· * _) (Finset.sum_congr rfl fun k _ => by rw [h0, h1])

/-- An index of the output array is in point `t`'s block iff each coordinate is in the block's range. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v19).slice (win0_3.rect t)).set ↔ _
  rw [View.set_slice_whole, Rect.mem_set_unit]
  exact Iff.rfl

/-- Every index of the output array is in some point's block: row `r` in block `r / 2000`. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  obtain ⟨-, -, -, -, -, -, e6, e7⟩ := blockIndex ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e6]
    show (i 0).val / 2000 * 2000 ≤ (i 0).val ∧ (i 0).val < (i 0).val / 2000 * 2000 + 2000
    omega
  | ⟨1, _⟩ =>
    show win0_3.index _ (1 : Fin 2) * 128 ≤ (i 1).val ∧ (i 1).val < win0_3.index _ (1 : Fin 2) * 128 + 128
    omega

/-- The output array after the launch, whatever contents `V` the launch found: the scaled product of the feature
    array, the weights and the scale column as found. -/
theorem final (c : Dev nD) :
    (dat0 V c).arrAt 3 cfg0.N = scaledProduct (ψ := .bf16) (n := 50000) (K := 128) (M := 128) (V c main_arg0 : S50000x128.Idx → EReal)
      (V c main_v16 : S128x128.Idx → EReal) (V c main_v15 : S50000x1.Idx → EReal) :=
  (dat0 V c).arrAt_eq_of_cover 3 _ (fun t _ => flushed_eq V c t) covered

end Cert.KernelIdeal.KRegion0

end
-- ==== Proof.KHost2.lean ====
/-
  The buffer contents of the idealized kernel after the first launch and the host operations up to the second, read back to the launch memory.

  A launch leaves its output array at the function of its operands proved for it, its operand arrays as it found them,
  every other buffer untouched; a stretch of host operations writes its own results and nothing else. One lemma per buffer
  and boundary records the value in the named stages.
-/
import proofs.«106924_j48077863911624_2_alg».proof.Proof.Gen.KernelIdeal.Frame
import Idealize.ShloMosaic.Lib.StableHlo.Run
import proofs.«106924_j48077863911624_2_alg».proof.Proof.Stages
import proofs.«106924_j48077863911624_2_alg».proof.Proof.KHost1
import proofs.«106924_j48077863911624_2_alg».proof.Proof.KRegion0

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

theorem w4_v19 : W4 m ρ c (Proc.devRef .tc main_v19) = h1 (A0 m c) (A1 m c) (A4 m c) :=
  (W4_arr m ρ c 3).trans ((KRegion0.final (V3 m ρ) c).trans (by
    show scaledProduct (ψ := .bf16) (n := 50000) (K := 128) (M := 128) (W3 m ρ c (Proc.devRef .tc main_arg0)) (W3 m ρ c (Proc.devRef .tc main_v16)) (W3 m ρ c (Proc.devRef .tc main_v15)) = _
    rw [w3_arg0, w3_v16, w3_v15]; rfl))

theorem w4_v15 : W4 m ρ c (Proc.devRef .tc main_v15) = dcol (A1 m c) :=
  (W4_arr m ρ c 2).trans (((dat0 (V3 m ρ) c).arrAt_in 2 rfl _).trans ((A_eq0 (V3 m ρ) c 2).trans (w3_v15 m ρ c)))

theorem w4_v3 : W4 m ρ c (Proc.devRef .tc main_v3) = srcW (A1 m c) :=
  (W4_of_ne m ρ c main_v3 (by decide)).trans (w3_v3 m ρ c)

theorem w4_v6 : W4 m ρ c (Proc.devRef .tc main_v6) = dstW (A1 m c) :=
  (W4_of_ne m ρ c main_v6 (by decide)).trans (w3_v6 m ρ c)

theorem w4_v17 : W4 m ρ c (Proc.devRef .tc main_v17) = (truncf (F := Ideal) (φ := .f32) .bf16 (A6 m c) bitsLt_bf16_f32) :=
  (W4_of_ne m ρ c main_v17 (by decide)).trans (w3_v17 m ρ c)

theorem w4_v18 : W4 m ρ c (Proc.devRef .tc main_v18) = (truncf (F := Ideal) (φ := .f32) .bf16 (A8 m c) bitsLt_bf16_f32) :=
  (W4_of_ne m ρ c main_v18 (by decide)).trans (w3_v18 m ρ c)

theorem w4_arg5 : W4 m ρ c (Proc.devRef .tc main_arg5) = (A5 m c) :=
  (W4_of_ne m ρ c main_arg5 (by decide)).trans (w3_arg5 m ρ c)

theorem w4_arg7 : W4 m ρ c (Proc.devRef .tc main_arg7) = (A7 m c) :=
  (W4_of_ne m ρ c main_arg7 (by decide)).trans (w3_arg7 m ρ c)

theorem w4_arg2 : W4 m ρ c (Proc.devRef .tc main_arg2) = (A2 m c) :=
  (W4_of_ne m ρ c main_arg2 (by decide)).trans (w3_arg2 m ρ c)

theorem w4_arg3 : W4 m ρ c (Proc.devRef .tc main_arg3) = (A3 m c) :=
  (W4_of_ne m ρ c main_arg3 (by decide)).trans (w3_arg3 m ρ c)

theorem w4_arg9 : W4 m ρ c (Proc.devRef .tc main_arg9) = (A9 m c) :=
  (W4_of_ne m ρ c main_arg9 (by decide)).trans (w3_arg9 m ρ c)

theorem w4_arg10 : W4 m ρ c (Proc.devRef .tc main_arg10) = (A10 m c) :=
  (W4_of_ne m ρ c main_arg10 (by decide)).trans (w3_arg10 m ρ c)

theorem w4_arg11 : W4 m ρ c (Proc.devRef .tc main_arg11) = (A11 m c) :=
  (W4_of_ne m ρ c main_arg11 (by decide)).trans (w3_arg11 m ρ c)

theorem w4_arg12 : W4 m ρ c (Proc.devRef .tc main_arg12) = (A12 m c) :=
  (W4_of_ne m ρ c main_arg12 (by decide)).trans (w3_arg12 m ρ c)

theorem w4_arg13 : W4 m ρ c (Proc.devRef .tc main_arg13) = (A13 m c) :=
  (W4_of_ne m ρ c main_arg13 (by decide)).trans (w3_arg13 m ρ c)

theorem w4_arg14 : W4 m ρ c (Proc.devRef .tc main_arg14) = (A14 m c) :=
  (W4_of_ne m ρ c main_arg14 (by decide)).trans (w3_arg14 m ρ c)

theorem w4_arg15 : W4 m ρ c (Proc.devRef .tc main_arg15) = (A15 m c) :=
  (W4_of_ne m ρ c main_arg15 (by decide)).trans (w3_arg15 m ρ c)

theorem w5_v30 : W5 m ρ c (Proc.devRef .tc main_v30) = agg128 (A1 m c) (h1 (A0 m c) (A1 m c) (A4 m c)) := by
  show StableHlo.after hostOps1 (W4 m ρ c) (Proc.devRef .tc main_v30) = _
  after_results_simp
  rw [w4_v3, w4_v6, w4_v19]
  rfl

theorem w5_v31 : W5 m ρ c (Proc.devRef .tc main_v31) = shapeCast S1x128 (A5 m c) shapeCasts_S128_S1x128 := by
  show StableHlo.after hostOps1 (W4 m ρ c) (Proc.devRef .tc main_v31) = _
  after_results_simp
  rw [w4_arg5] <;> rfl

theorem w5_v15 : W5 m ρ c (Proc.devRef .tc main_v15) = dcol (A1 m c) := by
  show StableHlo.after hostOps1 (W4 m ρ c) (Proc.devRef .tc main_v15) = _
  after_results_simp
  exact w4_v15 m ρ c

theorem w5_v17 : W5 m ρ c (Proc.devRef .tc main_v17) = (truncf (F := Ideal) (φ := .f32) .bf16 (A6 m c) bitsLt_bf16_f32) := by
  show StableHlo.after hostOps1 (W4 m ρ c) (Proc.devRef .tc main_v17) = _
  after_results_simp
  exact w4_v17 m ρ c

theorem w5_v3 : W5 m ρ c (Proc.devRef .tc main_v3) = srcW (A1 m c) := by
  show StableHlo.after hostOps1 (W4 m ρ c) (Proc.devRef .tc main_v3) = _
  after_results_simp
  exact w4_v3 m ρ c

theorem w5_v6 : W5 m ρ c (Proc.devRef .tc main_v6) = dstW (A1 m c) := by
  show StableHlo.after hostOps1 (W4 m ρ c) (Proc.devRef .tc main_v6) = _
  after_results_simp
  exact w4_v6 m ρ c

theorem w5_v18 : W5 m ρ c (Proc.devRef .tc main_v18) = (truncf (F := Ideal) (φ := .f32) .bf16 (A8 m c) bitsLt_bf16_f32) := by
  show StableHlo.after hostOps1 (W4 m ρ c) (Proc.devRef .tc main_v18) = _
  after_results_simp
  exact w4_v18 m ρ c

theorem w5_arg7 : W5 m ρ c (Proc.devRef .tc main_arg7) = (A7 m c) := by
  show StableHlo.after hostOps1 (W4 m ρ c) (Proc.devRef .tc main_arg7) = _
  after_results_simp
  exact w4_arg7 m ρ c

theorem w5_arg2 : W5 m ρ c (Proc.devRef .tc main_arg2) = (A2 m c) := by
  show StableHlo.after hostOps1 (W4 m ρ c) (Proc.devRef .tc main_arg2) = _
  after_results_simp
  exact w4_arg2 m ρ c

theorem w5_arg3 : W5 m ρ c (Proc.devRef .tc main_arg3) = (A3 m c) := by
  show StableHlo.after hostOps1 (W4 m ρ c) (Proc.devRef .tc main_arg3) = _
  after_results_simp
  exact w4_arg3 m ρ c

theorem w5_arg9 : W5 m ρ c (Proc.devRef .tc main_arg9) = (A9 m c) := by
  show StableHlo.after hostOps1 (W4 m ρ c) (Proc.devRef .tc main_arg9) = _
  after_results_simp
  exact w4_arg9 m ρ c

theorem w5_arg10 : W5 m ρ c (Proc.devRef .tc main_arg10) = (A10 m c) := by
  show StableHlo.after hostOps1 (W4 m ρ c) (Proc.devRef .tc main_arg10) = _
  after_results_simp
  exact w4_arg10 m ρ c

theorem w5_arg11 : W5 m ρ c (Proc.devRef .tc main_arg11) = (A11 m c) := by
  show StableHlo.after hostOps1 (W4 m ρ c) (Proc.devRef .tc main_arg11) = _
  after_results_simp
  exact w4_arg11 m ρ c

theorem w5_arg12 : W5 m ρ c (Proc.devRef .tc main_arg12) = (A12 m c) := by
  show StableHlo.after hostOps1 (W4 m ρ c) (Proc.devRef .tc main_arg12) = _
  after_results_simp
  exact w4_arg12 m ρ c

theorem w5_arg13 : W5 m ρ c (Proc.devRef .tc main_arg13) = (A13 m c) := by
  show StableHlo.after hostOps1 (W4 m ρ c) (Proc.devRef .tc main_arg13) = _
  after_results_simp
  exact w4_arg13 m ρ c

theorem w5_arg14 : W5 m ρ c (Proc.devRef .tc main_arg14) = (A14 m c) := by
  show StableHlo.after hostOps1 (W4 m ρ c) (Proc.devRef .tc main_arg14) = _
  after_results_simp
  exact w4_arg14 m ρ c

theorem w5_arg15 : W5 m ρ c (Proc.devRef .tc main_arg15) = (A15 m c) := by
  show StableHlo.after hostOps1 (W4 m ρ c) (Proc.devRef .tc main_arg15) = _
  after_results_simp
  exact w4_arg15 m ρ c

end Cert.KernelIdeal.KHost

end
-- ==== Proof.KRegion1.lean ====
/-
  Launch 2 (a fused step: finish the previous layer, then project and scale), read as one array.

  Its grid has 25 points; point `t` loads rows `2000·t … 2000·t + 1999` of the aggregated features and of the scale column,
  the bias row and all of the weights, and writes back the same rows of the output. What it writes is, row by row, the
  aggregated row scaled by its node's entry of the column, plus the bias, the larger of that and zero, times the weights,
  scaled by the node's entry again — a function of the row alone, so the 25 blocks are the 25 row ranges of ONE array,
  `finishProduct` of the whole arrays. The blocks cover every row (row `r` lies in block `r / 2000`).
-/
import proofs.«106924_j48077863911624_2_alg».proof.Proof.Gen.KernelIdeal.Frame
import Idealize.ShloMosaic.Lib.Pipeline.Value
import proofs.«106924_j48077863911624_2_alg».proof.Proof.LibScaledLayers

set_option maxRecDepth 16384

noncomputable section

namespace Cert.KernelIdeal.KRegion1

open Cert.KernelIdeal Cert.KernelIdeal.Gen Idealize.ShloMosaic Idealize.ShloMosaic.TcCoe Idealize.ShloMosaic.ValueIdx
open Idealize.SL.Sem Cert.Lib
open Idealize.ShloMosaic.Pipeline (Dat)
open scoped BigOperators

variable (V : (c : Dev nD) → (b : Ref sig .tc) → Buf (Elt Ideal) ((c : Thread nD τ).loc b))

theorem offZero : (![0, 0] : Fin 2 → Nat) = fun _ => 0 := funext fun a => by fin_cases a <;> rfl

/-- The body's stored value at an entry of the block, from the loaded blocks (the scale column is loaded twice). -/
theorem payload_apply (xd : Vec Ideal S2000x1 .f32) (xa : Vec Ideal S2000x128 .f32) (xb : Vec Ideal S1x128 .f32)
    (xw : Vec Ideal S128x128 .bf16) (xd' : Vec Ideal S2000x1 .f32) (p : Fin 2000) (q : Fin 128) :
    k1_pay1 (F := Ideal) xd xa xb xw xd' (ix2 p q)
      = (∑ j : Fin 128, max (xd (ix2 p (0 : Fin 1)) * xa (ix2 p j) + xb (ix2 (0 : Fin 1) j)) (Ideal.ofBits .f32 0x00000000#32)
          * xw (ix2 j q)) * xd' (ix2 p (0 : Fin 1)) := by
  unfold k1_pay1
  exact kernelFinishProduct_apply dot_S2000x128_S128x128_S2000x128_1_0_0_1_n_n_wf bitsLt_bf16_f32 xd xa xb xw xd'
    shapeCasts_S2000x1_S2000x1 shapeCasts_S2000x128_S2000x128 shapeCasts_S1x128_S1x128 shapeCasts_S128x128_S128x128
    broadcasts_S2000x1_S2000x128 broadcasts_S1x128_S2000x128 broadcasts_S2000x1_S2000x128 p q

/-- Both loads of the scale column read the same block: the stored value is `finishProduct` of the loaded blocks. -/
theorem payload_eq (xa : Vec Ideal S2000x128 .f32) (xd : Vec Ideal S2000x1 .f32) (xb : Vec Ideal S1x128 .f32)
    (xw : Vec Ideal S128x128 .bf16) (p : Fin 2000) (q : Fin 128) :
    k1_pay1 (F := Ideal) xd xa xb xw xd (ix2 p q)
      = finishProduct (ψ := .bf16) (n := 2000) (K := 128) (M := 128) xa xd xb xw (ix2 p q) :=
  payload_apply xd xa xb xw xd p q

/-- The block index maps over the grid: rows move with the point; the bias row and the weights stay. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `finishProduct` of the whole arrays. -/
theorem flushed_eq (c : Dev nD) (t : Fin cfg1.N) :
    (dat1 V c).flushed 4 t = ((cfg1.win 4).blk t).view.read (Elt Ideal)
      (finishProduct (ψ := .bf16) (n := 50000) (K := 128) (M := 128) (V c main_v30 : S50000x128.Idx → EReal)
        (V c main_v15 : S50000x1.Idx → EReal) (V c main_v31 : S1x128.Idx → EReal) (V c main_v17 : S128x128.Idx → EReal)) := by
  show (cfg1.win 4).cut (grid1.coords t) ((dat1 V c).after 4 t) = _
  rw [after1_4]
  unfold out1_4
  rw [View.canon_unit_zero offZero]
  simp only [View.ld_unit_zero (S := S2000x128) offZero, View.ld_unit_zero (S := S128x128) offZero,
    View.ld_unit_zero (S := S2000x1) offZero, View.ld_unit_zero (S := S1x128) offZero]
  obtain ⟨e0, e1, e2, e3, e4, e5, e6, e7, e8, e9⟩ := blockIndex t
  have ht : t.val < 25 := lt_of_lt_of_eq t.isLt N_1
  funext j
  obtain ⟨p, q, rfl⟩ : ∃ (p : Fin 2000) (q : Fin 128), j = ix2 p q := ⟨j 0, j 1, eq_ix2 j⟩
  refine (payload_eq _ _ _ _ p q).trans ?_
  have hp : p.val < 2000 := p.isLt
  have hq : q.val < 128 := q.isLt
  have hrow : t.val * 2000 + p.val < 50000 := by omega
  have h4 : ((cfg1.win 4).blk t).view.emb (ix2 p q) = ix2 (⟨t.val * 2000 + p.val, hrow⟩ : Fin 50000) q := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  have h0 : ∀ k : Fin 128, iblk1 V c 0 t (ix2 p k) = V c main_v30 (ix2 (⟨t.val * 2000 + p.val, hrow⟩ : Fin 50000) k) := fun k => by
    show V c main_v30 (((cfg1.win 0).blk t).view.emb (ix2 p k)) = _
    refine congrArg (V c main_v30) ?_
    funext a; apply Fin.ext
    have hk : k.val < 128 := k.isLt
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : iblk1 V c 1 t (ix2 p (0 : Fin 1)) = V c main_v15 (ix2 (⟨t.val * 2000 + p.val, hrow⟩ : Fin 50000) (0 : Fin 1)) := by
    show V c main_v15 (((cfg1.win 1).blk t).view.emb (ix2 p (0 : Fin 1))) = _
    refine congrArg (V c main_v15) ?_
    funext a; apply Fin.ext
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : ∀ k : Fin 128, iblk1 V c 2 t (ix2 (0 : Fin 1) k) = V c main_v31 (ix2 (0 : Fin 1) k) := fun k => by
    show V c main_v31 (((cfg1.win 2).blk t).view.emb (ix2 (0 : Fin 1) k)) = _
    refine congrArg (V c main_v31) ?_
    funext a; apply Fin.ext
    have hk : k.val < 128 := k.isLt
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 k q) = V c main_v17 (ix2 k q) := fun k => by
    show V c main_v17 (((cfg1.win 3).blk t).view.emb (ix2 k q)) = _
    refine congrArg (V c main_v17) ?_
    funext a; apply Fin.ext
    have hk : k.val < 128 := k.isLt
    match a with
    | ⟨0, _⟩ => show win1_3.index t (0 : Fin 2) * 128 + 1 * k.val = k.val; omega
    | ⟨1, _⟩ => show win1_3.index t (1 : Fin 2) * 128 + 1 * q.val = q.val; omega
  show finishProduct (ψ := .bf16) (n := 2000) (K := 128) (M := 128) (iblk1 V c 0 t) (iblk1 V c 1 t) (iblk1 V c 2 t)
        (iblk1 V c 3 t) (ix2 p q)
    = finishProduct (ψ := .bf16) (n := 50000) (K := 128) (M := 128) (V c main_v30 : S50000x128.Idx → EReal)
        (V c main_v15 : S50000x1.Idx → EReal) (V c main_v31 : S1x128.Idx → EReal) (V c main_v17 : S128x128.Idx → EReal)
        (((cfg1.win 4).blk t).view.emb (ix2 p q))
  rw [h4, finishProduct_apply, finishProduct_apply, h1]
  exact congrArg (· * _) (Finset.sum_congr rfl fun k _ => by rw [h0, h2, h3])

/-- An index of the output array is in point `t`'s block iff each coordinate is in the block's range. -/
theorem mem_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v32).slice (win1_4.rect t)).set ↔ _
  rw [View.set_slice_whole, Rect.mem_set_unit]
  exact Iff.rfl

/-- Every index of the output array is in some point's block: row `r` in block `r / 2000`. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_4 _, ?_⟩
  obtain ⟨-, -, -, -, -, -, -, -, e8, e9⟩ := blockIndex ⟨(i 0).val / 2000, by rw [hN]; omega⟩
  rw [mem_blk]
  intro a
  match a with
  | ⟨0, _⟩ =>
    show win1_4.index _ (0 : Fin 2) * 2000 ≤ (i 0).val ∧ (i 0).val < win1_4.index _ (0 : Fin 2) * 2000 + 2000
    rw [e8]
    show (i 0).val / 2000 * 2000 ≤ (i 0).val ∧ (i 0).val < (i 0).val / 2000 * 2000 + 2000
    omega
  | ⟨1, _⟩ =>
    show win1_4.index _ (1 : Fin 2) * 128 ≤ (i 1).val ∧ (i 1).val < win1_4.index _ (1 : Fin 2) * 128 + 128
    omega

/-- The output array after the launch, whatever contents `V` the launch found: `finishProduct` of the aggregated
    features, the scale column, the bias row and the weights as found. -/
theorem final (c : Dev nD) :
    (dat1 V c).arrAt 4 cfg1.N = finishProduct (ψ := .bf16) (n := 50000) (K := 128) (M := 128)
      (V c main_v30 : S50000x128.Idx → EReal) (V c main_v15 : S50000x1.Idx → EReal) (V c main_v31 : S1x128.Idx → EReal)
      (V c main_v17 : S128x128.Idx → EReal) :=
  (dat1 V c).arrAt_eq_of_cover 4 _ (fun t _ => flushed_eq V c t) covered

end Cert.KernelIdeal.KRegion1

end
-- ==== Proof.KHost3.lean ====
/-
  The buffer contents of the idealized kernel after the second launch and the host operations up to the third, read back to the launch memory.

  A launch leaves its output array at the function of its operands proved for it, its operand arrays as it found them,
  every other buffer untouched; a stretch of host operations writes its own results and nothing else. One lemma per buffer
  and boundary records the value in the named stages.
-/
import proofs.«106924_j48077863911624_2_alg».proof.Proof.Gen.KernelIdeal.Frame
import Idealize.ShloMosaic.Lib.StableHlo.Run
import proofs.«106924_j48077863911624_2_alg».proof.Proof.Stages
import proofs.«106924_j48077863911624_2_alg».proof.Proof.KHost2
import proofs.«106924_j48077863911624_2_alg».proof.Proof.KRegion1

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

theorem w6_v32 : W6 m ρ c (Proc.devRef .tc main_v32) = h2 (A0 m c) (A1 m c) (A4 m c) (A5 m c) (A6 m c) :=
  (W6_arr m ρ c 4).trans ((KRegion1.final (V5 m ρ) c).trans (by
    show finishProduct (ψ := .bf16) (n := 50000) (K := 128) (M := 128) (W5 m ρ c (Proc.devRef .tc main_v30)) (W5 m ρ c (Proc.devRef .tc main_v15)) (W5 m ρ c (Proc.devRef .tc main_v31)) (W5 m ρ c (Proc.devRef .tc main_v17)) = _
    rw [w5_v30, w5_v15, w5_v31, w5_v17]; rfl))

theorem w6_v15 : W6 m ρ c (Proc.devRef .tc main_v15) = dcol (A1 m c) :=
  (W6_arr m ρ c 1).trans (((dat1 (V5 m ρ) c).arrAt_in 1 rfl _).trans ((A_eq1 (V5 m ρ) c 1).trans (w5_v15 m ρ c)))

theorem w6_v3 : W6 m ρ c (Proc.devRef .tc main_v3) = srcW (A1 m c) :=
  (W6_of_ne m ρ c main_v3 (by decide)).trans (w5_v3 m ρ c)

theorem w6_v6 : W6 m ρ c (Proc.devRef .tc main_v6) = dstW (A1 m c) :=
  (W6_of_ne m ρ c main_v6 (by decide)).trans (w5_v6 m ρ c)

theorem w6_v18 : W6 m ρ c (Proc.devRef .tc main_v18) = (truncf (F := Ideal) (φ := .f32) .bf16 (A8 m c) bitsLt_bf16_f32) :=
  (W6_of_ne m ρ c main_v18 (by decide)).trans (w5_v18 m ρ c)

theorem w6_arg7 : W6 m ρ c (Proc.devRef .tc main_arg7) = (A7 m c) :=
  (W6_of_ne m ρ c main_arg7 (by decide)).trans (w5_arg7 m ρ c)

theorem w6_arg2 : W6 m ρ c (Proc.devRef .tc main_arg2) = (A2 m c) :=
  (W6_of_ne m ρ c main_arg2 (by decide)).trans (w5_arg2 m ρ c)

theorem w6_arg3 : W6 m ρ c (Proc.devRef .tc main_arg3) = (A3 m c) :=
  (W6_of_ne m ρ c main_arg3 (by decide)).trans (w5_arg3 m ρ c)

theorem w6_arg9 : W6 m ρ c (Proc.devRef .tc main_arg9) = (A9 m c) :=
  (W6_of_ne m ρ c main_arg9 (by decide)).trans (w5_arg9 m ρ c)

theorem w6_arg10 : W6 m ρ c (Proc.devRef .tc main_arg10) = (A10 m c) :=
  (W6_of_ne m ρ c main_arg10 (by decide)).trans (w5_arg10 m ρ c)

theorem w6_arg11 : W6 m ρ c (Proc.devRef .tc main_arg11) = (A11 m c) :=
  (W6_of_ne m ρ c main_arg11 (by decide)).trans (w5_arg11 m ρ c)

theorem w6_arg12 : W6 m ρ c (Proc.devRef .tc main_arg12) = (A12 m c) :=
  (W6_of_ne m ρ c main_arg12 (by decide)).trans (w5_arg12 m ρ c)

theorem w6_arg13 : W6 m ρ c (Proc.devRef .tc main_arg13) = (A13 m c) :=
  (W6_of_ne m ρ c main_arg13 (by decide)).trans (w5_arg13 m ρ c)

theorem w6_arg14 : W6 m ρ c (Proc.devRef .tc main_arg14) = (A14 m c) :=
  (W6_of_ne m ρ c main_arg14 (by decide)).trans (w5_arg14 m ρ c)

theorem w6_arg15 : W6 m ρ c (Proc.devRef .tc main_arg15) = (A15 m c) :=
  (W6_of_ne m ρ c main_arg15 (by decide)).trans (w5_arg15 m ρ c)

theorem w7_v43 : W7 m ρ c (Proc.devRef .tc main_v43) = agg128 (A1 m c) (h2 (A0 m c) (A1 m c) (A4 m c) (A5 m c) (A6 m c)) := by
  show StableHlo.after hostOps2 (W6 m ρ c) (Proc.devRef .tc main_v43) = _
  after_results_simp
  rw [w6_v3, w6_v6, w6_v32]
  rfl

theorem w7_v44 : W7 m ρ c (Proc.devRef .tc main_v44) = shapeCast S1x128 (A7 m c) shapeCasts_S128_S1x128 := by
  show StableHlo.after hostOps2 (W6 m ρ c) (Proc.devRef .tc main_v44) = _
  after_results_simp
  rw [w6_arg7] <;> rfl

theorem w7_v15 : W7 m ρ c (Proc.devRef .tc main_v15) = dcol (A1 m c) := by
  show StableHlo.after hostOps2 (W6 m ρ c) (Proc.devRef .tc main_v15) = _
  after_results_simp
  exact w6_v15 m ρ c

theorem w7_v18 : W7 m ρ c (Proc.devRef .tc main_v18) = (truncf (F := Ideal) (φ := .f32) .bf16 (A8 m c) bitsLt_bf16_f32) := by
  show StableHlo.after hostOps2 (W6 m ρ c) (Proc.devRef .tc main_v18) = _
  after_results_simp
  exact w6_v18 m ρ c

theorem w7_v3 : W7 m ρ c (Proc.devRef .tc main_v3) = srcW (A1 m c) := by
  show StableHlo.after hostOps2 (W6 m ρ c) (Proc.devRef .tc main_v3) = _
  after_results_simp
  exact w6_v3 m ρ c

theorem w7_v6 : W7 m ρ c (Proc.devRef .tc main_v6) = dstW (A1 m c) := by
  show StableHlo.after hostOps2 (W6 m ρ c) (Proc.devRef .tc main_v6) = _
  after_results_simp
  exact w6_v6 m ρ c

theorem w7_arg2 : W7 m ρ c (Proc.devRef .tc main_arg2) = (A2 m c) := by
  show StableHlo.after hostOps2 (W6 m ρ c) (Proc.devRef .tc main_arg2) = _
  after_results_simp
  exact w6_arg2 m ρ c

theorem w7_arg3 : W7 m ρ c (Proc.devRef .tc main_arg3) = (A3 m c) := by
  show StableHlo.after hostOps2 (W6 m ρ c) (Proc.devRef .tc main_arg3) = _
  after_results_simp
  exact w6_arg3 m ρ c

theorem w7_arg9 : W7 m ρ c (Proc.devRef .tc main_arg9) = (A9 m c) := by
  show StableHlo.after hostOps2 (W6 m ρ c) (Proc.devRef .tc main_arg9) = _
  after_results_simp
  exact w6_arg9 m ρ c

theorem w7_arg10 : W7 m ρ c (Proc.devRef .tc main_arg10) = (A10 m c) := by
  show StableHlo.after hostOps2 (W6 m ρ c) (Proc.devRef .tc main_arg10) = _
  after_results_simp
  exact w6_arg10 m ρ c

theorem w7_arg11 : W7 m ρ c (Proc.devRef .tc main_arg11) = (A11 m c) := by
  show StableHlo.after hostOps2 (W6 m ρ c) (Proc.devRef .tc main_arg11) = _
  after_results_simp
  exact w6_arg11 m ρ c

theorem w7_arg12 : W7 m ρ c (Proc.devRef .tc main_arg12) = (A12 m c) := by
  show StableHlo.after hostOps2 (W6 m ρ c) (Proc.devRef .tc main_arg12) = _
  after_results_simp
  exact w6_arg12 m ρ c

theorem w7_arg13 : W7 m ρ c (Proc.devRef .tc main_arg13) = (A13 m c) := by
  show StableHlo.after hostOps2 (W6 m ρ c) (Proc.devRef .tc main_arg13) = _
  after_results_simp
  exact w6_arg13 m ρ c

theorem w7_arg14 : W7 m ρ c (Proc.devRef .tc main_arg14) = (A14 m c) := by
  show StableHlo.after hostOps2 (W6 m ρ c) (Proc.devRef .tc main_arg14) = _
  after_results_simp
  exact w6_arg14 m ρ c

theorem w7_arg15 : W7 m ρ c (Proc.devRef .tc main_arg15) = (A15 m c) := by
  show StableHlo.after hostOps2 (W6 m ρ c) (Proc.devRef .tc main_arg15) = _
  after_results_simp
  exact w6_arg15 m ρ c

end Cert.KernelIdeal.KHost

end
-- ==== Proof.KRegion2.lean ====
/-
  Launch 3 (a fused step: finish the previous layer, then project and scale), read as one array.

  Its grid has 25 points; point `t` loads rows `2000·t … 2000·t + 1999` of the aggregated features and of the scale column,
  the bias row and all of the weights, and writes back the same rows of the output. What it writes is, row by row, the
  aggregated row scaled by its node's entry of the column, plus the bias, the larger of that and zero, times the weights,
  scaled by the node's entry again — a function of the row alone, so the 25 blocks are the 25 row ranges of ONE array,
  `finishProduct` of the whole arrays. The blocks cover every row (row `r` lies in block `r / 2000`).
-/
import proofs.«106924_j48077863911624_2_alg».proof.Proof.Gen.KernelIdeal.Frame
import Idealize.ShloMosaic.Lib.Pipeline.Value
import proofs.«106924_j48077863911624_2_alg».proof.Proof.LibScaledLayers

set_option maxRecDepth 16384

noncomputable section

namespace Cert.KernelIdeal.KRegion2

open Cert.KernelIdeal Cert.KernelIdeal.Gen Idealize.ShloMosaic Idealize.ShloMosaic.TcCoe Idealize.ShloMosaic.ValueIdx
open Idealize.SL.Sem Cert.Lib
open Idealize.ShloMosaic.Pipeline (Dat)
open scoped BigOperators

variable (V : (c : Dev nD) → (b : Ref sig .tc) → Buf (Elt Ideal) ((c : Thread nD τ).loc b))

theorem offZero : (![0, 0] : Fin 2 → Nat) = fun _ => 0 := funext fun a => by fin_cases a <;> rfl

/-- The body's stored value at an entry of the block, from the loaded blocks (the scale column is loaded twice). -/
theorem payload_apply (xd : Vec Ideal S2000x1 .f32) (xa : Vec Ideal S2000x128 .f32) (xb : Vec Ideal S1x128 .f32)
    (xw : Vec Ideal S128x64 .bf16) (xd' : Vec Ideal S2000x1 .f32) (p : Fin 2000) (q : Fin 64) :
    k2_pay1 (F := Ideal) xd xa xb xw xd' (ix2 p q)
      = (∑ j : Fin 128, max (xd (ix2 p (0 : Fin 1)) * xa (ix2 p j) + xb (ix2 (0 : Fin 1) j)) (Ideal.ofBits .f32 0x00000000#32)
          * xw (ix2 j q)) * xd' (ix2 p (0 : Fin 1)) := by
  unfold k2_pay1
  exact kernelFinishProduct_apply dot_S2000x128_S128x64_S2000x64_1_0_0_1_n_n_wf bitsLt_bf16_f32 xd xa xb xw xd'
    shapeCasts_S2000x1_S2000x1 shapeCasts_S2000x128_S2000x128 shapeCasts_S1x128_S1x128 shapeCasts_S128x64_S128x64
    broadcasts_S2000x1_S2000x128 broadcasts_S1x128_S2000x128 broadcasts_S2000x1_S2000x64 p q

/-- Both loads of the scale column read the same block: the stored value is `finishProduct` of the loaded blocks. -/
theorem payload_eq (xa : Vec Ideal S2000x128 .f32) (xd : Vec Ideal S2000x1 .f32) (xb : Vec Ideal S1x128 .f32)
    (xw : Vec Ideal S128x64 .bf16) (p : Fin 2000) (q : Fin 64) :
    k2_pay1 (F := Ideal) xd xa xb xw xd (ix2 p q)
      = finishProduct (ψ := .bf16) (n := 2000) (K := 128) (M := 64) xa xd xb xw (ix2 p q) :=
  payload_apply xd xa xb xw xd p q

/-- The block index maps over the grid: rows move with the point; the bias row and the weights stay. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of `finishProduct` of the whole arrays. -/
theorem flushed_eq (c : Dev nD) (t : Fin cfg2.N) :
    (dat2 V c).flushed 4 t = ((cfg2.win 4).blk t).view.read (Elt Ideal)
      (finishProduct (ψ := .bf16) (n := 50000) (K := 128) (M := 64) (V c main_v43 : S50000x128.Idx → EReal)
        (V c main_v15 : S50000x1.Idx → EReal) (V c main_v44 : S1x128.Idx → EReal) (V c main_v18 : S128x64.Idx → EReal)) := by
  show (cfg2.win 4).cut (grid2.coords t) ((dat2 V c).after 4 t) = _
  rw [after2_4]
  unfold out2_4
  rw [View.canon_unit_zero offZero]
  simp only [View.ld_unit_zero (S := S2000x128) offZero, View.ld_unit_zero (S := S128x64) offZero,
    View.ld_unit_zero (S := S2000x1) offZero, View.ld_unit_zero (S := S1x128) offZero]
  obtain ⟨e0, e1, e2, e3, e4, e5, e6, e7, e8, e9⟩ := blockIndex t
  have ht : t.val < 25 := lt_of_lt_of_eq t.isLt N_2
  funext j
  obtain ⟨p, q, rfl⟩ : ∃ (p : Fin 2000) (q : Fin 64), j = ix2 p q := ⟨j 0, j 1, eq_ix2 j⟩
  refine (payload_eq _ _ _ _ p q).trans ?_
  have hp : p.val < 2000 := p.isLt
  have hq : q.val < 64 := q.isLt
  have hrow : t.val * 2000 + p.val < 50000 := by omega
  have h4 : ((cfg2.win 4).blk t).view.emb (ix2 p q) = ix2 (⟨t.val * 2000 + p.val, hrow⟩ : Fin 50000) q := by
    funext a; apply Fin.ext
    match a with
    | ⟨0, _⟩ => show win2_4.index t (0 : Fin 2) * 2000 + 1 * p.val = t.val * 2000 + p.val; omega
    | ⟨1, _⟩ => show win2_4.index t (1 : Fin 2) * 64 + 1 * q.val = q.val; omega
  have h0 : ∀ k : Fin 128, iblk2 V c 0 t (ix2 p k) = V c main_v43 (ix2 (⟨t.val * 2000 + p.val, hrow⟩ : Fin 50000) k) := fun k => by
    show V c main_v43 (((cfg2.win 0).blk t).view.emb (ix2 p k)) = _
    refine congrArg (V c main_v43) ?_
    funext a; apply Fin.ext
    have hk : k.val < 128 := k.isLt
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : iblk2 V c 1 t (ix2 p (0 : Fin 1)) = V c main_v15 (ix2 (⟨t.val * 2000 + p.val, hrow⟩ : Fin 50000) (0 : Fin 1)) := by
    show V c main_v15 (((cfg2.win 1).blk t).view.emb (ix2 p (0 : Fin 1))) = _
    refine congrArg (V c main_v15) ?_
    funext a; apply Fin.ext
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : ∀ k : Fin 128, iblk2 V c 2 t (ix2 (0 : Fin 1) k) = V c main_v44 (ix2 (0 : Fin 1) k) := fun k => by
    show V c main_v44 (((cfg2.win 2).blk t).view.emb (ix2 (0 : Fin 1) k)) = _
    refine congrArg (V c main_v44) ?_
    funext a; apply Fin.ext
    have hk : k.val < 128 := k.isLt
    match a with
    | ⟨0, _⟩ => show win2_2.index t (0 : Fin 2) * 1 + 1 * 0 = 0; omega
    | ⟨1, _⟩ => show win2_2.index t (1 : Fin 2) * 128 + 1 * k.val = k.val; omega
  have h3 : ∀ k : Fin 128, iblk2 V c 3 t (ix2 k q) = V c main_v18 (ix2 k q) := fun k => by
    show V c main_v18 (((cfg2.win 3).blk t).view.emb (ix2 k q)) = _
    refine congrArg (V c main_v18) ?_
    funext a; apply Fin.ext
    have hk : k.val < 128 := k.isLt
    match a with
    | ⟨0, _⟩ => show win2_3.index t (0 : Fin 2) * 128 + 1 * k.val = k.val; omega
    | ⟨1, _⟩ => show win2_3.index t (1 : Fin 2) * 64 + 1 * q.val = q.val; omega
  show finishProduct (ψ := .bf16) (n := 2000) (K := 128) (M := 64) (iblk2 V c 0 t) (iblk2 V c 1 t) (iblk2 V c 2 t)
        (iblk2 V c 3 t) (ix2 p q)
    = finishProduct (ψ := .bf16) (n := 50000) (K := 128) (M := 64) (V c main_v43 : S50000x128.Idx → EReal)
        (V c main_v15 : S50000x1.Idx → EReal) (V c main_v44 : S1x128.Idx → EReal) (V c main_v18 : S128x64.Idx → EReal)
        (((cfg2.win 4).blk t).view.emb (ix2 p q))
  rw [h4, finishProduct_apply, finishProduct_apply, h1]
  exact congrArg (· * _) (Finset.sum_congr rfl fun k _ => by rw [h0, h2, h3])

/-- An index of the output array is in point `t`'s block iff each coordinate is in the block's range. -/
theorem mem_blk (t : Fin cfg2.N) (i : S50000x64.Idx) :
    i ∈ ((cfg2.win 4).blk t).view.set ↔ ∀ a : Fin 2, win2_4.index t a * S2000x64.size a ≤ (i a).val
      ∧ (i a).val < win2_4.index t a * S2000x64.size a + S2000x64.size a := by
  show i ∈ ((View.whole main_v45).slice (win2_4.rect t)).set ↔ _
  rw [View.set_slice_whole, Rect.mem_set_unit]
  exact Iff.rfl

/-- Every index of the output array is in some point's block: row `r` in block `r / 2000`. -/
theorem covered (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_4 _, ?_⟩
  obtain ⟨-, -, -, -, -, -, -, -, e8, e9⟩ := blockIndex ⟨(i 0).val / 2000, by rw [hN]; omega⟩
  rw [mem_blk]
  intro a
  match a with
  | ⟨0, _⟩ =>
    show win2_4.index _ (0 : Fin 2) * 2000 ≤ (i 0).val ∧ (i 0).val < win2_4.index _ (0 : Fin 2) * 2000 + 2000
    rw [e8]
    show (i 0).val / 2000 * 2000 ≤ (i 0).val ∧ (i 0).val < (i 0).val / 2000 * 2000 + 2000
    omega
  | ⟨1, _⟩ =>
    show win2_4.index _ (1 : Fin 2) * 64 ≤ (i 1).val ∧ (i 1).val < win2_4.index _ (1 : Fin 2) * 64 + 64
    omega

/-- The output array after the launch, whatever contents `V` the launch found: `finishProduct` of the aggregated
    features, the scale column, the bias row and the weights as found. -/
theorem final (c : Dev nD) :
    (dat2 V c).arrAt 4 cfg2.N = finishProduct (ψ := .bf16) (n := 50000) (K := 128) (M := 64)
      (V c main_v43 : S50000x128.Idx → EReal) (V c main_v15 : S50000x1.Idx → EReal) (V c main_v44 : S1x128.Idx → EReal)
      (V c main_v18 : S128x64.Idx → EReal) :=
  (dat2 V c).arrAt_eq_of_cover 4 _ (fun t _ => flushed_eq V c t) covered

end Cert.KernelIdeal.KRegion2

end
-- ==== Proof.KHost4.lean ====
/-
  The buffer contents of the idealized kernel after the third launch, read back to the launch memory.

  A launch leaves its output array at the function of its operands proved for it, its operand arrays as it found them,
  every other buffer untouched; a stretch of host operations writes its own results and nothing else. One lemma per buffer
  and boundary records the value in the named stages.
-/
import proofs.«106924_j48077863911624_2_alg».proof.Proof.Gen.KernelIdeal.Frame
import Idealize.ShloMosaic.Lib.StableHlo.Run
import proofs.«106924_j48077863911624_2_alg».proof.Proof.Stages
import proofs.«106924_j48077863911624_2_alg».proof.Proof.KHost3
import proofs.«106924_j48077863911624_2_alg».proof.Proof.KRegion2

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

theorem w8_v45 : W8 m ρ c (Proc.devRef .tc main_v45) = h3 (A0 m c) (A1 m c) (A4 m c) (A5 m c) (A6 m c) (A7 m c) (A8 m c) :=
  (W8_arr m ρ c 4).trans ((KRegion2.final (V7 m ρ) c).trans (by
    show finishProduct (ψ := .bf16) (n := 50000) (K := 128) (M := 64) (W7 m ρ c (Proc.devRef .tc main_v43)) (W7 m ρ c (Proc.devRef .tc main_v15)) (W7 m ρ c (Proc.devRef .tc main_v44)) (W7 m ρ c (Proc.devRef .tc main_v18)) = _
    rw [w7_v43, w7_v15, w7_v44, w7_v18]; rfl))

theorem w8_v15 : W8 m ρ c (Proc.devRef .tc main_v15) = dcol (A1 m c) :=
  (W8_arr m ρ c 1).trans (((dat2 (V7 m ρ) c).arrAt_in 1 rfl _).trans ((A_eq2 (V7 m ρ) c 1).trans (w7_v15 m ρ c)))

theorem w8_v3 : W8 m ρ c (Proc.devRef .tc main_v3) = srcW (A1 m c) :=
  (W8_of_ne m ρ c main_v3 (by decide)).trans (w7_v3 m ρ c)

theorem w8_v6 : W8 m ρ c (Proc.devRef .tc main_v6) = dstW (A1 m c) :=
  (W8_of_ne m ρ c main_v6 (by decide)).trans (w7_v6 m ρ c)

theorem w8_arg2 : W8 m ρ c (Proc.devRef .tc main_arg2) = (A2 m c) :=
  (W8_of_ne m ρ c main_arg2 (by decide)).trans (w7_arg2 m ρ c)

theorem w8_arg3 : W8 m ρ c (Proc.devRef .tc main_arg3) = (A3 m c) :=
  (W8_of_ne m ρ c main_arg3 (by decide)).trans (w7_arg3 m ρ c)

theorem w8_arg9 : W8 m ρ c (Proc.devRef .tc main_arg9) = (A9 m c) :=
  (W8_of_ne m ρ c main_arg9 (by decide)).trans (w7_arg9 m ρ c)

theorem w8_arg10 : W8 m ρ c (Proc.devRef .tc main_arg10) = (A10 m c) :=
  (W8_of_ne m ρ c main_arg10 (by decide)).trans (w7_arg10 m ρ c)

theorem w8_arg11 : W8 m ρ c (Proc.devRef .tc main_arg11) = (A11 m c) :=
  (W8_of_ne m ρ c main_arg11 (by decide)).trans (w7_arg11 m ρ c)

theorem w8_arg12 : W8 m ρ c (Proc.devRef .tc main_arg12) = (A12 m c) :=
  (W8_of_ne m ρ c main_arg12 (by decide)).trans (w7_arg12 m ρ c)

theorem w8_arg13 : W8 m ρ c (Proc.devRef .tc main_arg13) = (A13 m c) :=
  (W8_of_ne m ρ c main_arg13 (by decide)).trans (w7_arg13 m ρ c)

theorem w8_arg14 : W8 m ρ c (Proc.devRef .tc main_arg14) = (A14 m c) :=
  (W8_of_ne m ρ c main_arg14 (by decide)).trans (w7_arg14 m ρ c)

theorem w8_arg15 : W8 m ρ c (Proc.devRef .tc main_arg15) = (A15 m c) :=
  (W8_of_ne m ρ c main_arg15 (by decide)).trans (w7_arg15 m ρ c)

end Cert.KernelIdeal.KHost

end
-- ==== Proof.KHost5.lean ====
/-
  The buffer contents of the idealized kernel between its third launch and its last, read back to the launch memory: the
  last layer finished on the host, the mean pool, and the join with the extras.
-/
import proofs.«106924_j48077863911624_2_alg».proof.Proof.Gen.KernelIdeal.Frame
import Idealize.ShloMosaic.Lib.StableHlo.Run
import proofs.«106924_j48077863911624_2_alg».proof.Proof.Stages
import proofs.«106924_j48077863911624_2_alg».proof.Proof.KHost4

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

theorem w9_v61 : W9 m ρ c (Proc.devRef .tc main_v61)
    = addf (F := Ideal) (φ := .f32)
      (mulf (F := Ideal) (φ := .f32) (broadcastInDim S50000x64 ![0, 1] bcast_S50000x1_S50000x64_0_1 (dcol (A1 m c))) (agg64 (A1 m c) (h3 (A0 m c) (A1 m c) (A4 m c) (A5 m c) (A6 m c) (A7 m c) (A8 m c))))
      (broadcastInDim S50000x64 ![0, 1] bcast_S1x64_S50000x64_0_1 (shapeCast S1x64 (A9 m c) shapeCasts_S64_S1x64)) := by
  show StableHlo.after hostOps3 (W8 m ρ c) (Proc.devRef .tc main_v61) = _
  after_results_simp
  rw [w8_v3, w8_v6, w8_v45, w8_v15, w8_arg9]
  rfl

theorem w10_v62 : W10 m ρ c (Proc.devRef .tc main_v62) = hfin (A1 m c) (A9 m c) (h3 (A0 m c) (A1 m c) (A4 m c) (A5 m c) (A6 m c) (A7 m c) (A8 m c)) := by
  have h := w9_v61 m ρ c
  show StableHlo.after hostOps3_1 (W9 m ρ c) (Proc.devRef .tc main_v62) = _
  generalize W9 m ρ c = V at h ⊢
  after_results_simp
  rw [h]
  rfl

theorem w10_arg2 : W10 m ρ c (Proc.devRef .tc main_arg2) = (A2 m c) := by
  show StableHlo.after hostOps3_1 (StableHlo.after hostOps3 (W8 m ρ c)) (Proc.devRef .tc main_arg2) = _
  after_results_simp
  exact w8_arg2 m ρ c

theorem w10_arg3 : W10 m ρ c (Proc.devRef .tc main_arg3) = (A3 m c) := by
  show StableHlo.after hostOps3_1 (StableHlo.after hostOps3 (W8 m ρ c)) (Proc.devRef .tc main_arg3) = _
  after_results_simp
  exact w8_arg3 m ρ c

theorem w11_v75 : W11 m ρ c (Proc.devRef .tc main_v75) = pooled (A2 m c) (A3 m c) (hfin (A1 m c) (A9 m c) (h3 (A0 m c) (A1 m c) (A4 m c) (A5 m c) (A6 m c) (A7 m c) (A8 m c))) := by
  have h62 := w10_v62 m ρ c
  have h2 := w10_arg2 m ρ c
  have h3 := w10_arg3 m ρ c
  show StableHlo.after hostOps3_2 (W10 m ρ c) (Proc.devRef .tc main_v75) = _
  generalize W10 m ρ c = V at h62 h2 h3 ⊢
  after_results
  rw [h62, h2, h3]
  rfl

end Cert.KernelIdeal.KHost

end
-- ==== Proof.KRegion3.lean ====
/-
  The last launch (the three-layer readout), read as one array.

  Its grid is one point and every window's block is its whole array, so what the point writes back is the whole result:
  two linear layers, each followed by the larger-of-zero, and a third linear layer, of the pooled features — the weights
  converted on the way into the matrix unit (the identity on the extended reals), each bias a row stretched down the rows.
-/
import proofs.«106924_j48077863911624_2_alg».proof.Proof.Gen.KernelIdeal.Frame
import Idealize.ShloMosaic.Lib.Pipeline.Value
import proofs.«106924_j48077863911624_2_alg».proof.Proof.LibRowBiasLayers

set_option maxRecDepth 16384

noncomputable section

namespace Cert.KernelIdeal.KRegion3

open Cert.KernelIdeal Cert.KernelIdeal.Gen Idealize.ShloMosaic Idealize.ShloMosaic.TcCoe Idealize.ShloMosaic.ValueIdx
open Idealize.SL.Sem Cert.Lib
open Idealize.ShloMosaic.Pipeline (Dat)
open scoped BigOperators

variable (V : (c : Dev nD) → (b : Ref sig .tc) → Buf (Elt Ideal) ((c : Thread nD τ).loc b))

theorem offZero : (![0, 0] : Fin 2 → Nat) = fun _ => 0 := funext fun a => by fin_cases a <;> rfl

/-- The readout as one function of its seven operands: linear, larger-of-zero, linear, larger-of-zero, linear. -/
def readout (z : S100x72.Idx → EReal) (w1 : S72x64.Idx → EReal) (b1 : S1x64.Idx → EReal) (w2 : S64x32.Idx → EReal)
    (b2 : S1x32.Idx → EReal) (w3 : S32x2.Idx → EReal) (b3 : S1x2.Idx → EReal) : S100x2.Idx → EReal :=
  rowAffine (ψ := .bf16) (n := 100) (K := 32) (M := 2)
    (reluOf (n := 100) (M := 32) (rowAffine (ψ := .bf16) (n := 100) (K := 64) (M := 32)
      (reluOf (n := 100) (M := 64) (rowAffine (ψ := .bf16) (n := 100) (K := 72) (M := 64) z w1 b1)) w2 b2)) w3 b3

/-- The body's stored value at an entry: the readout of the loaded blocks. -/
theorem payload_apply (v0 : Vec Ideal S100x72 .f32) (v3 : Vec Ideal S72x64 .bf16) (v6 : Vec Ideal S1x64 .f32)
    (v13 : Vec Ideal S64x32 .bf16) (v16 : Vec Ideal S1x32 .f32) (v23 : Vec Ideal S32x2 .bf16) (v26 : Vec Ideal S1x2 .f32)
    (p : Fin 100) (q : Fin 2) :
    k3_pay1 (F := Ideal) v0 v3 v6 v13 v16 v23 v26 (ix2 p q) = readout v0 v3 v6 v13 v16 v23 v26 (ix2 p q) := by
  unfold k3_pay1
  refine (kernelRowAffine_apply dot_S100x32_S32x2_S100x2_1_0_0_1_n_n_wf bitsLt_bf16_f32 _ v23 v26
    shapeCasts_S32x2_S32x2 shapeCasts_S1x2_S1x2 broadcasts_S1x2_S100x2 p q).trans ?_
  unfold readout
  rw [rowAffine_apply]
  refine congrArg (· + _) (Finset.sum_congr rfl fun k _ => congrArg (· * _) ?_)
  rw [reluOf_apply]
  refine congrArg (max · (Ideal.ofBits .f32 0x00000000#32)) ?_
  refine (kernelRowAffine_apply dot_S100x64_S64x32_S100x32_1_0_0_1_n_n_wf bitsLt_bf16_f32 _ v13 v16
    shapeCasts_S64x32_S64x32 shapeCasts_S1x32_S1x32 broadcasts_S1x32_S100x32 p k).trans ?_
  rw [rowAffine_apply]
  refine congrArg (· + _) (Finset.sum_congr rfl fun l _ => congrArg (· * _) ?_)
  rw [reluOf_apply]
  refine congrArg (max · (Ideal.ofBits .f32 0x00000000#32)) ?_
  refine (kernelRowAffine_apply dot_S100x72_S72x64_S100x64_1_0_0_1_n_n_wf bitsLt_bf16_f32 _ v3 v6
    shapeCasts_S72x64_S72x64 shapeCasts_S1x64_S1x64 broadcasts_S1x64_S100x64 p l).trans ?_
  rw [rowAffine_apply, shapeCast_self]

/-- Every window's block at the one point is at block index (0, 0). -/
theorem blockIndex : ∀ t : Fin cfg3.N,
    (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0) :=
  (by decide +kernel : ∀ t : Fin grid3.N, _)

/-- Window 0's block at the one point is its whole array. -/
theorem block0 (c : Dev nD) (t : Fin cfg3.N) : (iblk3 V c 0 t : S100x72.Idx → EReal) = (V c main_v75 : S100x72.Idx → EReal) := by
  obtain ⟨b0, b1, b2, b3, b4, b5, b6, b7⟩ := blockIndex t
  funext y
  show V c main_v75 (((cfg3.win 0).blk t).view.emb y) = V c main_v75 y
  refine congrArg (V c main_v75) ?_
  funext a; apply Fin.ext
  match a with
  | ⟨0, _⟩ => show win3_0.index t (0 : Fin 2) * 100 + 1 * (y 0).val = (y 0).val; have := b0.1; omega
  | ⟨1, _⟩ => show win3_0.index t (1 : Fin 2) * 72 + 1 * (y 1).val = (y 1).val; have := b0.2; omega

/-- Window 1's block at the one point is its whole array. -/
theorem block1 (c : Dev nD) (t : Fin cfg3.N) : (iblk3 V c 1 t : S72x64.Idx → EReal) = (V c main_v76 : S72x64.Idx → EReal) := by
  obtain ⟨b0, b1, b2, b3, b4, b5, b6, b7⟩ := blockIndex t
  funext y
  show V c main_v76 (((cfg3.win 1).blk t).view.emb y) = V c main_v76 y
  refine congrArg (V c main_v76) ?_
  funext a; apply Fin.ext
  match a with
  | ⟨0, _⟩ => show win3_1.index t (0 : Fin 2) * 72 + 1 * (y 0).val = (y 0).val; have := b1.1; omega
  | ⟨1, _⟩ => show win3_1.index t (1 : Fin 2) * 64 + 1 * (y 1).val = (y 1).val; have := b1.2; omega

/-- Window 2's block at the one point is its whole array. -/
theorem block2 (c : Dev nD) (t : Fin cfg3.N) : (iblk3 V c 2 t : S1x64.Idx → EReal) = (V c main_v77 : S1x64.Idx → EReal) := by
  obtain ⟨b0, b1, b2, b3, b4, b5, b6, b7⟩ := blockIndex t
  funext y
  show V c main_v77 (((cfg3.win 2).blk t).view.emb y) = V c main_v77 y
  refine congrArg (V c main_v77) ?_
  funext a; apply Fin.ext
  match a with
  | ⟨0, _⟩ => show win3_2.index t (0 : Fin 2) * 1 + 1 * (y 0).val = (y 0).val; have := b2.1; omega
  | ⟨1, _⟩ => show win3_2.index t (1 : Fin 2) * 64 + 1 * (y 1).val = (y 1).val; have := b2.2; omega

/-- Window 3's block at the one point is its whole array. -/
theorem block3 (c : Dev nD) (t : Fin cfg3.N) : (iblk3 V c 3 t : S64x32.Idx → EReal) = (V c main_v78 : S64x32.Idx → EReal) := by
  obtain ⟨b0, b1, b2, b3, b4, b5, b6, b7⟩ := blockIndex t
  funext y
  show V c main_v78 (((cfg3.win 3).blk t).view.emb y) = V c main_v78 y
  refine congrArg (V c main_v78) ?_
  funext a; apply Fin.ext
  match a with
  | ⟨0, _⟩ => show win3_3.index t (0 : Fin 2) * 64 + 1 * (y 0).val = (y 0).val; have := b3.1; omega
  | ⟨1, _⟩ => show win3_3.index t (1 : Fin 2) * 32 + 1 * (y 1).val = (y 1).val; have := b3.2; omega

/-- Window 4's block at the one point is its whole array. -/
theorem block4 (c : Dev nD) (t : Fin cfg3.N) : (iblk3 V c 4 t : S1x32.Idx → EReal) = (V c main_v79 : S1x32.Idx → EReal) := by
  obtain ⟨b0, b1, b2, b3, b4, b5, b6, b7⟩ := blockIndex t
  funext y
  show V c main_v79 (((cfg3.win 4).blk t).view.emb y) = V c main_v79 y
  refine congrArg (V c main_v79) ?_
  funext a; apply Fin.ext
  match a with
  | ⟨0, _⟩ => show win3_4.index t (0 : Fin 2) * 1 + 1 * (y 0).val = (y 0).val; have := b4.1; omega
  | ⟨1, _⟩ => show win3_4.index t (1 : Fin 2) * 32 + 1 * (y 1).val = (y 1).val; have := b4.2; omega

/-- Window 5's block at the one point is its whole array. -/
theorem block5 (c : Dev nD) (t : Fin cfg3.N) : (iblk3 V c 5 t : S32x2.Idx → EReal) = (V c main_v80 : S32x2.Idx → EReal) := by
  obtain ⟨b0, b1, b2, b3, b4, b5, b6, b7⟩ := blockIndex t
  funext y
  show V c main_v80 (((cfg3.win 5).blk t).view.emb y) = V c main_v80 y
  refine congrArg (V c main_v80) ?_
  funext a; apply Fin.ext
  match a with
  | ⟨0, _⟩ => show win3_5.index t (0 : Fin 2) * 32 + 1 * (y 0).val = (y 0).val; have := b5.1; omega
  | ⟨1, _⟩ => show win3_5.index t (1 : Fin 2) * 2 + 1 * (y 1).val = (y 1).val; have := b5.2; omega

/-- Window 6's block at the one point is its whole array. -/
theorem block6 (c : Dev nD) (t : Fin cfg3.N) : (iblk3 V c 6 t : S1x2.Idx → EReal) = (V c main_v81 : S1x2.Idx → EReal) := by
  obtain ⟨b0, b1, b2, b3, b4, b5, b6, b7⟩ := blockIndex t
  funext y
  show V c main_v81 (((cfg3.win 6).blk t).view.emb y) = V c main_v81 y
  refine congrArg (V c main_v81) ?_
  funext a; apply Fin.ext
  match a with
  | ⟨0, _⟩ => show win3_6.index t (0 : Fin 2) * 1 + 1 * (y 0).val = (y 0).val; have := b6.1; omega
  | ⟨1, _⟩ => show win3_6.index t (1 : Fin 2) * 2 + 1 * (y 1).val = (y 1).val; have := b6.2; omega

/-- What the point writes back is the readout of the whole arrays, read through the (whole) block. -/
theorem flushed_eq (c : Dev nD) (t : Fin cfg3.N) :
    (dat3 V c).flushed 7 t = ((cfg3.win 7).blk t).view.read (Elt Ideal) (readout (V c main_v75 : S100x72.Idx → EReal) (V c main_v76 : S72x64.Idx → EReal) (V c main_v77 : S1x64.Idx → EReal) (V c main_v78 : S64x32.Idx → EReal) (V c main_v79 : S1x32.Idx → EReal) (V c main_v80 : S32x2.Idx → EReal) (V c main_v81 : S1x2.Idx → EReal)) := by
  show (cfg3.win 7).cut (grid3.coords t) ((dat3 V c).after 7 t) = _
  rw [after3_7]
  unfold out3_7
  rw [View.canon_unit_zero offZero]
  simp only [View.ld_unit_zero (S := S100x72) offZero, View.ld_unit_zero (S := S72x64) offZero,
    View.ld_unit_zero (S := S1x64) offZero, View.ld_unit_zero (S := S64x32) offZero, View.ld_unit_zero (S := S1x32) offZero,
    View.ld_unit_zero (S := S32x2) offZero, View.ld_unit_zero (S := S1x2) offZero]
  obtain ⟨b0, b1, b2, b3, b4, b5, b6, b7⟩ := blockIndex t
  funext j
  obtain ⟨p, q, rfl⟩ : ∃ (p : Fin 100) (q : Fin 2), j = ix2 p q := ⟨j 0, j 1, eq_ix2 j⟩
  refine (payload_apply _ _ _ _ _ _ _ p q).trans ?_
  have h7 : ((cfg3.win 7).blk t).view.emb (ix2 p q) = ix2 p q := by
    funext a; apply Fin.ext
    match a with
    | ⟨0, _⟩ => show win3_7.index t (0 : Fin 2) * 100 + 1 * p.val = p.val; have := b7.1; omega
    | ⟨1, _⟩ => show win3_7.index t (1 : Fin 2) * 2 + 1 * q.val = q.val; have := b7.2; omega
  show readout (iblk3 V c 0 t : S100x72.Idx → EReal) (iblk3 V c 1 t : S72x64.Idx → EReal) (iblk3 V c 2 t : S1x64.Idx → EReal)
      (iblk3 V c 3 t : S64x32.Idx → EReal) (iblk3 V c 4 t : S1x32.Idx → EReal) (iblk3 V c 5 t : S32x2.Idx → EReal)
      (iblk3 V c 6 t : S1x2.Idx → EReal) (ix2 p q)
    = readout (V c main_v75 : S100x72.Idx → EReal) (V c main_v76 : S72x64.Idx → EReal) (V c main_v77 : S1x64.Idx → EReal) (V c main_v78 : S64x32.Idx → EReal) (V c main_v79 : S1x32.Idx → EReal) (V c main_v80 : S32x2.Idx → EReal) (V c main_v81 : S1x2.Idx → EReal) (((cfg3.win 7).blk t).view.emb (ix2 p q))
  rw [h7, block0 V c t, block1 V c t, block2 V c t, block3 V c t, block4 V c t, block5 V c t, block6 V c t]

/-- Every index of the result array is in the one point's block. -/
theorem covered (i : S100x2.Idx) :
    ∃ t : Fin cfg3.N, (cfg3.win 7).flush t = true ∧ i ∈ ((cfg3.win 7).blk t).view.set := by
  have hi0 : (i 0).val < 100 := (i 0).isLt
  have hi1 : (i 1).val < 2 := (i 1).isLt
  refine ⟨t3_0, flush3_7 _, ?_⟩
  obtain ⟨-, -, -, -, -, -, -, bi⟩ := blockIndex t3_0
  show i ∈ ((View.whole main_v82).slice (win3_7.rect t3_0)).set
  rw [View.set_slice_whole, Rect.mem_set_unit]
  intro a
  match a with
  | ⟨0, _⟩ =>
    show win3_7.index t3_0 (0 : Fin 2) * 100 ≤ (i 0).val ∧ (i 0).val < win3_7.index t3_0 (0 : Fin 2) * 100 + 100
    have := bi.1; omega
  | ⟨1, _⟩ =>
    show win3_7.index t3_0 (1 : Fin 2) * 2 ≤ (i 1).val ∧ (i 1).val < win3_7.index t3_0 (1 : Fin 2) * 2 + 2
    have := bi.2; omega

/-- The result array after the launch, whatever contents `V` the launch found: the readout of the arrays as found. -/
theorem final (c : Dev nD) : (dat3 V c).arrAt 7 cfg3.N = readout (V c main_v75 : S100x72.Idx → EReal) (V c main_v76 : S72x64.Idx → EReal) (V c main_v77 : S1x64.Idx → EReal) (V c main_v78 : S64x32.Idx → EReal) (V c main_v79 : S1x32.Idx → EReal) (V c main_v80 : S32x2.Idx → EReal) (V c main_v81 : S1x2.Idx → EReal) :=
  (dat3 V c).arrAt_eq_of_cover 7 _ (fun t _ => flushed_eq V c t) covered

end Cert.KernelIdeal.KRegion3

end
-- ==== Proof.KHost.lean ====
/-
  The buffer contents of the idealized kernel at its segment boundaries, read back to the launch memory.

  The program is a line of host operations cut by four launches. Walking the boundaries forward: the operations before
  the first launch compute the edge lists, the degrees and the scale column, and convert the weights; a launch leaves its
  output array at the function of its operands proved for it (the four region modules), its operand arrays as it found
  them, every other buffer untouched; a stretch of host operations writes its own results and nothing else. One lemma
  per buffer and boundary records the value in the named stages; the last says what the result array holds.
-/
import proofs.«106924_j48077863911624_2_alg».proof.Proof.Gen.KernelIdeal.Frame
import Idealize.ShloMosaic.Lib.StableHlo.Run
import proofs.«106924_j48077863911624_2_alg».proof.Proof.Stages
import proofs.«106924_j48077863911624_2_alg».proof.Proof.KHost5
import proofs.«106924_j48077863911624_2_alg».proof.Proof.KRegion3

set_option maxRecDepth 16384
set_option maxHeartbeats 1600000

noncomputable section

namespace Cert.KernelIdeal.KHost

open Cert.KernelIdeal Cert.KernelIdeal.Gen Cert.KernelIdeal.KStages Idealize.ShloMosaic Idealize.ShloMosaic.TcCoe
open Idealize.ShloMosaic.ValueIdx Idealize.ShloMosaic.StableHlo Idealize.SL.Sem Cert.Lib
open Idealize.ShloMosaic.Pipeline (Dat)

variable (m : (ℓ : Loc nD τ sig) → Buf (Elt Ideal) ℓ) (ρ : Dev nD → PrngReg) (c : Dev nD)

theorem w11_v76 : W11 m ρ c (Proc.devRef .tc main_v76) = truncf (F := Ideal) (φ := .f32) .bf16 (A10 m c) bitsLt_bf16_f32 := by
  show StableHlo.after hostOps3_2 (StableHlo.after hostOps3_1 (StableHlo.after hostOps3 (W8 m ρ c))) (Proc.devRef .tc main_v76) = _
  after_results_simp
  rw [w8_arg10] <;> rfl

theorem w11_v77 : W11 m ρ c (Proc.devRef .tc main_v77) = shapeCast S1x64 (A11 m c) shapeCasts_S64_S1x64 := by
  show StableHlo.after hostOps3_2 (StableHlo.after hostOps3_1 (StableHlo.after hostOps3 (W8 m ρ c))) (Proc.devRef .tc main_v77) = _
  after_results_simp
  rw [w8_arg11] <;> rfl

theorem w11_v78 : W11 m ρ c (Proc.devRef .tc main_v78) = truncf (F := Ideal) (φ := .f32) .bf16 (A12 m c) bitsLt_bf16_f32 := by
  show StableHlo.after hostOps3_2 (StableHlo.after hostOps3_1 (StableHlo.after hostOps3 (W8 m ρ c))) (Proc.devRef .tc main_v78) = _
  after_results_simp
  rw [w8_arg12] <;> rfl

theorem w11_v79 : W11 m ρ c (Proc.devRef .tc main_v79) = shapeCast S1x32 (A13 m c) shapeCasts_S32_S1x32 := by
  show StableHlo.after hostOps3_2 (StableHlo.after hostOps3_1 (StableHlo.after hostOps3 (W8 m ρ c))) (Proc.devRef .tc main_v79) = _
  after_results_simp
  rw [w8_arg13] <;> rfl

theorem w11_v80 : W11 m ρ c (Proc.devRef .tc main_v80) = truncf (F := Ideal) (φ := .f32) .bf16 (A14 m c) bitsLt_bf16_f32 := by
  show StableHlo.after hostOps3_2 (StableHlo.after hostOps3_1 (StableHlo.after hostOps3 (W8 m ρ c))) (Proc.devRef .tc main_v80) = _
  after_results_simp
  rw [w8_arg14] <;> rfl

theorem w11_v81 : W11 m ρ c (Proc.devRef .tc main_v81) = shapeCast S1x2 (A15 m c) shapeCasts_S2_S1x2 := by
  show StableHlo.after hostOps3_2 (StableHlo.after hostOps3_1 (StableHlo.after hostOps3 (W8 m ρ c))) (Proc.devRef .tc main_v81) = _
  after_results_simp
  rw [w8_arg15] <;> rfl

/-- The result array at the last boundary, as the named stages of the launch memory's argument arrays. -/
theorem result_eq : W12 m ρ c (Proc.devRef .tc main_v82) = KRegion3.readout (pooled (A2 m c) (A3 m c) (hfin (A1 m c) (A9 m c) (h3 (A0 m c) (A1 m c) (A4 m c) (A5 m c) (A6 m c) (A7 m c) (A8 m c)))) (truncf (F := Ideal) (φ := .f32) .bf16 (A10 m c) bitsLt_bf16_f32) (shapeCast S1x64 (A11 m c) shapeCasts_S64_S1x64) (truncf (F := Ideal) (φ := .f32) .bf16 (A12 m c) bitsLt_bf16_f32) (shapeCast S1x32 (A13 m c) shapeCasts_S32_S1x32) (truncf (F := Ideal) (φ := .f32) .bf16 (A14 m c) bitsLt_bf16_f32) (shapeCast S1x2 (A15 m c) shapeCasts_S2_S1x2) :=
  (W12_arr m ρ c 7).trans ((KRegion3.final (V11 m ρ) c).trans (by
    show KRegion3.readout (W11 m ρ c (Proc.devRef .tc main_v75)) (W11 m ρ c (Proc.devRef .tc main_v76)) (W11 m ρ c (Proc.devRef .tc main_v77)) (W11 m ρ c (Proc.devRef .tc main_v78)) (W11 m ρ c (Proc.devRef .tc main_v79)) (W11 m ρ c (Proc.devRef .tc main_v80)) (W11 m ρ c (Proc.devRef .tc main_v81)) = _
    rw [w11_v75, w11_v76, w11_v77, w11_v78, w11_v79, w11_v80, w11_v81]))

end Cert.KernelIdeal.KHost

end
-- ==== Proof.RefTerm.lean ====
/-
  The idealized reference's result as the named stages.

  Its run ends with the result array at one long composed term of the launch memory's argument arrays. That term is, read
  from the inside out: the edge lists with the self-loops, the degrees, the scales and the edge weights; three
  convolutions; the mean pool joined with the extras; the three-layer readout — the named stages, so the equation is an
  unfolding of names on both sides.
-/
import proofs.«106924_j48077863911624_2_alg».proof.Proof.RunP
import proofs.«106924_j48077863911624_2_alg».proof.Proof.Stages

set_option maxRecDepth 65536
set_option maxHeartbeats 8000000

noncomputable section

namespace Cert.ReferenceIdeal.RefTerm

open Cert.ReferenceIdeal Idealize.ShloMosaic Idealize.ShloMosaic.TcCoe Idealize.SL.Sem Cert.KernelIdeal.KStages

variable (m : (ℓ : Loc nD τ sig) → Buf (Elt Ideal) ℓ) (c : Dev nD)

/-- Argument 0 of the reference in the launch memory of core `c`. -/
abbrev B0 : Cert.KernelIdeal.S50000x128.Idx → EReal := m ((c.tc : Thread nD τ).loc main_arg0)
/-- Argument 1 of the reference in the launch memory of core `c`. -/
abbrev B1 : IVec Cert.KernelIdeal.S2x600000 32 := m ((c.tc : Thread nD τ).loc main_arg1)
/-- Argument 2 of the reference in the launch memory of core `c`. -/
abbrev B2 : IVec Cert.KernelIdeal.S50000 32 := m ((c.tc : Thread nD τ).loc main_arg2)
/-- Argument 3 of the reference in the launch memory of core `c`. -/
abbrev B3 : Cert.KernelIdeal.S100x8.Idx → EReal := m ((c.tc : Thread nD τ).loc main_arg3)
/-- Argument 4 of the reference in the launch memory of core `c`. -/
abbrev B4 : Cert.KernelIdeal.S128x128.Idx → EReal := m ((c.tc : Thread nD τ).loc main_arg4)
/-- Argument 5 of the reference in the launch memory of core `c`. -/
abbrev B5 : Cert.KernelIdeal.S128.Idx → EReal := m ((c.tc : Thread nD τ).loc main_arg5)
/-- Argument 6 of the reference in the launch memory of core `c`. -/
abbrev B6 : Cert.KernelIdeal.S128x128.Idx → EReal := m ((c.tc : Thread nD τ).loc main_arg6)
/-- Argument 7 of the reference in the launch memory of core `c`. -/
abbrev B7 : Cert.KernelIdeal.S128.Idx → EReal := m ((c.tc : Thread nD τ).loc main_arg7)
/-- Argument 8 of the reference in the launch memory of core `c`. -/
abbrev B8 : Cert.KernelIdeal.S128x64.Idx → EReal := m ((c.tc : Thread nD τ).loc main_arg8)
/-- Argument 9 of the reference in the launch memory of core `c`. -/
abbrev B9 : Cert.KernelIdeal.S64.Idx → EReal := m ((c.tc : Thread nD τ).loc main_arg9)
/-- Argument 10 of the reference in the launch memory of core `c`. -/
abbrev B10 : Cert.KernelIdeal.S72x64.Idx → EReal := m ((c.tc : Thread nD τ).loc main_arg10)
/-- Argument 11 of the reference in the launch memory of core `c`. -/
abbrev B11 : Cert.KernelIdeal.S64.Idx → EReal := m ((c.tc : Thread nD τ).loc main_arg11)
/-- Argument 12 of the reference in the launch memory of core `c`. -/
abbrev B12 : Cert.KernelIdeal.S64x32.Idx → EReal := m ((c.tc : Thread nD τ).loc main_arg12)
/-- Argument 13 of the reference in the launch memory of core `c`. -/
abbrev B13 : Cert.KernelIdeal.S32.Idx → EReal := m ((c.tc : Thread nD τ).loc main_arg13)
/-- Argument 14 of the reference in the launch memory of core `c`. -/
abbrev B14 : Cert.KernelIdeal.S32x2.Idx → EReal := m ((c.tc : Thread nD τ).loc main_arg14)
/-- Argument 15 of the reference in the launch memory of core `c`. -/
abbrev B15 : Cert.KernelIdeal.S2.Idx → EReal := m ((c.tc : Thread nD τ).loc main_arg15)

/-- The reference's composed result term is the readout of the pooled third convolution, in the named stages. -/
theorem res_eq : Cert.ReferenceIdeal.ValueP.res_main_v110 (F := Ideal) m c = rReadout (pooled (B2 m c) (B3 m c) (rConv64 (B1 m c) (rConv128 (B1 m c) (rConv128 (B1 m c) (B0 m c) (B4 m c) (B5 m c)) (B6 m c) (B7 m c)) (B8 m c) (B9 m c))) (B10 m c) (B11 m c) (B12 m c) (B13 m c) (B14 m c) (B15 m c) := by
  unfold Cert.ReferenceIdeal.ValueP.res_main_v110
  rfl

end Cert.ReferenceIdeal.RefTerm

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibEdgeAgg.lean ====
/-
  The weighted neighbourhood sum of a graph layer, read at an index.

  For a matrix `h : [N, D]`, two vectors of `R` row numbers `sw` (sources) and `dv` (targets) and a vector of `R`
  weights `nrm`, the layer takes the rows `h[sw]`, scales row `e` by `nrm(e)`, and adds it into row `dv(e)` of an
  all-zero `[N, D]` accumulator. The vectors travel as one-column matrices `[R, 1]`, the weights stretched to `[R, D]`.
  Entry `(p, k)` of the result is the sum, over the edges `e` whose target `dv(e)`, read as a signed integer, is `p`, of
  `h(sw(e), k) · nrm(e)`, the source row read signed and clamped into `[0, N − 1]`.
-/
import proofs.«106924_j48077863911624_2_alg».proof.Proof.LibEdgeRows
import Idealize.ShloMosaic.Lib.ValueIdx
import Idealize.ShloMosaic.Lib.Pipeline.Value
import Idealize.ShloMosaic.PureOps.Ideal.Laws

noncomputable section

open scoped BigOperators

namespace Cert.Lib

open Idealize.ShloMosaic Idealize.ShloMosaic.ValueIdx

variable {α : Type}

/-- A vector carried as a one-column matrix, read at `(e, u)`: the vector at `e`. -/
theorem col_apply {R : ℕ} (hc : (⟨1, ![R]⟩ : Shape).BroadcastsInDim ⟨2, ![R, 1]⟩ (![0] : Fin 1 → Fin 2))
    (v : (⟨1, ![R]⟩ : Shape).Idx → α) (e : Fin R) (u : Fin 1) :
    broadcastInDim ⟨2, ![R, 1]⟩ ![0] hc v (ix2 e u) = v (ix1 e) := by
  refine broadcastInDim_apply _ hc v (ix2 e u) (ix1 e) ?_
  intro a
  match a with
  | ⟨0, _⟩ =>
    show e.val = if R = 1 then 0 else e.val
    have := e.isLt
    split <;> omega

/-- A one-column matrix stretched along its rows to `D` columns, read at `(e, k)`: the column at `(e, 0)`. -/
theorem stretch_apply {R D : ℕ} (hb : (⟨2, ![R, 1]⟩ : Shape).BroadcastsInDim ⟨2, ![R, D]⟩ (![0, 1] : Fin 2 → Fin 2))
    (y : (⟨2, ![R, 1]⟩ : Shape).Idx → α) (e : Fin R) (k : Fin D) :
    broadcastInDim ⟨2, ![R, D]⟩ ![0, 1] hb y (ix2 e k) = y (ix2 e (0 : Fin 1)) := by
  refine broadcastInDim_apply _ hb y (ix2 e k) (ix2 e (0 : Fin 1)) ?_
  intro a
  match a with
  | ⟨0, _⟩ =>
    show e.val = if R = 1 then 0 else e.val
    have := e.isLt
    split <;> omega
  | ⟨1, _⟩ =>
    show (0 : ℕ) = if (1 : ℕ) = 1 then 0 else k.val
    rfl

/-- The all-zero matrix (the zero word at every entry), read at any index: the extended real `0`. -/
theorem zeros_apply {N D : ℕ} (hz : (⟨0, ![]⟩ : Shape).BroadcastsInDim ⟨2, ![N, D]⟩ (![] : Fin 0 → Fin 2))
    (i : (⟨2, ![N, D]⟩ : Shape).Idx) :
    broadcastInDim ⟨2, ![N, D]⟩ ![] hz (constant (F := Ideal) ⟨0, ![]⟩ .f32 0x00000000#32) i = (0 : EReal) := by
  show Ideal.ofBits .f32 0x00000000#32 = 0
  exact Ideal.ofBits_zero_f32

/-- The weighted neighbourhood sum at `(p, k)`: over the edges `e` whose target `dv(e)` is `p`, the sum of the source
    row's entry `h(sw(e), k)` times the edge's weight `nrm(e)`. -/
theorem agg_rows_apply {N D R : ℕ} (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (h : (⟨2, ![N, D]⟩ : Shape).Idx → EReal) (sw dv : IVec ⟨1, ![R]⟩ 32)
    (nrm : (⟨1, ![R]⟩ : Shape).Idx → EReal) (p : Fin N) (k : Fin D) :
    Host.scatterAdd (F := Ideal) (φ := .f32) (rowsScatter N D R wfS)
        (broadcastInDim ⟨2, ![N, D]⟩ ![] hz (constant (F := Ideal) ⟨0, ![]⟩ .f32 0x00000000#32))
        (broadcastInDim ⟨2, ![R, 1]⟩ ![0] hc dv)
        (mulf (Host.gather (rowsTake N D R wfG) h (broadcastInDim ⟨2, ![R, 1]⟩ ![0] hc sw))
              (broadcastInDim ⟨2, ![R, D]⟩ ![0, 1] hb (broadcastInDim ⟨2, ![R, 1]⟩ ![0] hc nrm))) (ix2 p k)
      = ∑ e ∈ Finset.univ.filter (fun e : Fin R => (dv (ix1 e)).toInt = (p.val : ℤ)),
          h (ix2 (⟨min (sw (ix1 e)).toInt.toNat (N - 1), by omega⟩ : Fin N) k) * nrm (ix1 e) := by
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  refine Finset.sum_congr rfl fun e _ => ?_
  have hrow : (⟨min (broadcastInDim ⟨2, ![R, 1]⟩ ![0] hc sw (ix2 e (0 : Fin 1))).toInt.toNat (N - 1), by omega⟩ : Fin N)
      = ⟨min (sw (ix1 e)).toInt.toNat (N - 1), by omega⟩ :=
    Fin.ext (congrArg (fun z : BitVec 32 => min z.toInt.toNat (N - 1)) (col_apply hc sw e 0))
  rw [mulf_apply, gather_rowsTake_apply hN, stretch_apply, hrow, col_apply hc nrm]

end Cert.Lib

end
-- ==== Proof.LibGatherRows.lean ====
/-
  A lookup of rows along axis 0, read at an index.

  What `v[idx]` lowers to when `idx` is a vector of `R` start indices carried as an `[R, 1]` array (the index vector
  on axis 1): for a flat operand `[N]` the result is `[R]`, its entry `r` the operand at start index `idx(r, 0)`; for
  a one-column operand `[N, 1]` (the column an offset axis of size one) the result is `[R, 1]`, its entry `(r, 0)` the
  operand at `(idx(r, 0), 0)`. In both the start index is read as a signed integer and clamped into `[0, N − 1]`.
-/
import Idealize.ShloMosaic.Lib.ValueIdx

noncomputable section

namespace Cert.Lib

open Idealize.ShloMosaic Idealize.ShloMosaic.ValueIdx

variable {α : Type}

/-- The dimension numbers of `v[idx]` for `v : [N]`, `idx : [R, 1]`, result `[R]`. -/
abbrev flatTake (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The flat lookup at `r`: the operand at start index `idx(r, 0)`, signed and clamped. -/
theorem gather_flatTake_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatTake N R wf) x idx (ix1 r)
      = x (ix1 ⟨min (idx (ix2 r (0 : Fin 1))).toInt.toNat (N - 1), by omega⟩) := by
  unfold Host.gather
  congr 1
  funext a
  obtain rfl : a = 0 := Subsingleton.elim _ _
  refine Fin.ext ?_
  show (flatTake N R wf).start (ix1 r) idx 0 + (flatTake N R wf).batchCoord (ix1 r) 0
    + (flatTake N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTake N R wf).startIndexMap from List.mem_singleton.mpr rfl)]
  have hsi : (flatTake N R wf).siIdx (ix1 r) ⟨List.idxOf (0 : Fin 1) (flatTake N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The dimension numbers of `v[idx]` for a one-column `v : [N, 1]`, `idx : [R, 1]`, result `[R, 1]`. -/
abbrev colTake (N R : Nat) (wf : GatherDims.WF ⟨2, ![N, 1]⟩ ⟨2, ![R, 1]⟩ ⟨2, ![R, 1]⟩ [1] [0] [] [0] [] 1 ![1, 1]) :
    GatherDims ⟨2, ![N, 1]⟩ ⟨2, ![R, 1]⟩ ⟨2, ![R, 1]⟩ where
  offsetDims := [1]
  collapsedSliceDims := [0]
  operandBatchingDims := []
  startIndicesBatchingDims := []
  startIndexMap := [0]
  indexVectorDim := 1
  sliceSizes := ![1, 1]
  wf := wf

/-- The one-column lookup at `(r, u)`: the operand at `(idx(r, 0), 0)`, the start index signed and clamped. -/
theorem gather_colTake_apply {N R w : Nat} (hN : 0 < N)
    (wf : GatherDims.WF ⟨2, ![N, 1]⟩ ⟨2, ![R, 1]⟩ ⟨2, ![R, 1]⟩ [1] [0] [] [0] [] 1 ![1, 1])
    (x : (⟨2, ![N, 1]⟩ : Shape).Idx → α) (idx : IVec ⟨2, ![R, 1]⟩ w) (r : Fin R) (u : Fin 1) :
    Host.gather (colTake N R wf) x idx (ix2 r u)
      = x (ix2 (⟨min (idx (ix2 r (0 : Fin 1))).toInt.toNat (N - 1), by omega⟩ : Fin N) (0 : Fin 1)) := by
  unfold Host.gather
  congr 1
  funext a
  refine Fin.ext ?_
  match a with
  | ⟨0, _⟩ =>
    show (colTake N R wf).start (ix2 r u) idx 0 + (colTake N R wf).batchCoord (ix2 r u) 0
      + (colTake N R wf).offCoord (ix2 r u) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (colTake N R wf).startIndexMap from List.mem_singleton.mpr rfl)]
    have hsi : (colTake N R wf).siIdx (ix2 r u) ⟨List.idxOf (0 : Fin 2) (colTake N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : (colTake N R wf).start (ix2 r u) idx 1 + (colTake N R wf).batchCoord (ix2 r u) 1
        + (colTake N R wf).offCoord (ix2 r u) 1 < 1 := (colTake N R wf).lt (ix2 r u) idx 1
    show (colTake N R wf).start (ix2 r u) idx 1 + (colTake N R wf).batchCoord (ix2 r u) 1
      + (colTake N R wf).offCoord (ix2 r u) 1 = 0
    omega

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibNormSplit.lean ====
/-
  The symmetric normalisation of a graph convolution split between the two ends of an edge, on the extended reals.

  A normalised convolution weighs the message along an edge `e` from `s e` to `t e` by `d (s e) · d (t e)`, `d` a per-node
  scale. For the edges `A` that end at one node `p` the factor `d (t e) = d p` is common to the whole sum:
      d p · ∑ e ∈ A, P (s e) · d (s e)  =  ∑ e ∈ A, P (s e) · (d (s e) · d (t e)) .
  So scaling every source row by its own `d` before the edges are summed, and the sum by `d p` afterwards, is the same as
  weighing each edge. The law takes a common factor out of a sum, which on the extended reals needs every term to be a
  real number (a product does not distribute over a sum of infinities of both signs); the companions below say that the
  quantities of such a layer stay real: a finite sum of products of reals, a sum plus a real bias, and the larger of a
  real and the zero word.
-/
import Mathlib.Data.EReal.Basic
import Mathlib.Data.EReal.Operations
import Mathlib.Algebra.BigOperators.Ring.Finset
import Mathlib.Tactic.Ring
import proofs.«106924_j48077863911624_2_alg».proof.Proof.LibAggLinear

noncomputable section

namespace Cert.Lib

open scoped BigOperators

/-- A product of two reals is a real. -/
theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

/-- A sum of two reals is a real. -/
theorem real_add {x y : EReal} (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

/-- The larger of two reals is a real. -/
theorem real_max {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩

/-- A finite sum, over a subset, of products of real entries is a real. -/
theorem real_sum_mul {α : Type*} (s : Finset α) (f g : α → EReal) (hf : ∀ a, ∃ r : ℝ, f a = (r : EReal))
    (hg : ∀ a, ∃ r : ℝ, g a = (r : EReal)) : ∃ r : ℝ, ∑ a ∈ s, f a * g a = (r : EReal) :=
  real_sum s _ fun a => real_mul (hf a) (hg a)

/-- The common factor `d p` of the edges ending at `p`, taken out of their sum (real data). -/
theorem norm_split {ε ν : Type*} (A : Finset ε) (s t : ε → ν) (p : ν) (hA : ∀ e ∈ A, t e = p) (P d : ν → EReal)
    (hP : ∀ v, ∃ r : ℝ, P v = (r : EReal)) (hd : ∀ v, ∃ r : ℝ, d v = (r : EReal)) :
    d p * ∑ e ∈ A, P (s e) * d (s e) = ∑ e ∈ A, P (s e) * (d (s e) * d (t e)) := by
  choose x hx using hP
  choose y hy using hd
  have hl : d p * ∑ e ∈ A, P (s e) * d (s e) = ((y p * ∑ e ∈ A, x (s e) * y (s e) : ℝ) : EReal) := by
    rw [EReal.coe_mul, ereal_coe_sum, hy]
    refine congrArg ((y p : EReal) * ·) (Finset.sum_congr rfl fun e _ => ?_)
    rw [hx, hy, EReal.coe_mul]
  have hr : ∑ e ∈ A, P (s e) * (d (s e) * d (t e)) = ((∑ e ∈ A, x (s e) * (y (s e) * y p) : ℝ) : EReal) := by
    rw [ereal_coe_sum]
    refine Finset.sum_congr rfl fun e he => ?_
    rw [hA e he, hx, hy, hy, EReal.coe_mul, EReal.coe_mul]
  rw [hl, hr, Finset.mul_sum]
  refine congrArg _ (Finset.sum_congr rfl fun e _ => ?_)
  ring

end Cert.Lib

end
-- ==== Proof.LibNormAgg.lean ====
/-
  The normalised neighbourhood sum of a graph convolution, computed two ways, read at an index (real data).

  For node features `P : [N, D]`, a per-node scale `d : [N]`, and `R` edges given by three vectors of node numbers — the
  sources `sw`, the targets `dv` as they address the accumulator (a number outside `[0, N)` lands nowhere), and the targets
  `tn` as they address a lookup (clamped into `[0, N − 1]`):
  * one way weighs every edge: row `sw(e)` of `P` times `d[sw(e)] · d[tn(e)]`, added into row `dv(e)`;
  * the other scales row `q` of `P` by `d q` beforehand (`Hs`), adds row `sw(e)` of that into row `dv(e)` unweighted, and
    multiplies row `p` of the sums by `d p` afterwards.
  They agree wherever an edge that lands on `p` also looks up `d` at `p` — the two readings of a target that IS a node
  number coincide —, by taking the common factor `d p` out of the sum (`norm_split`, which needs real entries).
  Also here: the wrap of a negative index leaves a nonnegative word alone.
-/
import proofs.«106924_j48077863911624_2_alg».proof.Proof.LibEdgeAgg
import proofs.«106924_j48077863911624_2_alg».proof.Proof.LibGatherRows
import proofs.«106924_j48077863911624_2_alg».proof.Proof.LibNormSplit

noncomputable section

open scoped BigOperators

namespace Cert.Lib

open Idealize.ShloMosaic Idealize.ShloMosaic.ValueIdx

/-- The wrap `x < 0 ? x + n : x` of a signed word that is not negative is the word itself. -/
theorem wrap_of_nonneg (x a : BitVec 32) (h : 0 ≤ x.toInt) : Scalar.select (IntOp.cmpi .slt x 0#32) a x = x := by
  have hs : x.slt 0#32 = false := by
    simp only [BitVec.slt, BitVec.toInt_zero, decide_eq_false_iff_not, not_lt]
    exact h
  unfold Scalar.select IntOp.cmpi
  simp [hs]

variable {N D R : ℕ}

/-- The two computations of the normalised neighbourhood sum agree at `(p, k)`. -/
theorem norm_agg_split (hN : 0 < N)
    (wfG : GatherDims.WF ⟨2, ![N, D]⟩ ⟨2, ![R, 1]⟩ ⟨2, ![R, D]⟩ [1] [0] [] [0] [] 1 ![1, D])
    (wfS : ScatterDims.WF ⟨2, ![N, D]⟩ ⟨2, ![R, 1]⟩ ⟨2, ![R, D]⟩ [1] [0] [0] 1)
    (wfV : GatherDims.WF ⟨1, ![N]⟩ ⟨2, ![R, 1]⟩ ⟨1, ![R]⟩ [] [0] [] [0] [] 1 ![1])
    (hz : (⟨0, ![]⟩ : Shape).BroadcastsInDim ⟨2, ![N, D]⟩ (![] : Fin 0 → Fin 2))
    (hc : (⟨1, ![R]⟩ : Shape).BroadcastsInDim ⟨2, ![R, 1]⟩ (![0] : Fin 1 → Fin 2))
    (hb : (⟨2, ![R, 1]⟩ : Shape).BroadcastsInDim ⟨2, ![R, D]⟩ (![0, 1] : Fin 2 → Fin 2))
    (P Hs : (⟨2, ![N, D]⟩ : Shape).Idx → EReal) (d : (⟨1, ![N]⟩ : Shape).Idx → EReal)
    (hP : ∀ i, ∃ r : ℝ, P i = (r : EReal)) (hd : ∀ i, ∃ r : ℝ, d i = (r : EReal))
    (hHs : ∀ (q : Fin N) (k : Fin D), Hs (ix2 q k) = P (ix2 q k) * d (ix1 q))
    (sw dv tn : IVec ⟨1, ![R]⟩ 32)
    (htn : ∀ (e : Fin R) (p : Fin N), (dv (ix1 e)).toInt = (p.val : ℤ) → min (tn (ix1 e)).toInt.toNat (N - 1) = p.val)
    (p : Fin N) (k : Fin D) :
    d (ix1 p) * Host.scatterAdd (F := Ideal) (φ := .f32) (rowsScatter N D R wfS)
          (broadcastInDim ⟨2, ![N, D]⟩ ![] hz (constant (F := Ideal) ⟨0, ![]⟩ .f32 0x00000000#32))
          (broadcastInDim ⟨2, ![R, 1]⟩ ![0] hc dv)
          (Host.gather (rowsTake N D R wfG) Hs (broadcastInDim ⟨2, ![R, 1]⟩ ![0] hc sw)) (ix2 p k)
      = Host.scatterAdd (F := Ideal) (φ := .f32) (rowsScatter N D R wfS)
          (broadcastInDim ⟨2, ![N, D]⟩ ![] hz (constant (F := Ideal) ⟨0, ![]⟩ .f32 0x00000000#32))
          (broadcastInDim ⟨2, ![R, 1]⟩ ![0] hc dv)
          (mulf (Host.gather (rowsTake N D R wfG) P (broadcastInDim ⟨2, ![R, 1]⟩ ![0] hc sw))
            (broadcastInDim ⟨2, ![R, D]⟩ ![0, 1] hb (broadcastInDim ⟨2, ![R, 1]⟩ ![0] hc
              (mulf (F := Ideal) (φ := .f32) (Host.gather (flatTake N R wfV) d (broadcastInDim ⟨2, ![R, 1]⟩ ![0] hc sw))
                (Host.gather (flatTake N R wfV) d (broadcastInDim ⟨2, ![R, 1]⟩ ![0] hc tn)))))) (ix2 p k) := by
  -- the clamped readings of the source and of the looked-up target, as node numbers
  let sN : Fin R → Fin N := fun e => ⟨min (sw (ix1 e)).toInt.toNat (N - 1), by omega⟩
  let tN : Fin R → Fin N := fun e => ⟨min (tn (ix1 e)).toInt.toNat (N - 1), by omega⟩
  have hcol : ∀ (w : IVec ⟨1, ![R]⟩ 32) (e : Fin R),
      (⟨min (broadcastInDim ⟨2, ![R, 1]⟩ ![0] hc w (ix2 e (0 : Fin 1))).toInt.toNat (N - 1), by omega⟩ : Fin N)
        = ⟨min (w (ix1 e)).toInt.toNat (N - 1), by omega⟩ := fun w e =>
    Fin.ext (congrArg (fun z : BitVec 32 => min z.toInt.toNat (N - 1)) (col_apply hc w e 0))
  have hgd : ∀ (w : IVec ⟨1, ![R]⟩ 32) (e : Fin R),
      Host.gather (flatTake N R wfV) d (broadcastInDim ⟨2, ![R, 1]⟩ ![0] hc w) (ix1 e)
        = d (ix1 ⟨min (w (ix1 e)).toInt.toNat (N - 1), by omega⟩) := fun w e => by
    rw [gather_flatTake_apply hN, hcol]
  -- the weighted side
  rw [agg_rows_apply hN wfG wfS hz hc hb P sw dv _ p k]
  -- the pre-scaled side
  rw [scatterAdd_rowsScatter_apply, zeros_apply, zero_add]
  have hf : (Finset.univ.filter fun e : Fin R =>
        (broadcastInDim ⟨2, ![R, 1]⟩ ![0] hc dv (ix2 e (0 : Fin 1))).toInt = (p.val : ℤ))
      = Finset.univ.filter fun e : Fin R => (dv (ix1 e)).toInt = (p.val : ℤ) :=
    Finset.filter_congr fun e _ => by rw [col_apply]
  rw [hf]
  have hl : ∀ e : Fin R, Host.gather (rowsTake N D R wfG) Hs (broadcastInDim ⟨2, ![R, 1]⟩ ![0] hc sw) (ix2 e k)
      = P (ix2 (sN e) k) * d (ix1 (sN e)) := fun e => by
    rw [gather_rowsTake_apply hN, hcol, hHs]
  have hr : ∀ e : Fin R,
      P (ix2 (⟨min (sw (ix1 e)).toInt.toNat (N - 1), by omega⟩ : Fin N) k)
          * mulf (F := Ideal) (φ := .f32) (Host.gather (flatTake N R wfV) d (broadcastInDim ⟨2, ![R, 1]⟩ ![0] hc sw))
              (Host.gather (flatTake N R wfV) d (broadcastInDim ⟨2, ![R, 1]⟩ ![0] hc tn)) (ix1 e)
        = P (ix2 (sN e) k) * (d (ix1 (sN e)) * d (ix1 (tN e))) := fun e => by
    rw [mulf_apply, hgd, hgd]
  rw [Finset.sum_congr rfl fun e _ => hl e, Finset.sum_congr rfl fun e _ => hr e]
  exact norm_split (Finset.univ.filter fun e : Fin R => (dv (ix1 e)).toInt = (p.val : ℤ)) sN tN p
    (fun e he => Fin.ext (htn e p (Finset.mem_filter.mp he).2))
    (fun v => P (ix2 v k)) (fun v => d (ix1 v)) (fun v => hP _) (fun v => hd _)

end Cert.Lib

end
-- ==== Proof.LibScatterVec.lean ====
/-
  Entries accumulated into a vector along its one axis, read at an index.

  A segment sum of scalars adds `R` update values `upd : [R]` into the entries of an accumulator `acc : [N]`, the
  entry each value goes to named by a column of `R` entry numbers `idx : [R, 1]` (a weighted in-degree: the
  weights of the edges, accumulated at the node each edge arrives at).

  The accumulation's entry `p` is the operand's entry plus the sum, over the update positions `e` whose entry
  number `idx(e, 0)`, read as a signed integer and NOT clamped, is exactly `p`, of the update's value at `e`; an
  update whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-- The dimension numbers of the scalar accumulation `acc[idx] += upd` for `acc : [N]`, `idx : [R, 1]`,
    `upd : [R]`: the updates have no window axis, the operand's one axis is inserted and is the one the entry
    number names. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the operand's axis the window of update position `j` starts at the entry number `idx(j₀, 0)`, read signed. -/
theorem start_vecScatter_zero {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecScatter N R wf).start j idx 0 = (idx (ix2 (j 0) (0 : Fin 1))).toInt := by
  unfold ScatterDims.start
  rw [dif_pos (show (0 : Fin 1) ∈ (vecScatter N R wf).scatterDimsToOperandDims from List.mem_singleton.mpr rfl)]
  have hsi : (vecScatter N R wf).siIdx j ⟨List.idxOf (0 : Fin 1) (vecScatter N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The operand's axis is an inserted one: the window coordinate on it is `0`. -/
theorem window_vecScatter_zero {N R : Nat}
    (wf : ScatterDims.WF ⟨1, ![N]⟩ ⟨2, ![R, 1]⟩ ⟨1, ![R]⟩ [] [0] [0] 1)
    (j : (⟨1, ![R]⟩ : Shape).Idx) :
    (vecScatter N R wf).window j 0 = 0 := by
  unfold ScatterDims.window
  rw [dif_neg (show (0 : Fin 1) ∉ (vecScatter N R wf).sKept from
    (by decide : (0 : Fin 1) ∉ (List.finRange 1).filter (· ∉ ([0] : List (Fin 1)))))]

/-- Update position `j` lands on the operand's entry `p` exactly when its entry number `idx(j₀, 0)`, read signed,
    is `p`; an entry number outside `[0, N)` lands on no entry. -/
theorem resultIdx_vecScatter {N R w : Nat}
    (wf : ScatterDims.WF ⟨1, ![N]⟩ ⟨2, ![R, 1]⟩ ⟨1, ![R]⟩ [] [0] [0] 1)
    (j : (⟨1, ![R]⟩ : Shape).Idx) (idx : IVec ⟨2, ![R, 1]⟩ w) (p : Fin N) :
    (vecScatter N R wf).resultIdx? j idx = some (ix1 p)
      ↔ (idx (ix2 (j 0) (0 : Fin 1))).toInt = (p.val : ℤ) := by
  have hs0 := start_vecScatter_zero wf j idx
  have hw0 := window_vecScatter_zero wf j
  have hpN : p.val < N := p.isLt
  unfold ScatterDims.resultIdx?
  split
  · rename_i h
    rw [Option.some.injEq]
    constructor
    · intro hf
      have h0 : ((vecScatter N R wf).start j idx 0 + ((vecScatter N R wf).window j 0 : ℤ)).toNat = p.val :=
        congrArg Fin.val (congrFun hf 0)
      have hh0 := (h 0).1
      rw [hs0, hw0] at h0 hh0
      omega
    · intro hp
      funext a
      refine Fin.ext ?_
      match a with
      | ⟨0, _⟩ =>
        show ((vecScatter N R wf).start j idx 0 + ((vecScatter N R wf).window j 0 : ℤ)).toNat = p.val
        rw [hs0, hw0, hp]; omega
  · rename_i h
    constructor
    · intro hf; cases hf
    · intro hp
      exfalso; apply h
      intro a
      match a with
      | ⟨0, _⟩ =>
        show 0 ≤ (vecScatter N R wf).start j idx 0 + ((vecScatter N R wf).window j 0 : ℤ)
          ∧ (vecScatter N R wf).start j idx 0 + ((vecScatter N R wf).window j 0 : ℤ) < (N : ℤ)
        rw [hs0, hw0, hp]; omega

/-- The scalar accumulation at `p`: the operand's entry plus the sum of the updates' values over the update
    positions `e` whose entry number `idx(e, 0)`, read signed and not clamped, is `p`. -/
theorem scatterAdd_vecScatter_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (p : Fin N) :
    Host.scatterAdd (F := Ideal) (φ := .f32) (vecScatter N R wf) x idx upd (ix1 p)
      = x (ix1 p)
        + ∑ e ∈ Finset.univ.filter (fun e : Fin R => (idx (ix2 e (0 : Fin 1))).toInt = (p.val : ℤ)),
            upd (ix1 e) := by
  show x (ix1 p) + ∑ j ∈ Finset.univ.filter
      (fun j => (vecScatter N R wf).resultIdx? j idx = some (ix1 p)), upd j = _
  congr 1
  symm
  refine Finset.sum_bij (fun e _ => ix1 e) ?_ ?_ ?_ ?_
  · intro e he
    rw [Finset.mem_filter] at he ⊢
    exact ⟨Finset.mem_univ _, (resultIdx_vecScatter wf (ix1 e) idx p).mpr he.2⟩
  · intro e₁ _ e₂ _ h
    exact congrFun h 0
  · intro j hj
    rw [Finset.mem_filter] at hj
    have hj' := (resultIdx_vecScatter wf j idx p).mp hj.2
    exact ⟨j 0, Finset.mem_filter.mpr ⟨Finset.mem_univ _, hj'⟩, (eq_ix1 j).symm⟩
  · intro e _
    rfl

end Cert.Lib

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibDenseLayers.lean ====
/-
  The three dense layers of a graph network as functions of whole arrays, entry by entry, on the extended reals.

  `affine X W b` is a linear layer: entry (r, c) is row r of X against column c of W, plus b c. `product X W` is the same
  without the bias. `biasRelu X b` adds b c to entry (r, c) and takes the larger of that and zero. Each is stated for any
  extents, so that the same function describes a block of rows and the whole array: a block of rows of a layer's output is
  the layer applied to that block of rows of its input, which is all a row-tiled launch needs.

  Below, each of the two ways such a layer is computed is read at an entry: a block kernel's arithmetic (a matrix
  unit's product of the operands, converted to a narrower float format on the way in — the identity here — into a zero
  accumulator, the bias laid out as one row and repeated down the rows), and the host's (a general dot product, the bias
  broadcast in two steps, the zero of the maximum broadcast from a scalar).
-/
import proofs.«106924_j48077863911624_2_alg».proof.Proof.LibMatDot
import proofs.«106924_j48077863911624_2_alg».proof.Proof.LibAsRow
import proofs.«106924_j48077863911624_2_alg».proof.Proof.LibSlabs
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx Cert.Lib
open scoped BigOperators

variable {n K M : ℕ}

/-- A linear layer with bias: entry (r, c) is the sum over k of X (r, k) · W (k, c), plus b c. -/
def affine (X : FVec Ideal ⟨2, ![n, K]⟩ .f32) (W : FVec Ideal ⟨2, ![K, M]⟩ .f32) (b : FVec Ideal ⟨1, ![M]⟩ .f32) :
    FVec Ideal ⟨2, ![n, M]⟩ .f32 :=
  fun i => (∑ k : Fin K, X (ix2 (i 0) k) * W (ix2 k (i 1))) + b (ix1 (i 1))

/-- A linear layer without bias: entry (r, c) is the sum over k of X (r, k) · W (k, c). -/
def product (X : FVec Ideal ⟨2, ![n, K]⟩ .f32) (W : FVec Ideal ⟨2, ![K, M]⟩ .f32) : FVec Ideal ⟨2, ![n, M]⟩ .f32 :=
  fun i => ∑ k : Fin K, X (ix2 (i 0) k) * W (ix2 k (i 1))

/-- Bias, then the larger of the sum and zero: entry (r, c) is max (X (r, c) + b c) 0. -/
def biasRelu (X : FVec Ideal ⟨2, ![n, M]⟩ .f32) (b : FVec Ideal ⟨1, ![M]⟩ .f32) : FVec Ideal ⟨2, ![n, M]⟩ .f32 :=
  fun i => max (X i + b (ix1 (i 1))) (Ideal.ofBits .f32 0x00000000#32)

theorem affine_apply (X : FVec Ideal ⟨2, ![n, K]⟩ .f32) (W : FVec Ideal ⟨2, ![K, M]⟩ .f32) (b : FVec Ideal ⟨1, ![M]⟩ .f32)
    (p : Fin n) (q : Fin M) : affine X W b (ix2 p q) = (∑ k : Fin K, X (ix2 p k) * W (ix2 k q)) + b (ix1 q) := rfl

theorem product_apply (X : FVec Ideal ⟨2, ![n, K]⟩ .f32) (W : FVec Ideal ⟨2, ![K, M]⟩ .f32)
    (p : Fin n) (q : Fin M) : product X W (ix2 p q) = ∑ k : Fin K, X (ix2 p k) * W (ix2 k q) := rfl

theorem biasRelu_apply (X : FVec Ideal ⟨2, ![n, M]⟩ .f32) (b : FVec Ideal ⟨1, ![M]⟩ .f32) (p : Fin n) (q : Fin M) :
    biasRelu X b (ix2 p q) = max (X (ix2 p q) + b (ix1 q)) (Ideal.ofBits .f32 0x00000000#32) := rfl

/-! ## A block kernel's arithmetic at an entry -/

/-- The bias as the kernel lays it out — the vector as one row, the row repeated down n rows — reads b c at (r, c). -/
theorem biasRows_apply (b : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    broadcastTo ⟨2, ![n, M]⟩ (shapeCast ⟨2, ![1, M]⟩ b hs) hb (ix2 p q) = b (ix1 q) := by
  rw [broadcastTo_1b_ab_apply, shapeCast_a_1a_apply]

/-- The matrix unit's product of the two operands, each converted to a narrower format on the way in, into a zero
    accumulator, plus the bias laid out in rows: the linear layer's entry. -/
theorem kernelAffine_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32)
    (x2 : FVec Ideal ⟨1, ![M]⟩ .f32) (hs : (⟨1, ![M]⟩ : Shape).ShapeCasts ⟨2, ![1, M]⟩)
    (hb : (⟨2, ![1, M]⟩ : Shape).Broadcasts ⟨2, ![n, M]⟩) (p : Fin n) (q : Fin M) :
    addf (matmul (matDot wf) none (truncf ψ x0 h) (truncf ψ x1 h) (constant ⟨2, ![n, M]⟩ .f32 0x00000000#32))
        (broadcastTo ⟨2, ![n, M]⟩ (shapeCast ⟨2, ![1, M]⟩ x2 hs) hb) (ix2 p q)
      = affine x0 x1 x2 (ix2 p q) := by
  show FloatOps.matmul (matDot wf) none (truncf ψ x0 h) (truncf ψ x1 h) (constant ⟨2, ![n, M]⟩ .f32 0x00000000#32) (ix2 p q)
      + broadcastTo ⟨2, ![n, M]⟩ (shapeCast ⟨2, ![1, M]⟩ x2 hs) hb (ix2 p q) = _
  rw [matmul_plain_zero_apply, biasRows_apply]
  rfl

/-- The same without the bias. -/
theorem kernelProduct_apply (wf : DotDims.WF ⟨2, ![n, K]⟩ ⟨2, ![K, M]⟩ ⟨2, ![n, M]⟩ [1] [0] [0] [1] [] []) {ψ : FTy}
    (h : ψ.bits < FTy.f32.bits) (x0 : FVec Ideal ⟨2, ![n, K]⟩ .f32) (x1 : FVec Ideal ⟨2, ![K, M]⟩ .f32) (p : Fin n) (q : Fin M) :
    matmul (matDot wf) none (truncf ψ x0 h) (truncf ψ x1 h) (constant ⟨2, ![n, M]⟩ .f32 0x00000000#32) (ix2 p q)
      = product x0 x1 (ix2 p q) := by
  show FloatOps.matmul (matDot wf) none (truncf ψ x0 h) (truncf ψ x1 h) (constant ⟨2, ![n, M]⟩ .f32 0x00000000#32) (ix2 p q) = _
  rw [matmul_plain_zero_apply]
  rfl

/-- The block plus the bias laid out in rows, against a zero repeated over the block. -/
theorem kernelBiasRelu_apply (x0 : FVec Ideal ⟨2, ![n, M]⟩ .f32) (x1 : FVec Ideal ⟨1, ![M]⟩ .f32)
    (hs : (⟨1, ![M]⟩ : Shape).ShapeCasts ⟨2, ![1, M]⟩) (hb : (⟨2, ![1, M]⟩ : Shape).Broadcasts ⟨2, ![n, M]⟩) (p : Fin n) (q : Fin M) :
    maximumf (addf x0 (broadcastTo ⟨2, ![n, M]⟩ (shapeCast ⟨2, ![1, M]⟩ x1 hs) hb))
        (broadcast ⟨2, ![n, M]⟩ (Scalar.ofBits (F := Ideal) .f32 0x00000000#32)) (ix2 p q)
      = biasRelu x0 x1 (ix2 p q) := by
  show max (x0 (ix2 p q) + broadcastTo ⟨2, ![n, M]⟩ (shapeCast ⟨2, ![1, M]⟩ x1 hs) hb (ix2 p q)) _ = _
  rw [biasRows_apply]
  rfl

/-! ## The host's arithmetic at an entry -/

/-- The bias as the host lays it out — the vector broadcast into one row, the row broadcast down n rows — reads b c. -/
theorem hostBias_apply (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) (p : Fin n) (q : Fin M) :
    broadcastInDim ⟨2, ![n, M]⟩ ![0, 1] h2 (broadcastInDim ⟨2, ![1, M]⟩ ![1] h1 b) (ix2 p q) = b (ix1 q) := by
  rw [rows_of_oneRow, broadcastInDim_eq_asRow]
  rfl

/-- The host's general dot product plus the bias broadcast: the linear layer, as whole arrays. -/
theorem hostAffine (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2)) :
    addf (Host.dotGeneral (F := Ideal) (matDot wf) none X W)
        (broadcastInDim ⟨2, ![n, M]⟩ ![0, 1] h2 (broadcastInDim ⟨2, ![1, M]⟩ ![1] h1 b)) = affine X W b := by
  funext i
  obtain ⟨p, q, rfl⟩ : ∃ (p : Fin n) (q : Fin M), i = ix2 p q := ⟨i 0, i 1, eq_ix2 i⟩
  show FloatOps.dotGeneral (matDot wf) none _ X W (ix2 p q)
      + broadcastInDim ⟨2, ![n, M]⟩ ![0, 1] h2 (broadcastInDim ⟨2, ![1, M]⟩ ![1] h1 b) (ix2 p q) = _
  rw [dotGeneral_plain_apply, hostBias_apply]
  rfl

/-- The host's general dot product alone. -/
theorem hostProduct (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) :
    Host.dotGeneral (F := Ideal) (matDot wf) none X W = product X W := by
  funext i
  obtain ⟨p, q, rfl⟩ : ∃ (p : Fin n) (q : Fin M), i = ix2 p q := ⟨i 0, i 1, eq_ix2 i⟩
  show FloatOps.dotGeneral (matDot wf) none _ X W (ix2 p q) = _
  rw [dotGeneral_plain_apply]
  rfl

/-- The host's sum with the broadcast bias, then its maximum with a zero broadcast from a scalar. -/
theorem hostBiasRelu (X : FVec Ideal ⟨2, ![n, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2)) :
    maximumf (addf X (broadcastInDim ⟨2, ![n, M]⟩ ![0, 1] h2 (broadcastInDim ⟨2, ![1, M]⟩ ![1] h1 b)))
        (broadcastInDim ⟨2, ![n, M]⟩ ![] h0 (constant (F := Ideal) ⟨0, ![]⟩ .f32 0x00000000#32)) = biasRelu X b := by
  funext i
  obtain ⟨p, q, rfl⟩ : ∃ (p : Fin n) (q : Fin M), i = ix2 p q := ⟨i 0, i 1, eq_ix2 i⟩
  show max (X (ix2 p q) + broadcastInDim ⟨2, ![n, M]⟩ ![0, 1] h2 (broadcastInDim ⟨2, ![1, M]⟩ ![1] h1 b) (ix2 p q))
      (broadcastInDim ⟨2, ![n, M]⟩ ![] h0 (constant (F := Ideal) ⟨0, ![]⟩ .f32 0x00000000#32) (ix2 p q)) = _
  rw [hostBias_apply]
  rfl

end Cert.Gcn

end
-- ==== Proof.CoreFacts.lean ====
/-
  Facts about the shared stages: reals, valid targets, and the two ways of summing a neighbourhood.

  * Every node's in-degree is a real number (a finite sum of ones), so its scale is one: where the degree is positive the
    reciprocal square root of a positive real, elsewhere zero.
  * An edge whose target word is a node number `p` reads, after the wrap of negative indices and the clamp of a lookup,
    the same node `p`.
  * Hence, for real node features `P` and their rows pre-scaled by the nodes' scales (`Hs`), the scale of `p` times the
    unweighted sum of the pre-scaled source rows into `p` is the sum weighted edge by edge (`norm_agg_split`), for 128 and
    for 64 columns; and that weighted sum of real features is real.
-/
import proofs.«106924_j48077863911624_2_alg».proof.Proof.Stages
import proofs.«106924_j48077863911624_2_alg».proof.Proof.LibNormAgg
import proofs.«106924_j48077863911624_2_alg».proof.Proof.LibScatterVec
import proofs.«106924_j48077863911624_2_alg».proof.Proof.LibNodeMean
import proofs.«106924_j48077863911624_2_alg».proof.Proof.LibRealEntries
import proofs.«106924_j48077863911624_2_alg».proof.Proof.LibPair
import proofs.«106924_j48077863911624_2_alg».proof.Proof.LibDenseLayers
import Idealize.ShloMosaic.Lib.ValueLayout

set_option maxRecDepth 16384

noncomputable section

namespace Cert.KernelIdeal.Core

open Cert.KernelIdeal Cert.KernelIdeal.KStages Idealize.ShloMosaic Idealize.ShloMosaic.ValueIdx Cert.Lib
open Cert.KernelIdeal.Facts₀ Cert.KernelIdeal.Facts
open scoped BigOperators

variable (a1 : IVec S2x600000 32)

/-- The zero word repeated over any shape reads `0`. -/
theorem zeros_at {t : Shape} (h : S_.BroadcastsInDim t (![] : Fin 0 → Fin t.rank)) (i : t.Idx) :
    broadcastInDim t ![] h (constant (F := Ideal) S_ .f32 0x00000000#32) i = (0 : EReal) :=
  (splat_apply _ h i).trans Ideal.ofBits_zero_f32

/-- The zero word repeated over any shape reads the zero word. -/
theorem zeroWord_at {t : Shape} (h : S_.BroadcastsInDim t (![] : Fin 0 → Fin t.rank)) (i : t.Idx) :
    broadcastInDim t ![] h (constant (F := Ideal) S_ .f32 0x00000000#32) i = Ideal.ofBits .f32 0x00000000#32 :=
  splat_apply _ h i

/-- The word of one repeated over any shape reads `1`. -/
theorem ones_at {t : Shape} (h : S_.BroadcastsInDim t (![] : Fin 0 → Fin t.rank)) (i : t.Idx) :
    broadcastInDim t ![] h (constant (F := Ideal) S_ .f32 0x3F800000#32) i = (1 : EReal) :=
  (splat_apply _ h i).trans one_word_f32

/-- A lookup into an array of reals is an array of reals. -/
theorem gather_real {s si t : Shape} {w : ℕ} (d : GatherDims s si t) (x : s.Idx → EReal) (hx : AllReal x) (idx : IVec si w) :
    AllReal (Host.gather d x idx) := fun j => hx _

/-- Every in-degree is a real. -/
theorem deg_real : AllReal (deg a1) := fun i => by
  obtain ⟨p, rfl⟩ : ∃ p : Fin 50000, i = ix1 p := ⟨i 0, eq_ix1 i⟩
  unfold deg
  show ∃ r : ℝ, Host.scatterAdd (F := Ideal) (φ := .f32)
      (vecScatter 50000 650000 scatter_S50000_S650000x1_S650000_n_0_0_1_wf) _ _ _ (ix1 p) = (r : EReal)
  rw [scatterAdd_vecScatter_apply, zeros_at]
  refine real_add ⟨0, rfl⟩ (real_sum _ _ fun e => ⟨1, ?_⟩)
  rw [ones_at]; rfl

/-- Every scale is a real. -/
theorem dinv_real : AllReal (dinv a1) := fun i => by
  unfold dinv
  rw [select_apply]
  unfold Scalar.select
  split
  · rename_i hc
    obtain ⟨r, hr⟩ := deg_real a1 i
    rw [cmpf_apply, zeros_at, hr] at hc
    have hpos : (0 : ℝ) < r := by
      rw [Ideal.cmpf_def] at hc
      unfold Ideal.cmp at hc
      by_contra hn
      have : ¬ ((0 : EReal) < (r : EReal)) := fun h => hn (EReal.coe_lt_coe_iff.mp (by simpa using h))
      simp [this] at hc
    show ∃ r' : ℝ, FloatOps.hostUnary (F := Ideal) (φ := .f32) .rsqrt (deg a1 i) = (r' : EReal)
    rw [Ideal.hostUnary_rsqrt_def, hr, Ideal.rsqrt_coe, if_neg (not_lt.mpr hpos.le), if_neg hpos.ne']
    exact ⟨_, rfl⟩
  · exact ⟨0, zeros_at _ i⟩

/-- The scale column at `(p, 0)` is the scale of `p`. -/
theorem dcol_apply (p : Fin 50000) (u : Fin 1) : dcol a1 (ix2 p u) = dinv a1 (ix1 p) := by
  unfold dcol
  exact shapeCast_a_a1_apply _ _ p u

/-- An edge whose target word is the node number `p` looks the target up, wrapped and clamped, at `p`. -/
theorem wrap_dst (e : Fin 650000) (p : Fin 50000) (h : (dstW a1 (ix1 e)).toInt = (p.val : ℤ)) :
    min (wrapW (dstW a1) (ix1 e)).toInt.toNat (50000 - 1) = p.val := by
  have hw : wrapW (dstW a1) (ix1 e) = dstW a1 (ix1 e) := by
    unfold wrapW
    rw [select_apply]
    show Scalar.select (IntOp.cmpi .slt (dstW a1 (ix1 e))
        (broadcastInDim S650000 ![] bcast_S_S650000 (constantI S_ 32 0#32) (ix1 e))) _ _ = _
    rw [splat_apply]
    exact wrap_of_nonneg _ _ (by rw [h]; exact Int.natCast_nonneg _)
  rw [hw, h]
  have := p.isLt
  omega

/-- A narrower-to-wider change of float format is the identity on arrays of extended reals. -/
theorem extf_id {s : Shape} (X : s.Idx → EReal) :
    extf (F := Ideal) (φ := .bf16) .f32 X bitsLt_bf16_f32 = X := rfl

/-- The scale of `p` times the unweighted sum of pre-scaled source rows into `p` is the edge-weighted sum (128 columns). -/
theorem split128 (P Hs : S50000x128.Idx → EReal) (hP : AllReal P)
    (hHs : ∀ (q : Fin 50000) (k : Fin 128), Hs (ix2 q k) = P (ix2 q k) * dinv a1 (ix1 q)) (p : Fin 50000) (k : Fin 128) :
    dinv a1 (ix1 p) * agg128 a1 Hs (ix2 p k) = rAgg128 a1 P (ix2 p k) := by
  unfold agg128 rAgg128 nrm colW
  rw [extf_id]
  exact norm_agg_split (N := 50000) (D := 128) (R := 650000) (by norm_num)
    gather_S50000x128_S650000x1_S650000x128_1_0_n_n_0_1_1128_wf scatter_S50000x128_S650000x1_S650000x128_1_0_0_1_wf
    Cert.ReferenceIdeal.Facts₀.gather_S50000_S650000x1_S650000_n_0_n_n_0_1_1_wf bcast_S_S50000x128 bcast_S650000_S650000x1_0
    Cert.ReferenceIdeal.Facts₀.bcast_S650000x1_S650000x128_0_1 P Hs (dinv a1) hP (dinv_real a1) hHs
    (wrapW (srcW a1)) (dstW a1) (wrapW (dstW a1)) (wrap_dst a1) p k

/-- The same for 64 columns. -/
theorem split64 (P Hs : S50000x64.Idx → EReal) (hP : AllReal P)
    (hHs : ∀ (q : Fin 50000) (k : Fin 64), Hs (ix2 q k) = P (ix2 q k) * dinv a1 (ix1 q)) (p : Fin 50000) (k : Fin 64) :
    dinv a1 (ix1 p) * agg64 a1 Hs (ix2 p k) = rAgg64 a1 P (ix2 p k) := by
  unfold agg64 rAgg64 nrm colW
  rw [extf_id]
  exact norm_agg_split (N := 50000) (D := 64) (R := 650000) (by norm_num)
    gather_S50000x64_S650000x1_S650000x64_1_0_n_n_0_1_164_wf scatter_S50000x64_S650000x1_S650000x64_1_0_0_1_wf
    Cert.ReferenceIdeal.Facts₀.gather_S50000_S650000x1_S650000_n_0_n_n_0_1_1_wf bcast_S_S50000x64 bcast_S650000_S650000x1_0
    Cert.ReferenceIdeal.Facts₀.bcast_S650000x1_S650000x64_0_1 P Hs (dinv a1) hP (dinv_real a1) hHs
    (wrapW (srcW a1)) (dstW a1) (wrapW (dstW a1)) (wrap_dst a1) p k

/-- Every edge weight is a real. -/
theorem nrm_real : AllReal (nrm a1) := fun i => by
  unfold nrm
  rw [mulf_apply]
  exact real_mul (gather_real _ _ (dinv_real a1) _ i) (gather_real _ _ (dinv_real a1) _ i)

/-- The edge-weighted sum of real features is real (128 columns). -/
theorem rAgg128_real (P : S50000x128.Idx → EReal) (hP : AllReal P) : AllReal (rAgg128 a1 P) := fun i => by
  obtain ⟨p, k, rfl⟩ : ∃ (p : Fin 50000) (k : Fin 128), i = ix2 p k := ⟨i 0, i 1, eq_ix2 i⟩
  have h := agg_rows_apply (N := 50000) (D := 128) (R := 650000) (by norm_num)
    gather_S50000x128_S650000x1_S650000x128_1_0_n_n_0_1_1128_wf scatter_S50000x128_S650000x1_S650000x128_1_0_0_1_wf
    bcast_S_S50000x128 bcast_S650000_S650000x1_0 Cert.ReferenceIdeal.Facts₀.bcast_S650000x1_S650000x128_0_1 P
    (wrapW (srcW a1)) (dstW a1) (nrm a1) p k
  have hs : ∃ r : ℝ, (∑ e ∈ Finset.univ.filter (fun e : Fin 650000 => (dstW a1 (ix1 e)).toInt = (p.val : ℤ)),
      P (ix2 (⟨min (wrapW (srcW a1) (ix1 e)).toInt.toNat (50000 - 1), by omega⟩ : Fin 50000) k) * nrm a1 (ix1 e)) = (r : EReal) :=
    real_sum_mul _ _ _ (fun e => hP _) (fun e => nrm_real a1 _)
  obtain ⟨r, hr⟩ := hs
  unfold rAgg128 colW
  exact ⟨r, h.trans hr⟩

/-- The edge-weighted sum of real features is real (64 columns). -/
theorem rAgg64_real (P : S50000x64.Idx → EReal) (hP : AllReal P) : AllReal (rAgg64 a1 P) := fun i => by
  obtain ⟨p, k, rfl⟩ : ∃ (p : Fin 50000) (k : Fin 64), i = ix2 p k := ⟨i 0, i 1, eq_ix2 i⟩
  have h := agg_rows_apply (N := 50000) (D := 64) (R := 650000) (by norm_num)
    gather_S50000x64_S650000x1_S650000x64_1_0_n_n_0_1_164_wf scatter_S50000x64_S650000x1_S650000x64_1_0_0_1_wf
    bcast_S_S50000x64 bcast_S650000_S650000x1_0 Cert.ReferenceIdeal.Facts₀.bcast_S650000x1_S650000x64_0_1 P
    (wrapW (srcW a1)) (dstW a1) (nrm a1) p k
  have hs : ∃ r : ℝ, (∑ e ∈ Finset.univ.filter (fun e : Fin 650000 => (dstW a1 (ix1 e)).toInt = (p.val : ℤ)),
      P (ix2 (⟨min (wrapW (srcW a1) (ix1 e)).toInt.toNat (50000 - 1), by omega⟩ : Fin 50000) k) * nrm a1 (ix1 e)) = (r : EReal) :=
    real_sum_mul _ _ _ (fun e => hP _) (fun e => nrm_real a1 _)
  obtain ⟨r, hr⟩ := hs
  unfold rAgg64 colW
  exact ⟨r, h.trans hr⟩

end Cert.KernelIdeal.Core

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«106924_j48077863911624_2_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.CoreLayers.lean ====
/-
  The three convolutions, kernel against reference, for real inputs.

  The reference's layer on node features `X` is `max (A (X · W) + b) 0`, `A` the edge-weighted neighbourhood sum. The kernel
  never forms `A`: a launch writes `(X · W)` with every row pre-scaled by its node's scale, the host sums source rows into
  target rows unweighted, and the NEXT launch (or, after the last layer, the host) scales row `p` of the sums by the scale
  of `p`, adds the bias and takes the larger of that and zero, before its own product. By the split of the two
  neighbourhood sums (real data), what the kernel finishes IS the reference's layer output; so the next launch's product
  is taken of the same features on both sides, and so on through the three layers.
-/
import proofs.«106924_j48077863911624_2_alg».proof.Proof.CoreFacts
import proofs.«106924_j48077863911624_2_alg».proof.Proof.LibColumnForms

set_option maxRecDepth 16384

noncomputable section

namespace Cert.KernelIdeal.Core

open Cert.KernelIdeal Cert.KernelIdeal.KStages Idealize.ShloMosaic Idealize.ShloMosaic.ValueIdx Cert.Lib Cert.Gcn
open Cert.KernelIdeal.Facts₀ Cert.KernelIdeal.Facts
open scoped BigOperators

variable (a1 : IVec S2x600000 32)

/-- An entry of a product of real matrices is a real. -/
theorem dot_real {n K M : ℕ} (X : (⟨2, ![n, K]⟩ : Shape).Idx → EReal) (W : (⟨2, ![K, M]⟩ : Shape).Idx → EReal)
    (hX : AllReal X) (hW : AllReal W) (p : Fin n) (q : Fin M) :
    ∃ r : ℝ, (∑ j : Fin K, X (ix2 p j) * W (ix2 j q)) = (r : EReal) :=
  real_sum_mul Finset.univ (fun j => X (ix2 p j)) (fun j => W (ix2 j q)) (fun j => hX _) (fun j => hW _)

/-- The reference's feature product at an entry (128 output columns). -/
theorem rdot128_apply (X : S50000x128.Idx → EReal) (W : S128x128.Idx → EReal) (p : Fin 50000) (k : Fin 128) :
    Host.dotGeneral (F := Ideal) (φ₁ := .f32) (φ₂ := .f32) Cert.ReferenceIdeal.dot_S50000x128_S128x128_S50000x128_1_0_0_1_n_n none X W (ix2 p k)
      = ∑ j : Fin 128, X (ix2 p j) * W (ix2 j k) :=
  congrFun (hostProduct (n := 50000) (K := 128) (M := 128) Cert.ReferenceIdeal.Facts₀.dot_S50000x128_S128x128_S50000x128_1_0_0_1_n_n_wf X W) (ix2 p k)

/-- The reference's feature product at an entry (64 output columns). -/
theorem rdot64_apply (X : S50000x128.Idx → EReal) (W : S128x64.Idx → EReal) (p : Fin 50000) (k : Fin 64) :
    Host.dotGeneral (F := Ideal) (φ₁ := .f32) (φ₂ := .f32) Cert.ReferenceIdeal.dot_S50000x128_S128x64_S50000x64_1_0_0_1_n_n none X W (ix2 p k)
      = ∑ j : Fin 128, X (ix2 p j) * W (ix2 j k) :=
  congrFun (hostProduct (n := 50000) (K := 128) (M := 64) Cert.ReferenceIdeal.Facts₀.dot_S50000x128_S128x64_S50000x64_1_0_0_1_n_n_wf X W) (ix2 p k)

theorem rdot128_real (X : S50000x128.Idx → EReal) (W : S128x128.Idx → EReal) (hX : AllReal X) (hW : AllReal W) :
    AllReal (Host.dotGeneral (F := Ideal) (φ₁ := .f32) (φ₂ := .f32) Cert.ReferenceIdeal.dot_S50000x128_S128x128_S50000x128_1_0_0_1_n_n none X W) := fun i => by
  obtain ⟨p, k, rfl⟩ : ∃ (p : Fin 50000) (k : Fin 128), i = ix2 p k := ⟨i 0, i 1, eq_ix2 i⟩
  rw [rdot128_apply]; exact dot_real X W hX hW p k

theorem rdot64_real (X : S50000x128.Idx → EReal) (W : S128x64.Idx → EReal) (hX : AllReal X) (hW : AllReal W) :
    AllReal (Host.dotGeneral (F := Ideal) (φ₁ := .f32) (φ₂ := .f32) Cert.ReferenceIdeal.dot_S50000x128_S128x64_S50000x64_1_0_0_1_n_n none X W) := fun i => by
  obtain ⟨p, k, rfl⟩ : ∃ (p : Fin 50000) (k : Fin 64), i = ix2 p k := ⟨i 0, i 1, eq_ix2 i⟩
  rw [rdot64_apply]; exact dot_real X W hX hW p k

/-- A convolution of the reference at an entry: the weighted sum of the projected features, plus the bias, against zero. -/
theorem rConv128_apply (X : S50000x128.Idx → EReal) (W : S128x128.Idx → EReal) (b : S128.Idx → EReal) (p : Fin 50000) (j : Fin 128) :
    rConv128 a1 X W b (ix2 p j)
      = max (rAgg128 a1 (Host.dotGeneral (F := Ideal) (φ₁ := .f32) (φ₂ := .f32) Cert.ReferenceIdeal.dot_S50000x128_S128x128_S50000x128_1_0_0_1_n_n none X W) (ix2 p j) + b (ix1 j))
          (Ideal.ofBits .f32 0x00000000#32) := by
  unfold rConv128
  rw [maximumf_apply, addf_apply, zeroWord_at, hostBias_apply]

theorem rConv64_apply (X : S50000x128.Idx → EReal) (W : S128x64.Idx → EReal) (b : S64.Idx → EReal) (p : Fin 50000) (j : Fin 64) :
    rConv64 a1 X W b (ix2 p j)
      = max (rAgg64 a1 (Host.dotGeneral (F := Ideal) (φ₁ := .f32) (φ₂ := .f32) Cert.ReferenceIdeal.dot_S50000x128_S128x64_S50000x64_1_0_0_1_n_n none X W) (ix2 p j) + b (ix1 j))
          (Ideal.ofBits .f32 0x00000000#32) := by
  unfold rConv64
  rw [maximumf_apply, addf_apply, zeroWord_at, hostBias_apply]

/-- A convolution of the reference on real features, weights and bias is real. -/
theorem rConv128_real (X : S50000x128.Idx → EReal) (W : S128x128.Idx → EReal) (b : S128.Idx → EReal)
    (hX : AllReal X) (hW : AllReal W) (hb : AllReal b) : AllReal (rConv128 a1 X W b) := fun i => by
  obtain ⟨p, j, rfl⟩ : ∃ (p : Fin 50000) (j : Fin 128), i = ix2 p j := ⟨i 0, i 1, eq_ix2 i⟩
  rw [rConv128_apply]
  exact real_max (real_add (rAgg128_real a1 _ (rdot128_real X W hX hW) _) (hb _)) ⟨0, Ideal.ofBits_zero_f32⟩

/-- What the kernel finishes of a layer — the unweighted sums of the pre-scaled projected rows, scaled by the target's
    scale, plus the bias, against zero — is the reference's layer output (128 columns). -/
theorem layer128 (X : S50000x128.Idx → EReal) (W : S128x128.Idx → EReal) (b : S128.Idx → EReal) (hX : AllReal X) (hW : AllReal W)
    (Hs : S50000x128.Idx → EReal)
    (hHs : ∀ (q : Fin 50000) (k : Fin 128), Hs (ix2 q k) = (∑ j : Fin 128, X (ix2 q j) * W (ix2 j k)) * dinv a1 (ix1 q))
    (p : Fin 50000) (j : Fin 128) :
    max (dinv a1 (ix1 p) * agg128 a1 Hs (ix2 p j) + b (ix1 j)) (Ideal.ofBits .f32 0x00000000#32) = rConv128 a1 X W b (ix2 p j) := by
  rw [rConv128_apply, split128 a1 _ Hs (rdot128_real X W hX hW) (fun q k => by rw [hHs, rdot128_apply]) p j]

/-- The same for the last layer (64 columns). -/
theorem layer64 (X : S50000x128.Idx → EReal) (W : S128x64.Idx → EReal) (b : S64.Idx → EReal) (hX : AllReal X) (hW : AllReal W)
    (Hs : S50000x64.Idx → EReal)
    (hHs : ∀ (q : Fin 50000) (k : Fin 64), Hs (ix2 q k) = (∑ j : Fin 128, X (ix2 q j) * W (ix2 j k)) * dinv a1 (ix1 q))
    (p : Fin 50000) (j : Fin 64) :
    max (dinv a1 (ix1 p) * agg64 a1 Hs (ix2 p j) + b (ix1 j)) (Ideal.ofBits .f32 0x00000000#32) = rConv64 a1 X W b (ix2 p j) := by
  rw [rConv64_apply, split64 a1 _ Hs (rdot64_real X W hX hW) (fun q k => by rw [hHs, rdot64_apply]) p j]

variable (a0 : S50000x128.Idx → EReal) (a4 : S128x128.Idx → EReal) (a5 : S128.Idx → EReal) (a6 : S128x128.Idx → EReal)
  (a7 : S128.Idx → EReal) (a8 : S128x64.Idx → EReal) (a9 : S64.Idx → EReal)

/-- The first launch's output: the projected input features, each row pre-scaled. -/
theorem h1_apply (q : Fin 50000) (k : Fin 128) :
    h1 a0 a1 a4 (ix2 q k) = (∑ j : Fin 128, a0 (ix2 q j) * a4 (ix2 j k)) * dinv a1 (ix1 q) := by
  unfold h1
  rw [scaledProduct_apply, dcol_apply]
  rfl

/-- The second launch's output: the reference's first layer output projected, each row pre-scaled. -/
theorem h2_apply (h0 : AllReal a0) (h4 : AllReal a4) (q : Fin 50000) (k : Fin 128) :
    h2 a0 a1 a4 a5 a6 (ix2 q k) = (∑ j : Fin 128, rConv128 a1 a0 a4 a5 (ix2 q j) * a6 (ix2 j k)) * dinv a1 (ix1 q) := by
  unfold h2
  rw [finishProduct_apply, dcol_apply]
  refine congrArg (· * dinv a1 (ix1 q)) (Finset.sum_congr rfl fun j _ => ?_)
  rw [shapeCast_a_1a_apply]
  exact congrArg (· * a6 (ix2 j k)) (layer128 a1 a0 a4 a5 h0 h4 (h1 a0 a1 a4) (h1_apply a1 a0 a4) q j)

/-- The third launch's output: the reference's second layer output projected, each row pre-scaled. -/
theorem h3_apply (h0 : AllReal a0) (h4 : AllReal a4) (h5 : AllReal a5) (h6 : AllReal a6) (q : Fin 50000) (k : Fin 64) :
    h3 a0 a1 a4 a5 a6 a7 a8 (ix2 q k)
      = (∑ j : Fin 128, rConv128 a1 (rConv128 a1 a0 a4 a5) a6 a7 (ix2 q j) * a8 (ix2 j k)) * dinv a1 (ix1 q) := by
  unfold h3
  rw [finishProduct_apply, dcol_apply]
  refine congrArg (· * dinv a1 (ix1 q)) (Finset.sum_congr rfl fun j _ => ?_)
  rw [shapeCast_a_1a_apply]
  exact congrArg (· * a8 (ix2 j k)) (layer128 a1 (rConv128 a1 a0 a4 a5) a6 a7 (rConv128_real a1 a0 a4 a5 h0 h4 h5) h6
    (h2 a0 a1 a4 a5 a6) (h2_apply a1 a0 a4 a5 a6 h0 h4) q j)

/-- The last layer finished on the host is the reference's third convolution. -/
theorem gcn_eq (h0 : AllReal a0) (h4 : AllReal a4) (h5 : AllReal a5) (h6 : AllReal a6) (h7 : AllReal a7) (h8 : AllReal a8) :
    hfin a1 a9 (h3 a0 a1 a4 a5 a6 a7 a8)
      = rConv64 a1 (rConv128 a1 (rConv128 a1 a0 a4 a5) a6 a7) a8 a9 := by
  funext i
  obtain ⟨p, k, rfl⟩ : ∃ (p : Fin 50000) (k : Fin 64), i = ix2 p k := ⟨i 0, i 1, eq_ix2 i⟩
  unfold hfin
  rw [maximumf_apply, addf_apply, mulf_apply, zeroWord_at, cols_of_oneCol, dcol_apply, rows_of_oneRow, shapeCast_a_1a_apply]
  exact layer64 a1 (rConv128 a1 (rConv128 a1 a0 a4 a5) a6 a7) a8 a9
    (rConv128_real a1 _ a6 a7 (rConv128_real a1 a0 a4 a5 h0 h4 h5) h6 h7) h8
    (h3 a0 a1 a4 a5 a6 a7 a8) (h3_apply a1 a0 a4 a5 a6 a7 a8 h0 h4 h5 h6) p k

end Cert.KernelIdeal.Core

end
-- ==== Proof.CoreReadout.lean ====
/-
  The readout, kernel against host.

  The kernel's readout launch and the reference's host operations compute the same three dense layers of the pooled
  features: the kernel takes the weights converted to a narrower float format (the identity on the extended reals) and
  each bias reshaped to a row and stretched down the rows; the host takes a general dot product and the bias broadcast
  in two steps, the zero of each maximum broadcast from a scalar. Entry by entry both are
  `max (∑ k, X (r, k) · W (k, c) + b c) 0` for the first two layers and `∑ k, X (r, k) · W (k, c) + b c` for the third.
-/
import proofs.«106924_j48077863911624_2_alg».proof.Proof.Stages
import proofs.«106924_j48077863911624_2_alg».proof.Proof.KRegion3
import proofs.«106924_j48077863911624_2_alg».proof.Proof.LibDenseLayers
import Idealize.ShloMosaic.Lib.ValueLayout

set_option maxRecDepth 16384

noncomputable section

namespace Cert.KernelIdeal.Core

open Cert.KernelIdeal Cert.KernelIdeal.KStages Idealize.ShloMosaic Idealize.ShloMosaic.ValueIdx Cert.Lib Cert.Gcn
open scoped BigOperators

variable {n K M : ℕ}

/-- A dense layer followed by the larger-of-zero: the kernel's row-bias spelling is the host's. -/
theorem denseRelu_eq (wf : DotDims.WF ⟨2, ![n, K]⟩ ⟨2, ![K, M]⟩ ⟨2, ![n, M]⟩ [1] [0] [0] [1] [] [])
    (D : DotDims ⟨2, ![n, K]⟩ ⟨2, ![K, M]⟩ ⟨2, ![n, M]⟩) (hD : D = matDot wf)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (h0 : (⟨0, ![]⟩ : Shape).BroadcastsInDim ⟨2, ![n, M]⟩ (![] : Fin 0 → Fin 2))
    (hs : (⟨1, ![M]⟩ : Shape).ShapeCasts ⟨2, ![1, M]⟩) {ψ : FTy} (hψ : ψ.bits < FTy.f32.bits)
    (X : (⟨2, ![n, K]⟩ : Shape).Idx → EReal) (W : (⟨2, ![K, M]⟩ : Shape).Idx → EReal) (b : (⟨1, ![M]⟩ : Shape).Idx → EReal) :
    reluOf (rowAffine (ψ := ψ) X (truncf (F := Ideal) (φ := .f32) ψ W hψ) (shapeCast ⟨2, ![1, M]⟩ b hs))
      = rDenseRelu D h1 h2 h0 X W b := by
  subst hD
  unfold rDenseRelu
  rw [hostBiasRelu]
  funext i
  obtain ⟨p, q, rfl⟩ : ∃ (p : Fin n) (q : Fin M), i = ix2 p q := ⟨i 0, i 1, eq_ix2 i⟩
  rw [reluOf_apply, rowAffine_apply, shapeCast_a_1a_apply, biasRelu_apply]
  show _ = max (FloatOps.dotGeneral (F := Ideal) (φ₁ := .f32) (φ₂ := .f32) (matDot wf) none _ X W (ix2 p q) + b (ix1 q)) _
  rw [dotGeneral_plain_apply]
  rfl

/-- A dense layer alone: the kernel's row-bias spelling is the host's. -/
theorem dense_eq (wf : DotDims.WF ⟨2, ![n, K]⟩ ⟨2, ![K, M]⟩ ⟨2, ![n, M]⟩ [1] [0] [0] [1] [] [])
    (D : DotDims ⟨2, ![n, K]⟩ ⟨2, ![K, M]⟩ ⟨2, ![n, M]⟩) (hD : D = matDot wf)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (hs : (⟨1, ![M]⟩ : Shape).ShapeCasts ⟨2, ![1, M]⟩) {ψ : FTy} (hψ : ψ.bits < FTy.f32.bits)
    (X : (⟨2, ![n, K]⟩ : Shape).Idx → EReal) (W : (⟨2, ![K, M]⟩ : Shape).Idx → EReal) (b : (⟨1, ![M]⟩ : Shape).Idx → EReal) :
    rowAffine (ψ := ψ) X (truncf (F := Ideal) (φ := .f32) ψ W hψ) (shapeCast ⟨2, ![1, M]⟩ b hs)
      = addf (F := Ideal) (φ := .f32) (Host.dotGeneral (F := Ideal) (φ₁ := .f32) (φ₂ := .f32) D none X W)
          (broadcastInDim ⟨2, ![n, M]⟩ ![0, 1] h2 (broadcastInDim ⟨2, ![1, M]⟩ ![1] h1 b)) := by
  subst hD
  rw [hostAffine]
  funext i
  obtain ⟨p, q, rfl⟩ : ∃ (p : Fin n) (q : Fin M), i = ix2 p q := ⟨i 0, i 1, eq_ix2 i⟩
  rw [rowAffine_apply, shapeCast_a_1a_apply, affine_apply]
  rfl

/-- The readout launch computes the reference's readout of the same pooled features. -/
theorem readout_eq (Z : S100x72.Idx → EReal) (a10 : S72x64.Idx → EReal) (a11 : S64.Idx → EReal) (a12 : S64x32.Idx → EReal)
    (a13 : S32.Idx → EReal) (a14 : S32x2.Idx → EReal) (a15 : S2.Idx → EReal) :
    Cert.KernelIdeal.KRegion3.readout Z (truncf (F := Ideal) (φ := .f32) .bf16 a10 Facts₀.bitsLt_bf16_f32)
        (shapeCast S1x64 a11 Facts₀.shapeCasts_S64_S1x64) (truncf (F := Ideal) (φ := .f32) .bf16 a12 Facts₀.bitsLt_bf16_f32)
        (shapeCast S1x32 a13 Facts₀.shapeCasts_S32_S1x32) (truncf (F := Ideal) (φ := .f32) .bf16 a14 Facts₀.bitsLt_bf16_f32)
        (shapeCast S1x2 a15 Facts₀.shapeCasts_S2_S1x2)
      = rReadout Z a10 a11 a12 a13 a14 a15 := by
  unfold Cert.KernelIdeal.KRegion3.readout rReadout
  rw [denseRelu_eq Cert.ReferenceIdeal.Facts₀.dot_S100x72_S72x64_S100x64_1_0_0_1_n_n_wf Cert.ReferenceIdeal.dot_S100x72_S72x64_S100x64_1_0_0_1_n_n rfl
      Cert.ReferenceIdeal.Facts₀.bcast_S64_S1x64_1 Cert.ReferenceIdeal.Facts₀.bcast_S1x64_S100x64_0_1 Cert.ReferenceIdeal.Facts₀.bcast_S_S100x64,
    denseRelu_eq Cert.ReferenceIdeal.Facts₀.dot_S100x64_S64x32_S100x32_1_0_0_1_n_n_wf Cert.ReferenceIdeal.dot_S100x64_S64x32_S100x32_1_0_0_1_n_n rfl
      Cert.ReferenceIdeal.Facts₀.bcast_S32_S1x32_1 Cert.ReferenceIdeal.Facts₀.bcast_S1x32_S100x32_0_1 Cert.ReferenceIdeal.Facts₀.bcast_S_S100x32,
    dense_eq Cert.ReferenceIdeal.Facts₀.dot_S100x32_S32x2_S100x2_1_0_0_1_n_n_wf Cert.ReferenceIdeal.dot_S100x32_S32x2_S100x2_1_0_0_1_n_n rfl
      Cert.ReferenceIdeal.Facts₀.bcast_S2_S1x2_1 Cert.ReferenceIdeal.Facts₀.bcast_S1x2_S100x2_0_1]

end Cert.KernelIdeal.Core

end
-- ==== Proof.Bridge.lean ====
/-
  The two result terms are one: the kernel's readout of its pooled features is the reference's readout of its own.

  By the layer module the feature arrays entering the pool are the same array (for real inputs); the pool and the join
  with the extras are the same host operations on both sides; and the readout launch computes the reference's readout.
-/
import proofs.«106924_j48077863911624_2_alg».proof.Proof.CoreLayers
import proofs.«106924_j48077863911624_2_alg».proof.Proof.CoreReadout

noncomputable section

namespace Cert.KernelIdeal.Core

open Cert.KernelIdeal Cert.KernelIdeal.KStages Idealize.ShloMosaic Idealize.ShloMosaic.ValueIdx Cert.Lib

/-- The kernel's result, in its named stages, is the reference's, in its own, for real features, weights and biases of
    the first three layers. -/
theorem result_terms_eq (a0 : S50000x128.Idx → EReal) (a1 : IVec S2x600000 32) (a2 : IVec S50000 32) (a3 : S100x8.Idx → EReal)
    (a4 : S128x128.Idx → EReal) (a5 : S128.Idx → EReal) (a6 : S128x128.Idx → EReal) (a7 : S128.Idx → EReal)
    (a8 : S128x64.Idx → EReal) (a9 : S64.Idx → EReal) (a10 : S72x64.Idx → EReal) (a11 : S64.Idx → EReal)
    (a12 : S64x32.Idx → EReal) (a13 : S32.Idx → EReal) (a14 : S32x2.Idx → EReal) (a15 : S2.Idx → EReal)
    (h0 : AllReal a0) (h4 : AllReal a4) (h5 : AllReal a5) (h6 : AllReal a6) (h7 : AllReal a7) (h8 : AllReal a8) :
    Cert.KernelIdeal.KRegion3.readout (pooled a2 a3 (hfin a1 a9 (h3 a0 a1 a4 a5 a6 a7 a8)))
        (truncf (F := Ideal) (φ := .f32) .bf16 a10 Facts₀.bitsLt_bf16_f32) (shapeCast S1x64 a11 Facts₀.shapeCasts_S64_S1x64)
        (truncf (F := Ideal) (φ := .f32) .bf16 a12 Facts₀.bitsLt_bf16_f32) (shapeCast S1x32 a13 Facts₀.shapeCasts_S32_S1x32)
        (truncf (F := Ideal) (φ := .f32) .bf16 a14 Facts₀.bitsLt_bf16_f32) (shapeCast S1x2 a15 Facts₀.shapeCasts_S2_S1x2)
      = rReadout (pooled a2 a3 (rConv64 a1 (rConv128 a1 (rConv128 a1 a0 a4 a5) a6 a7) a8 a9)) a10 a11 a12 a13 a14 a15 := by
  rw [readout_eq, gcn_eq a1 a0 a4 a5 a6 a7 a8 a9 h0 h4 h5 h6 h7 h8]

end Cert.KernelIdeal.Core

end
-- ==== Proof.PreReals.lean ====
/-
  The precondition, decoded: the float inputs the value argument needs are arrays of real numbers.

  `finite_inputs` is one word: the `and` of fourteen tests, one per float input, each `all (|x| < +inf)`. If the word is one,
  every test is one, and an array all of whose entries have an absolute value below `+inf` has no infinite entry. Only six
  of the inputs matter to the proof — the node features, the three weight matrices and the first two biases: the
  normalised sum is rearranged only under the first three layers' products.
-/
import proofs.«106924_j48077863911624_2_alg».proof.Pre_finite_inputs
import proofs.«106924_j48077863911624_2_alg».proof.Proof.Gen.Pre_finite_inputs
import proofs.«106924_j48077863911624_2_alg».proof.Proof.LibRealEntries
import proofs.«106924_j48077863911624_2_alg».proof.Proof.LibPair
import Idealize.ShloMosaic.Lib.ReduceAll
import Idealize.ShloMosaic.Lib.ValueIdx

set_option maxRecDepth 16384

noncomputable section

namespace Cert.Pre_finite_inputs.Reals

open Cert.Pre_finite_inputs Idealize.ShloMosaic Idealize.ShloMosaic.ValueIdx Cert.Lib

instance : Subsingleton S_.Idx := ⟨fun a b => funext fun d => d.elim0⟩

/-- The word of `+inf` repeated over any shape reads that word. -/
theorem inf_at {t : Shape} (h : S_.BroadcastsInDim t (![] : Fin 0 → Fin t.rank)) (i : t.Idx) :
    broadcastInDim t ![] h (constant (F := Ideal) S_ .f32 0x7F800000#32) i = Ideal.ofBits .f32 0x7F800000#32 :=
  splat_apply _ h i

/-- If `finite_inputs` answers one, the node features, the three convolution weights and the first two biases are real. -/
theorem reals (x0 : FVec Ideal S50000x128 .f32) (x1 : IVec S2x600000 32) (x2 : IVec S50000 32) (x3 : FVec Ideal S100x8 .f32)
    (x4 : FVec Ideal S128x128 .f32) (x5 : FVec Ideal S128 .f32) (x6 : FVec Ideal S128x128 .f32) (x7 : FVec Ideal S128 .f32)
    (x8 : FVec Ideal S128x64 .f32) (x9 : FVec Ideal S64 .f32) (x10 : FVec Ideal S72x64 .f32) (x11 : FVec Ideal S64 .f32)
    (x12 : FVec Ideal S64x32 .f32) (x13 : FVec Ideal S32 .f32) (x14 : FVec Ideal S32x2 .f32) (x15 : FVec Ideal S2 .f32)
    (h : fn (F := Ideal) x0 x1 x2 x3 x4 x5 x6 x7 x8 x9 x10 x11 x12 x13 x14 x15 = fun _ => 1#1) :
    AllReal x0 ∧ AllReal x4 ∧ AllReal x5 ∧ AllReal x6 ∧ AllReal x7 ∧ AllReal x8 := by
  have h0 := congrFun h ix0
  dsimp only [fn, fn_part1, fn_part2, fn_part3, fn_part4] at h0
  -- the fourteen tests, from the outermost `and` inwards
  obtain ⟨h0, -⟩ := IntOp.andi_eq_one.mp h0   -- drops the test of input 15
  obtain ⟨h0, -⟩ := IntOp.andi_eq_one.mp h0   -- 14
  obtain ⟨h0, -⟩ := IntOp.andi_eq_one.mp h0   -- 13
  obtain ⟨h0, -⟩ := IntOp.andi_eq_one.mp h0   -- 12
  obtain ⟨h0, -⟩ := IntOp.andi_eq_one.mp h0   -- 11
  obtain ⟨h0, -⟩ := IntOp.andi_eq_one.mp h0   -- 10
  obtain ⟨h0, -⟩ := IntOp.andi_eq_one.mp h0   -- 9
  obtain ⟨h0, t8⟩ := IntOp.andi_eq_one.mp h0
  obtain ⟨h0, t7⟩ := IntOp.andi_eq_one.mp h0
  obtain ⟨h0, t6⟩ := IntOp.andi_eq_one.mp h0
  obtain ⟨h0, t5⟩ := IntOp.andi_eq_one.mp h0
  obtain ⟨h0, t4⟩ := IntOp.andi_eq_one.mp h0
  obtain ⟨t0, -⟩ := IntOp.andi_eq_one.mp h0   -- input 0, and drops the test of input 3
  exact ⟨allReal_of_all_abs_lt x0 _ (inf_at _) _ _ _ ix0 t0, allReal_of_all_abs_lt x4 _ (inf_at _) _ _ _ ix0 t4,
    allReal_of_all_abs_lt x5 _ (inf_at _) _ _ _ ix0 t5, allReal_of_all_abs_lt x6 _ (inf_at _) _ _ _ ix0 t6,
    allReal_of_all_abs_lt x7 _ (inf_at _) _ _ _ ix0 t7, allReal_of_all_abs_lt x8 _ (inf_at _) _ _ _ ix0 t8⟩

end Cert.Pre_finite_inputs.Reals

end
-- ==== Proof.lean ====
/-
  The certificate: a three-layer normalised graph convolution with a mean pool and a three-layer readout — the kernel
  (four launches among host operations) against the reference (host operations only), equal at the extended reals.

  The three frames are the generated frame proofs of the two kernel programs and the reference's run with its result
  dropped. The idealization rewrote no operation, so `preserves` is trivial. For `algebraic`: the kernel's run ends with
  the result array at the named stages of its arguments (the run module, the four launch modules and the walk through the
  segment boundaries); the reference's run ends at its composed term, which is the named stages of its arguments; the
  arguments agree; and the two stage terms are equal (the bridge), given that the node features, the convolution weights
  and the first two biases are real — which is what the precondition says of them.
-/
import proofs.«106924_j48077863911624_2_alg».proof.Defs
import proofs.«106924_j48077863911624_2_alg».proof.Proof.Gen.Kernel
import proofs.«106924_j48077863911624_2_alg».proof.Proof.Gen.Kernel.Frame
import proofs.«106924_j48077863911624_2_alg».proof.Proof.Gen.KernelIdeal
import proofs.«106924_j48077863911624_2_alg».proof.Proof.Gen.KernelIdeal.Frame
import proofs.«106924_j48077863911624_2_alg».proof.Proof.Gen.ReferenceIdeal
import proofs.«106924_j48077863911624_2_alg».proof.Proof.Gen.Pre_finite_inputs
import proofs.«106924_j48077863911624_2_alg».proof.Proof.RunP
import proofs.«106924_j48077863911624_2_alg».proof.Proof.KRun
import proofs.«106924_j48077863911624_2_alg».proof.Proof.KHost
import proofs.«106924_j48077863911624_2_alg».proof.Proof.RefTerm
import proofs.«106924_j48077863911624_2_alg».proof.Proof.Bridge
import proofs.«106924_j48077863911624_2_alg».proof.Proof.PreReals
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end, with the result arrays equal entry by entry and the arguments unchanged. -/
theorem algebraic : Cert.algebraic_KernelIdeal_ReferenceIdeal := by
  intro m ρ m' ρ' hpre hagree
  refine ⟨_, (θ_run Cert.KernelIdeal.defs _ _).mono
      (fun r h c => ⟨(h c).1.trans (Cert.KernelIdeal.KHost.result_eq m ρ c), (h c).2⟩)
      (Cert.KernelIdeal.KRun.run_result (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7, e8, e9, e10, e11, e12, e13, e14, e15⟩ := hagree c
  obtain ⟨r0, r4, r5, r6, r7, r8⟩ := Cert.Pre_finite_inputs.Reals.reals _ _ _ _ _ _ _ _ _ _ _ _ _ _ _ _ (hpre c)
  rw [Cert.ReferenceIdeal.RefTerm.res_eq]
  show Cert.KernelIdeal.KStages.rReadout _ _ _ _ _ _ _ = _
  dsimp only [Cert.ReferenceIdeal.RefTerm.B0, Cert.ReferenceIdeal.RefTerm.B1, Cert.ReferenceIdeal.RefTerm.B2,
    Cert.ReferenceIdeal.RefTerm.B3, Cert.ReferenceIdeal.RefTerm.B4, Cert.ReferenceIdeal.RefTerm.B5,
    Cert.ReferenceIdeal.RefTerm.B6, Cert.ReferenceIdeal.RefTerm.B7, Cert.ReferenceIdeal.RefTerm.B8,
    Cert.ReferenceIdeal.RefTerm.B9, Cert.ReferenceIdeal.RefTerm.B10, Cert.ReferenceIdeal.RefTerm.B11,
    Cert.ReferenceIdeal.RefTerm.B12, Cert.ReferenceIdeal.RefTerm.B13, Cert.ReferenceIdeal.RefTerm.B14,
    Cert.ReferenceIdeal.RefTerm.B15]
  rw [e0, e1, e2, e3, e4, e5, e6, e7, e8, e9, e10, e11, e12, e13, e14, e15]
  exact (Cert.KernelIdeal.Core.result_terms_eq _ _ _ _ _ _ _ _ _ _ _ _ _ _ _ _ r0 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
